-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v77)) (v2 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_v102) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x32 : Shape := ⟨2, ![300000, 32]⟩
abbrev S300000x3 : Shape := ⟨2, ![300000, 3]⟩
abbrev S300000 : Shape := ⟨1, ![300000]⟩
abbrev S27x150000 : Shape := ⟨2, ![27, 150000]⟩
abbrev S27x32x32 : Shape := ⟨3, ![27, 32, 32]⟩
abbrev S_ : Shape := ⟨0, ![]⟩

class Facts : Prop where
  bcast_S_S300000x32 : S_.BroadcastsInDim S300000x32 (![] : Fin 0 → Fin S300000x32.rank)
  reducesTo_S300000x32_S_d0_1 : S300000x32.ReducesTo [0, 1] S_
  h_S_ : 0 < S_.numel
  bcast_S_S300000x3 : S_.BroadcastsInDim S300000x3 (![] : Fin 0 → Fin S300000x3.rank)
  reducesTo_S300000x3_S_d0_1 : S300000x3.ReducesTo [0, 1] S_
  bcast_S_S27x32x32 : S_.BroadcastsInDim S27x32x32 (![] : Fin 0 → Fin S27x32x32.rank)
  reducesTo_S27x32x32_S_d0_1_2 : S27x32x32.ReducesTo [0, 1, 2] S_

variable [Facts]

def fn_part1 {F : FTy → Type} [FloatOps F] (main_v13 : IVec S_ 1) (main_v16 : IVec S27x32x32 1) : IVec S_ 1 :=
  let main_c_5 : IVec S_ 1 := constantI S_ 1 1#1
  let main_v17 : IVec S_ 1 := (fun x v => Host.reduce IntOp.andi x v reducesTo_S27x32x32_S_d0_1_2 h_S_) main_v16 main_c_5
  let main_v18 : IVec S_ 1 := andi main_v13 main_v17
  main_v18

def fn {F : FTy → Type} [FloatOps F] (main_arg0 : FVec F S300000x32 .f32) (main_arg1 : FVec F S300000x3 .f32) (main_arg2 : IVec S300000 32) (main_arg3 : IVec S27x150000 32) (main_arg4 : IVec S27x150000 32) (main_arg5 : IVec S300000 32) (main_arg6 : IVec S300000 32) (main_arg7 : FVec F S27x32x32 .f32) (main_arg8 : FVec F S27x32x32 .f32) : IVec S_ 1 :=
  let main_v0 : FVec F S300000x32 .f32 := Host.absf main_arg0
  let main_cst : FVec F S_ .f32 := constant S_ .f32 0x7F800000#32
  let main_v1 : FVec F S300000x32 .f32 := broadcastInDim S300000x32 ![] bcast_S_S300000x32 main_cst
  let main_v2 : IVec S300000x32 1 := cmpf .olt main_v0 main_v1
  let main_c : IVec S_ 1 := constantI S_ 1 1#1
  let main_v3 : IVec S_ 1 := (fun x v => Host.reduce IntOp.andi x v reducesTo_S300000x32_S_d0_1 h_S_) main_v2 main_c
  let main_v4 : FVec F S300000x3 .f32 := Host.absf main_arg1
  let main_cst_0 : FVec F S_ .f32 := constant S_ .f32 0x7F800000#32
  let main_v5 : FVec F S300000x3 .f32 := broadcastInDim S300000x3 ![] bcast_S_S300000x3 main_cst_0
  let main_v6 : IVec S300000x3 1 := cmpf .olt main_v4 main_v5
  let main_c_1 : IVec S_ 1 := constantI S_ 1 1#1
  let main_v7 : IVec S_ 1 := (fun x v => Host.reduce IntOp.andi x v reducesTo_S300000x3_S_d0_1 h_S_) main_v6 main_c_1
  let main_v8 : IVec S_ 1 := andi main_v3 main_v7
  let main_v9 : FVec F S27x32x32 .f32 := Host.absf main_arg7
  let main_cst_2 : FVec F S_ .f32 := constant S_ .f32 0x7F800000#32
  let main_v10 : FVec F S27x32x32 .f32 := broadcastInDim S27x32x32 ![] bcast_S_S27x32x32 main_cst_2
  let main_v11 : IVec S27x32x32 1 := cmpf .olt main_v9 main_v10
  let main_c_3 : IVec S_ 1 := constantI S_ 1 1#1
  let main_v12 : IVec S_ 1 := (fun x v => Host.reduce IntOp.andi x v reducesTo_S27x32x32_S_d0_1_2 h_S_) main_v11 main_c_3
  let main_v13 : IVec S_ 1 := andi main_v8 main_v12
  let main_v14 : FVec F S27x32x32 .f32 := Host.absf main_arg8
  let main_cst_4 : FVec F S_ .f32 := constant S_ .f32 0x7F800000#32
  let main_v15 : FVec F S27x32x32 .f32 := broadcastInDim S27x32x32 ![] bcast_S_S27x32x32 main_cst_4
  let main_v16 : IVec S27x32x32 1 := cmpf .olt main_v14 main_v15
  fn_part1 (F := F) main_v13 main_v16
-- ==== Kernel.lean ====
abbrev S300000x32 : Shape := ⟨2, ![300000, 32]⟩
abbrev S300000x3 : Shape := ⟨2, ![300000, 3]⟩
abbrev S300000 : Shape := ⟨1, ![300000]⟩
abbrev S27x150000 : Shape := ⟨2, ![27, 150000]⟩
abbrev S27x32x32 : Shape := ⟨3, ![27, 32, 32]⟩
abbrev S_ : Shape := ⟨0, ![]⟩
abbrev S32 : Shape := ⟨1, ![32]⟩
abbrev S1x32 : Shape := ⟨2, ![1, 32]⟩
abbrev S5000x32 : Shape := ⟨2, ![5000, 32]⟩
abbrev S27x150000x1 : Shape := ⟨3, ![27, 150000, 1]⟩
abbrev S27x150000x32 : Shape := ⟨3, ![27, 150000, 32]⟩
abbrev S1x6000x32 : Shape := ⟨3, ![1, 6000, 32]⟩
abbrev S1x32x32 : Shape := ⟨3, ![1, 32, 32]⟩
abbrev S6000x32 : Shape := ⟨2, ![6000, 32]⟩
abbrev S32x32 : Shape := ⟨2, ![32, 32]⟩
abbrev S4050000 : Shape := ⟨1, ![4050000]⟩
abbrev S4050000x32 : Shape := ⟨2, ![4050000, 32]⟩
abbrev S300001x32 : Shape := ⟨2, ![300001, 32]⟩
abbrev S4050000x1 : Shape := ⟨2, ![4050000, 1]⟩
abbrev S300000x1 : Shape := ⟨2, ![300000, 1]⟩
abbrev S37501x3 : Shape := ⟨2, ![37501, 3]⟩
abbrev S37500x3 : Shape := ⟨2, ![37500, 3]⟩
abbrev S37501 : Shape := ⟨1, ![37501]⟩
abbrev S37500 : Shape := ⟨1, ![37500]⟩
abbrev S37500x1 : Shape := ⟨2, ![37500, 1]⟩

abbrev nBuf : Space → Nat
  | .hbm => 211
  | .vmem => 24
  | .smem => 0
  | _ => 0

abbrev hbmTy0_0 (i : Nat) : BufTy := match i % 128 with
  | 0 => ⟨S300000x32, .f32⟩
  | 1 => ⟨S300000x3, .f32⟩
  | 2 => ⟨S300000, .i32⟩
  | 3 => ⟨S27x150000, .i32⟩
  | 4 => ⟨S27x150000, .i32⟩
  | 5 => ⟨S300000, .i32⟩
  | 6 => ⟨S300000, .i32⟩
  | 7 => ⟨S27x32x32, .f32⟩
  | 8 => ⟨S27x32x32, .f32⟩
  | 9 => ⟨S_, .f32⟩
  | 10 => ⟨S32, .f32⟩
  | 11 => ⟨S_, .f32⟩
  | 12 => ⟨S32, .f32⟩
  | 13 => ⟨S32, .f32⟩
  | 14 => ⟨S1x32, .f32⟩
  | 15 => ⟨S_, .i32⟩
  | 16 => ⟨S_, .f32⟩
  | 17 => ⟨S32, .f32⟩
  | 18 => ⟨S1x32, .f32⟩
  | 19 => ⟨S_, .f32⟩
  | 20 => ⟨S1x32, .f32⟩
  | 21 => ⟨S1x32, .f32⟩
  | 22 => ⟨S300000x32, .f32⟩
  | 23 => ⟨S300000x32, .f32⟩
  | 24 => ⟨S300000x32, .f32⟩
  | 25 => ⟨S_, .f32⟩
  | 26 => ⟨S_, .f32⟩
  | 27 => ⟨S_, .f32⟩
  | 28 => ⟨S_, .f32⟩
  | 29 => ⟨S32, .f32⟩
  | 30 => ⟨S32, .f32⟩
  | 31 => ⟨S32, .f32⟩
  | 32 => ⟨S_, .f32⟩
  | 33 => ⟨S_, .i1⟩
  | 34 => ⟨S_, .f32⟩
  | 35 => ⟨S_, .f32⟩
  | 36 => ⟨S32, .f32⟩
  | 37 => ⟨S32, .f32⟩
  | 38 => ⟨S1x32, .f32⟩
  | 39 => ⟨S300000x32, .f32⟩
  | 40 => ⟨S_, .i32⟩
  | 41 => ⟨S27x150000, .i32⟩
  | 42 => ⟨S27x150000, .i1⟩
  | 43 => ⟨S_, .i32⟩
  | 44 => ⟨S_, .i32⟩
  | 45 => ⟨S27x150000, .i32⟩
  | 46 => ⟨S27x150000, .i32⟩
  | 47 => ⟨S_, .i32⟩
  | 48 => ⟨S27x150000, .i32⟩
  | 49 => ⟨S27x150000, .i1⟩
  | 50 => ⟨S_, .i32⟩
  | 51 => ⟨S27x150000, .i32⟩
  | 52 => ⟨S27x150000, .i32⟩
  | 53 => ⟨S27x150000, .i32⟩
  | 54 => ⟨S27x150000x1, .i32⟩
  | 55 => ⟨S27x150000x32, .f32⟩
  | 56 => ⟨S27x150000x32, .f32⟩
  | 57 => ⟨S_, .i32⟩
  | 58 => ⟨S_, .i32⟩
  | 59 => ⟨S27x150000, .i32⟩
  | 60 => ⟨S27x150000, .i32⟩
  | 61 => ⟨S4050000, .i32⟩
  | 62 => ⟨S4050000x32, .f32⟩
  | 63 => ⟨S_, .f32⟩
  | 64 => ⟨S300001x32, .f32⟩
  | 65 => ⟨S4050000x1, .i32⟩
  | 66 => ⟨S300001x32, .f32⟩
  | 67 => ⟨S300000x32, .f32⟩
  | 68 => ⟨S_, .f32⟩
  | 69 => ⟨S32, .f32⟩
  | 70 => ⟨S_, .f32⟩
  | 71 => ⟨S32, .f32⟩
  | 72 => ⟨S32, .f32⟩
  | 73 => ⟨S1x32, .f32⟩
  | 74 => ⟨S_, .i32⟩
  | 75 => ⟨S_, .f32⟩
  | 76 => ⟨S32, .f32⟩
  | 77 => ⟨S1x32, .f32⟩
  | 78 => ⟨S_, .f32⟩
  | 79 => ⟨S1x32, .f32⟩
  | 80 => ⟨S1x32, .f32⟩
  | 81 => ⟨S300000x32, .f32⟩
  | 82 => ⟨S300000x32, .f32⟩
  | 83 => ⟨S300000x32, .f32⟩
  | 84 => ⟨S_, .f32⟩
  | 85 => ⟨S_, .f32⟩
  | 86 => ⟨S_, .f32⟩
  | 87 => ⟨S_, .f32⟩
  | 88 => ⟨S32, .f32⟩
  | 89 => ⟨S32, .f32⟩
  | 90 => ⟨S32, .f32⟩
  | 91 => ⟨S_, .f32⟩
  | 92 => ⟨S_, .i1⟩
  | 93 => ⟨S_, .f32⟩
  | 94 => ⟨S_, .f32⟩
  | 95 => ⟨S32, .f32⟩
  | 96 => ⟨S32, .f32⟩
  | 97 => ⟨S1x32, .f32⟩
  | 98 => ⟨S300000x32, .f32⟩
  | 99 => ⟨S_, .i32⟩
  | 100 => ⟨S27x150000, .i32⟩
  | 101 => ⟨S27x150000, .i1⟩
  | 102 => ⟨S_, .i32⟩
  | 103 => ⟨S_, .i32⟩
  | 104 => ⟨S27x150000, .i32⟩
  | 105 => ⟨S27x150000, .i32⟩
  | 106 => ⟨S_, .i32⟩
  | 107 => ⟨S27x150000, .i32⟩
  | 108 => ⟨S27x150000, .i1⟩
  | 109 => ⟨S_, .i32⟩
  | 110 => ⟨S27x150000, .i32⟩
  | 111 => ⟨S27x150000, .i32⟩
  | 112 => ⟨S27x150000, .i32⟩
  | 113 => ⟨S27x150000x1, .i32⟩
  | 114 => ⟨S27x150000x32, .f32⟩
  | 115 => ⟨S27x150000x32, .f32⟩
  | 116 => ⟨S_, .i32⟩
  | 117 => ⟨S_, .i32⟩
  | 118 => ⟨S27x150000, .i32⟩
  | 119 => ⟨S27x150000, .i32⟩
  | 120 => ⟨S4050000, .i32⟩
  | 121 => ⟨S4050000x32, .f32⟩
  | 122 => ⟨S_, .f32⟩
  | 123 => ⟨S300001x32, .f32⟩
  | 124 => ⟨S4050000x1, .i32⟩
  | 125 => ⟨S300001x32, .f32⟩
  | 126 => ⟨S300000x32, .f32⟩
  | 127 => ⟨S300000x32, .f32⟩
  | _ => ⟨S300000x32, .f32⟩

abbrev hbmTy0_1 (i : Nat) : BufTy := match i % 128 with
  | 0 => ⟨S_, .i32⟩
  | 1 => ⟨S300000, .i32⟩
  | 2 => ⟨S300000, .i1⟩
  | 3 => ⟨S_, .i32⟩
  | 4 => ⟨S_, .i32⟩
  | 5 => ⟨S300000, .i32⟩
  | 6 => ⟨S300000, .i32⟩
  | 7 => ⟨S_, .i32⟩
  | 8 => ⟨S300000, .i32⟩
  | 9 => ⟨S300000, .i1⟩
  | 10 => ⟨S_, .i32⟩
  | 11 => ⟨S300000, .i32⟩
  | 12 => ⟨S300000, .i32⟩
  | 13 => ⟨S300000, .i32⟩
  | 14 => ⟨S300000x1, .i32⟩
  | 15 => ⟨S300000x3, .f32⟩
  | 16 => ⟨S300000x1, .i1⟩
  | 17 => ⟨S_, .f32⟩
  | 18 => ⟨S_, .f32⟩
  | 19 => ⟨S300000x3, .i1⟩
  | 20 => ⟨S300000x3, .f32⟩
  | 21 => ⟨S300000x3, .f32⟩
  | 22 => ⟨S_, .i32⟩
  | 23 => ⟨S_, .i32⟩
  | 24 => ⟨S300000, .i32⟩
  | 25 => ⟨S300000, .i32⟩
  | 26 => ⟨S_, .f32⟩
  | 27 => ⟨S37501x3, .f32⟩
  | 28 => ⟨S300000x1, .i32⟩
  | 29 => ⟨S37501x3, .f32⟩
  | 30 => ⟨S37500x3, .f32⟩
  | 31 => ⟨S300000, .f32⟩
  | 32 => ⟨S_, .f32⟩
  | 33 => ⟨S37501, .f32⟩
  | 34 => ⟨S300000x1, .i32⟩
  | 35 => ⟨S37501, .f32⟩
  | 36 => ⟨S37500, .f32⟩
  | 37 => ⟨S_, .f32⟩
  | 38 => ⟨S37500, .f32⟩
  | 39 => ⟨S37500, .f32⟩
  | 40 => ⟨S37500x1, .f32⟩
  | 41 => ⟨S37500x3, .f32⟩
  | 42 => ⟨S37500x3, .f32⟩
  | 43 => ⟨S300000, .f32⟩
  | 44 => ⟨S_, .i32⟩
  | 45 => ⟨S300000, .i32⟩
  | 46 => ⟨S300000, .i1⟩
  | 47 => ⟨S_, .i32⟩
  | 48 => ⟨S_, .i32⟩
  | 49 => ⟨S300000, .i32⟩
  | 50 => ⟨S300000, .i32⟩
  | 51 => ⟨S_, .i32⟩
  | 52 => ⟨S300000, .i32⟩
  | 53 => ⟨S300000, .i1⟩
  | 54 => ⟨S_, .i32⟩
  | 55 => ⟨S300000, .i32⟩
  | 56 => ⟨S300000, .i32⟩
  | 57 => ⟨S300000, .i32⟩
  | 58 => ⟨S300000x1, .i32⟩
  | 59 => ⟨S300000, .f32⟩
  | 60 => ⟨S_, .f32⟩
  | 61 => ⟨S_, .f32⟩
  | 62 => ⟨S300000, .f32⟩
  | 63 => ⟨S300000, .f32⟩
  | 64 => ⟨S_, .i32⟩
  | 65 => ⟨S_, .i32⟩
  | 66 => ⟨S300000, .i32⟩
  | 67 => ⟨S300000, .i32⟩
  | 68 => ⟨S_, .f32⟩
  | 69 => ⟨S37501, .f32⟩
  | 70 => ⟨S300000x1, .i32⟩
  | 71 => ⟨S37501, .f32⟩
  | 72 => ⟨S37500, .f32⟩
  | 73 => ⟨S300000, .f32⟩
  | 74 => ⟨S_, .f32⟩
  | 75 => ⟨S37501, .f32⟩
  | 76 => ⟨S300000x1, .i32⟩
  | 77 => ⟨S37501, .f32⟩
  | 78 => ⟨S37500, .f32⟩
  | 79 => ⟨S_, .f32⟩
  | 80 => ⟨S37500, .f32⟩
  | 81 => ⟨S37500, .f32⟩
  | 82 => ⟨S37500, .f32⟩
  | _ => ⟨S300000x32, .f32⟩

abbrev hbmTy (i : Nat) : BufTy := match i / 128 with
  | 0 => hbmTy0_0 i
  | 1 => hbmTy0_1 i
  | _ => ⟨S300000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S1x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S1x6000x32, .f32⟩
  | .local _ .vmem, ⟨7, _⟩ => ⟨S1x6000x32, .f32⟩
  | .local _ .vmem, ⟨8, _⟩ => ⟨S1x32x32, .f32⟩
  | .local _ .vmem, ⟨9, _⟩ => ⟨S1x32x32, .f32⟩
  | .local _ .vmem, ⟨10, _⟩ => ⟨S1x6000x32, .f32⟩
  | .local _ .vmem, ⟨11, _⟩ => ⟨S1x6000x32, .f32⟩
  | .local _ .vmem, ⟨12, _⟩ => ⟨S5000x32, .f32⟩
  | .local _ .vmem, ⟨13, _⟩ => ⟨S5000x32, .f32⟩
  | .local _ .vmem, ⟨14, _⟩ => ⟨S1x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S1x6000x32, .f32⟩
  | .local _ .vmem, ⟨19, _⟩ => ⟨S1x6000x32, .f32⟩
  | .local _ .vmem, ⟨20, _⟩ => ⟨S1x32x32, .f32⟩
  | .local _ .vmem, ⟨21, _⟩ => ⟨S1x32x32, .f32⟩
  | .local _ .vmem, ⟨22, _⟩ => ⟨S1x6000x32, .f32⟩
  | .local _ .vmem, ⟨23, _⟩ => ⟨S1x6000x32, .f32⟩
  | _, _ => ⟨S300000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_cst_3 : Ref sig .tc := ⟨.hbm, 32, rfl⟩
abbrev main_call0_v12 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_c_1 : Ref sig .tc := ⟨.hbm, 40, rfl⟩
abbrev main_v7 : Ref sig .tc := ⟨.hbm, 41, rfl⟩
abbrev main_v8 : Ref sig .tc := ⟨.hbm, 42, rfl⟩
abbrev main_c_2 : Ref sig .tc := ⟨.hbm, 43, rfl⟩
abbrev main_call1_v0 : Ref sig .tc := ⟨.hbm, 44, rfl⟩
abbrev main_call1_v1 : Ref sig .tc := ⟨.hbm, 45, rfl⟩
abbrev main_v9 : Ref sig .tc := ⟨.hbm, 46, rfl⟩
abbrev main_c_3 : Ref sig .tc := ⟨.hbm, 47, rfl⟩
abbrev main_v10 : Ref sig .tc := ⟨.hbm, 48, rfl⟩
abbrev main_v11 : Ref sig .tc := ⟨.hbm, 49, rfl⟩
abbrev main_c_4 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_5 : Ref sig .tc := ⟨.hbm, 57, rfl⟩
abbrev main_call2_v0 : Ref sig .tc := ⟨.hbm, 58, rfl⟩
abbrev main_call2_v1 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_6 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst_7 : Ref sig .tc := ⟨.hbm, 68, rfl⟩
abbrev main_v25 : Ref sig .tc := ⟨.hbm, 69, rfl⟩
abbrev main_cst_8 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_c_9 : Ref sig .tc := ⟨.hbm, 74, rfl⟩
abbrev main_call3_cst : Ref sig .tc := ⟨.hbm, 75, rfl⟩
abbrev main_call3_v0 : Ref sig .tc := ⟨.hbm, 76, rfl⟩
abbrev main_call3_v1 : Ref sig .tc := ⟨.hbm, 77, rfl⟩
abbrev main_call3_cst_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_cst_1 : Ref sig .tc := ⟨.hbm, 85, rfl⟩
abbrev main_call3_v8 : Ref sig .tc := ⟨.hbm, 86, rfl⟩
abbrev main_call3_cst_2 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_cst_3 : Ref sig .tc := ⟨.hbm, 91, rfl⟩
abbrev main_call3_v12 : Ref sig .tc := ⟨.hbm, 92, rfl⟩
abbrev main_call3_cst_4 : Ref sig .tc := ⟨.hbm, 93, rfl⟩
abbrev main_call3_call0_v0 : Ref sig .tc := ⟨.hbm, 94, rfl⟩
abbrev main_call3_call0_v1 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_c_10 : Ref sig .tc := ⟨.hbm, 99, rfl⟩
abbrev main_v32 : Ref sig .tc := ⟨.hbm, 100, rfl⟩
abbrev main_v33 : Ref sig .tc := ⟨.hbm, 101, rfl⟩
abbrev main_c_11 : Ref sig .tc := ⟨.hbm, 102, rfl⟩
abbrev main_call4_v0 : Ref sig .tc := ⟨.hbm, 103, rfl⟩
abbrev main_call4_v1 : Ref sig .tc := ⟨.hbm, 104, rfl⟩
abbrev main_v34 : Ref sig .tc := ⟨.hbm, 105, rfl⟩
abbrev main_c_12 : Ref sig .tc := ⟨.hbm, 106, rfl⟩
abbrev main_v35 : Ref sig .tc := ⟨.hbm, 107, rfl⟩
abbrev main_v36 : Ref sig .tc := ⟨.hbm, 108, rfl⟩
abbrev main_c_13 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_c_14 : Ref sig .tc := ⟨.hbm, 116, rfl⟩
abbrev main_call5_v0 : Ref sig .tc := ⟨.hbm, 117, rfl⟩
abbrev main_call5_v1 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_cst_15 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_c_16 : Ref sig .tc := ⟨.hbm, 128, rfl⟩
abbrev main_v51 : Ref sig .tc := ⟨.hbm, 129, rfl⟩
abbrev main_v52 : Ref sig .tc := ⟨.hbm, 130, rfl⟩
abbrev main_c_17 : Ref sig .tc := ⟨.hbm, 131, rfl⟩
abbrev main_call6_v0 : Ref sig .tc := ⟨.hbm, 132, rfl⟩
abbrev main_call6_v1 : Ref sig .tc := ⟨.hbm, 133, rfl⟩
abbrev main_v53 : Ref sig .tc := ⟨.hbm, 134, rfl⟩
abbrev main_c_18 : Ref sig .tc := ⟨.hbm, 135, rfl⟩
abbrev main_v54 : Ref sig .tc := ⟨.hbm, 136, rfl⟩
abbrev main_v55 : Ref sig .tc := ⟨.hbm, 137, rfl⟩
abbrev main_c_19 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_cst_20 : Ref sig .tc := ⟨.hbm, 145, rfl⟩
abbrev main_call7_v0 : Ref sig .tc := ⟨.hbm, 146, rfl⟩
abbrev main_call7_v1 : Ref sig .tc := ⟨.hbm, 147, rfl⟩
abbrev main_call7_v2 : Ref sig .tc := ⟨.hbm, 148, rfl⟩
abbrev main_v62 : Ref sig .tc := ⟨.hbm, 149, rfl⟩
abbrev main_c_21 : Ref sig .tc := ⟨.hbm, 150, rfl⟩
abbrev main_call8_v0 : Ref sig .tc := ⟨.hbm, 151, rfl⟩
abbrev main_call8_v1 : Ref sig .tc := ⟨.hbm, 152, rfl⟩
abbrev main_v63 : Ref sig .tc := ⟨.hbm, 153, rfl⟩
abbrev main_cst_22 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_cst_23 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_cst_24 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_c_25 : Ref sig .tc := ⟨.hbm, 172, rfl⟩
abbrev main_v79 : Ref sig .tc := ⟨.hbm, 173, rfl⟩
abbrev main_v80 : Ref sig .tc := ⟨.hbm, 174, rfl⟩
abbrev main_c_26 : Ref sig .tc := ⟨.hbm, 175, rfl⟩
abbrev main_call9_v0 : Ref sig .tc := ⟨.hbm, 176, rfl⟩
abbrev main_call9_v1 : Ref sig .tc := ⟨.hbm, 177, rfl⟩
abbrev main_v81 : Ref sig .tc := ⟨.hbm, 178, rfl⟩
abbrev main_c_27 : Ref sig .tc := ⟨.hbm, 179, rfl⟩
abbrev main_v82 : Ref sig .tc := ⟨.hbm, 180, rfl⟩
abbrev main_v83 : Ref sig .tc := ⟨.hbm, 181, rfl⟩
abbrev main_c_28 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_cst_29 : Ref sig .tc := ⟨.hbm, 188, rfl⟩
abbrev main_call10_v0 : Ref sig .tc := ⟨.hbm, 189, rfl⟩
abbrev main_call10_v1 : Ref sig .tc := ⟨.hbm, 190, rfl⟩
abbrev main_v89 : Ref sig .tc := ⟨.hbm, 191, rfl⟩
abbrev main_c_30 : Ref sig .tc := ⟨.hbm, 192, rfl⟩
abbrev main_call11_v0 : Ref sig .tc := ⟨.hbm, 193, rfl⟩
abbrev main_call11_v1 : Ref sig .tc := ⟨.hbm, 194, rfl⟩
abbrev main_v90 : Ref sig .tc := ⟨.hbm, 195, rfl⟩
abbrev main_cst_31 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_cst_32 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_v99 : Ref sig .tc := ⟨.hbm, 206, rfl⟩
abbrev main_cst_33 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![27, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x6000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x6000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![27, 25], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x6000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x32x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x6000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  reducesTo_S300000x32_S32_d0 : S300000x32.ReducesTo [0] S32
  h_S_ : 0 < S_.numel
  bcast_S_S32 : S_.BroadcastsInDim S32 (![] : Fin 0 → Fin S32.rank)
  shapeCasts_S32_S1x32 : S32.ShapeCasts S1x32
  bcast_S32_S1x32_1 : S32.BroadcastsInDim S1x32 (![1] : Fin 1 → Fin S1x32.rank)
  bcast_S_S1x32 : S_.BroadcastsInDim S1x32 (![] : Fin 0 → Fin S1x32.rank)
  bcast_S1x32_S300000x32_0_1 : S1x32.BroadcastsInDim S300000x32 (![0, 1] : Fin 2 → Fin S300000x32.rank)
  inb_S5000x32_S5000x32_0_0 : ∀ a, (![0, 0] : Fin 2 → Nat) a + S5000x32.size a ≤ S5000x32.size a
  h_S5000x32 : 0 < S5000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  bcast_S_S27x150000 : S_.BroadcastsInDim S27x150000 (![] : Fin 0 → Fin S27x150000.rank)
  bcast_S27x150000_S27x150000x1_0_1 : S27x150000.BroadcastsInDim S27x150000x1 (![0, 1] : Fin 2 → Fin S27x150000x1.rank)
  inb_S1x6000x32_S1x6000x32_0_0_0 : ∀ a, (![0, 0, 0] : Fin 3 → Nat) a + S1x6000x32.size a ≤ S1x6000x32.size a
  h_S1x6000x32 : 0 < S1x6000x32.numel
  shapeCasts_S1x6000x32_S6000x32 : S1x6000x32.ShapeCasts S6000x32
  bitsLt_bf16_f32 : FTy.bits .bf16 < FTy.bits .f32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S6000x32_S1x6000x32 : S6000x32.ShapeCasts S1x6000x32
  shapeCasts_S27x150000_S4050000 : S27x150000.ShapeCasts S4050000
  shapeCasts_S27x150000x32_S4050000x32 : S27x150000x32.ShapeCasts S4050000x32
  bcast_S_S300001x32 : S_.BroadcastsInDim S300001x32 (![] : Fin 0 → Fin S300001x32.rank)
  bcast_S4050000_S4050000x1_0 : S4050000.BroadcastsInDim S4050000x1 (![0] : Fin 1 → Fin S4050000x1.rank)
  slices_S300001x32_S300000x32_0_0 : S300001x32.Slices ![0, 0] S300000x32
  shapeCasts_S5000x32_S5000x32 : S5000x32.ShapeCasts S5000x32
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x3_0_1 : S300000x1.BroadcastsInDim S300000x3 (![0, 1] : Fin 2 → Fin S300000x3.rank)
  bcast_S_S300000x3 : S_.BroadcastsInDim S300000x3 (![] : Fin 0 → Fin S300000x3.rank)
  bcast_S_S37501x3 : S_.BroadcastsInDim S37501x3 (![] : Fin 0 → Fin S37501x3.rank)
  slices_S37501x3_S37500x3_0_0 : S37501x3.Slices ![0, 0] S37500x3
  bcast_S_S37501 : S_.BroadcastsInDim S37501 (![] : Fin 0 → Fin S37501.rank)
  slices_S37501_S37500_0 : S37501.Slices ![0] S37500
  bcast_S_S37500 : S_.BroadcastsInDim S37500 (![] : Fin 0 → Fin S37500.rank)
  bcast_S37500_S37500x1_0 : S37500.BroadcastsInDim S37500x1 (![0] : Fin 1 → Fin S37500x1.rank)
  bcast_S37500x1_S37500x3_0_1 : S37500x1.BroadcastsInDim S37500x3 (![0, 1] : Fin 2 → Fin S37500x3.rank)
  gather_S300000x32_S27x150000x1_S27x150000x32_2_0_n_n_0_2_132_wf : GatherDims.WF S300000x32 S27x150000x1 S27x150000x32 [2] [0] [] [0] [] 2 ![1, 32]
  dot_S6000x32_S32x32_S6000x32_1_0_0_1_n_n_wf : DotDims.WF S6000x32 S32x32 S6000x32 [1] [0] [0] [1] [] []
  scatter_S300001x32_S4050000x1_S4050000x32_1_0_0_1_wf : ScatterDims.WF S300001x32 S4050000x1 S4050000x32 [1] [0] [0] 1
  gather_S300000x3_S300000x1_S300000x3_1_0_n_n_0_1_13_wf : GatherDims.WF S300000x3 S300000x1 S300000x3 [1] [0] [] [0] [] 1 ![1, 3]
  scatter_S37501x3_S300000x1_S300000x3_1_0_0_1_wf : ScatterDims.WF S37501x3 S300000x1 S300000x3 [1] [0] [0] 1
  scatter_S37501_S300000x1_S300000_n_0_0_1_wf : ScatterDims.WF S37501 S300000x1 S300000 [] [0] [0] 1
  gather_S300000_S300000x1_S300000_n_0_n_n_0_1_1_wf : GatherDims.WF S300000 S300000x1 S300000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S300000x32.size a
  hwx0_0 : ∀ i : grid0.Coords, EltTy.bits .f32 = 32 ∨ (Rect.block (s := S300000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S300000x32.size a
  hwx0_3 : ∀ i : grid0.Coords, EltTy.bits .f32 = 32 ∨ (Rect.block (s := S300000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x6000x32.size a ≤ S27x150000x32.size a
  hwx1_0 : ∀ i : grid1.Coords, EltTy.bits .f32 = 32 ∨ (Rect.block (s := S27x150000x32) S1x6000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x32.size a ≤ S27x32x32.size a
  hwx1_1 : ∀ i : grid1.Coords, EltTy.bits .f32 = 32 ∨ (Rect.block (s := S27x32x32) S1x32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x6000x32.size a ≤ S27x150000x32.size a
  hwx1_2 : ∀ i : grid1.Coords, EltTy.bits .f32 = 32 ∨ (Rect.block (s := S27x150000x32) S1x6000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S300000x32.size a
  hwx2_0 : ∀ i : grid2.Coords, EltTy.bits .f32 = 32 ∨ (Rect.block (s := S300000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S300000x32.size a
  hwx2_3 : ∀ i : grid2.Coords, EltTy.bits .f32 = 32 ∨ (Rect.block (s := S300000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x6000x32.size a ≤ S27x150000x32.size a
  hwx3_0 : ∀ i : grid3.Coords, EltTy.bits .f32 = 32 ∨ (Rect.block (s := S27x150000x32) S1x6000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x32x32.size a ≤ S27x32x32.size a
  hwx3_1 : ∀ i : grid3.Coords, EltTy.bits .f32 = 32 ∨ (Rect.block (s := S27x32x32) S1x32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x6000x32.size a ≤ S27x150000x32.size a
  hwx3_2 : ∀ i : grid3.Coords, EltTy.bits .f32 = 32 ∨ (Rect.block (s := S27x150000x32) S1x6000x32.size (cc3_transform_2 i) (hinb3_2 i)).WholeWords (EltTy.packing .f32)

variable [Facts₀]

def gather_S300000x32_S27x150000x1_S27x150000x32_2_0_n_n_0_2_132 : GatherDims S300000x32 S27x150000x1 S27x150000x32 where
  offsetDims := [2]
  collapsedSliceDims := [0]
  operandBatchingDims := []
  startIndicesBatchingDims := []
  startIndexMap := [0]
  indexVectorDim := 2
  sliceSizes := ![1, 32]
  wf := gather_S300000x32_S27x150000x1_S27x150000x32_2_0_n_n_0_2_132_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def scatter_S300001x32_S4050000x1_S4050000x32_1_0_0_1 : ScatterDims S300001x32 S4050000x1 S4050000x32 where
  updateWindowDims := [1]
  insertedWindowDims := [0]
  scatterDimsToOperandDims := [0]
  indexVectorDim := 1
  wf := scatter_S300001x32_S4050000x1_S4050000x32_1_0_0_1_wf
def gather_S300000x3_S300000x1_S300000x3_1_0_n_n_0_1_13 : GatherDims S300000x3 S300000x1 S300000x3 where
  offsetDims := [1]
  collapsedSliceDims := [0]
  operandBatchingDims := []
  startIndicesBatchingDims := []
  startIndexMap := [0]
  indexVectorDim := 1
  sliceSizes := ![1, 3]
  wf := gather_S300000x3_S300000x1_S300000x3_1_0_n_n_0_1_13_wf
def scatter_S37501x3_S300000x1_S300000x3_1_0_0_1 : ScatterDims S37501x3 S300000x1 S300000x3 where
  updateWindowDims := [1]
  insertedWindowDims := [0]
  scatterDimsToOperandDims := [0]
  indexVectorDim := 1
  wf := scatter_S37501x3_S300000x1_S300000x3_1_0_0_1_wf
def scatter_S37501_S300000x1_S300000_n_0_0_1 : ScatterDims S37501 S300000x1 S300000 where
  updateWindowDims := []
  insertedWindowDims := [0]
  scatterDimsToOperandDims := [0]
  indexVectorDim := 1
  wf := scatter_S37501_S300000x1_S300000_n_0_0_1_wf
def gather_S300000_S300000x1_S300000_n_0_n_n_0_1_1 : GatherDims S300000 S300000x1 S300000 where
  offsetDims := []
  collapsedSliceDims := [0]
  operandBatchingDims := []
  startIndicesBatchingDims := []
  startIndexMap := [0]
  indexVectorDim := 1
  sliceSizes := ![1]
  wf := gather_S300000_S300000x1_S300000_n_0_n_n_0_1_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S1x6000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1x32x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x6000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S1x6000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S1x32x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x6000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S300000x32 : Shape := ⟨2, ![300000, 32]⟩
abbrev S300000x3 : Shape := ⟨2, ![300000, 3]⟩
abbrev S300000 : Shape := ⟨1, ![300000]⟩
abbrev S27x150000 : Shape := ⟨2, ![27, 150000]⟩
abbrev S27x32x32 : Shape := ⟨3, ![27, 32, 32]⟩
abbrev S_ : Shape := ⟨0, ![]⟩
abbrev S32 : Shape := ⟨1, ![32]⟩
abbrev S1x32 : Shape := ⟨2, ![1, 32]⟩
abbrev S27x150000x1 : Shape := ⟨3, ![27, 150000, 1]⟩
abbrev S27x150000x32 : Shape := ⟨3, ![27, 150000, 32]⟩
abbrev S4050000 : Shape := ⟨1, ![4050000]⟩
abbrev S4050000x32 : Shape := ⟨2, ![4050000, 32]⟩
abbrev S300001x32 : Shape := ⟨2, ![300001, 32]⟩
abbrev S4050000x1 : Shape := ⟨2, ![4050000, 1]⟩
abbrev S300000x1 : Shape := ⟨2, ![300000, 1]⟩
abbrev S37501x3 : Shape := ⟨2, ![37501, 3]⟩
abbrev S37500x3 : Shape := ⟨2, ![37500, 3]⟩
abbrev S37501 : Shape := ⟨1, ![37501]⟩
abbrev S37500 : Shape := ⟨1, ![37500]⟩
abbrev S37500x1 : Shape := ⟨2, ![37500, 1]⟩

abbrev nBuf : Space → Nat
  | .hbm => 231
  | .vmem => 0
  | .smem => 0
  | _ => 0

abbrev hbmTy0_0 (i : Nat) : BufTy := match i % 128 with
  | 0 => ⟨S300000x32, .f32⟩
  | 1 => ⟨S300000x3, .f32⟩
  | 2 => ⟨S300000, .i32⟩
  | 3 => ⟨S27x150000, .i32⟩
  | 4 => ⟨S27x150000, .i32⟩
  | 5 => ⟨S300000, .i32⟩
  | 6 => ⟨S300000, .i32⟩
  | 7 => ⟨S27x32x32, .f32⟩
  | 8 => ⟨S27x32x32, .f32⟩
  | 9 => ⟨S_, .f32⟩
  | 10 => ⟨S32, .f32⟩
  | 11 => ⟨S_, .f32⟩
  | 12 => ⟨S32, .f32⟩
  | 13 => ⟨S32, .f32⟩
  | 14 => ⟨S_, .i32⟩
  | 15 => ⟨S_, .f32⟩
  | 16 => ⟨S32, .f32⟩
  | 17 => ⟨S1x32, .f32⟩
  | 18 => ⟨S_, .f32⟩
  | 19 => ⟨S1x32, .f32⟩
  | 20 => ⟨S1x32, .f32⟩
  | 21 => ⟨S300000x32, .f32⟩
  | 22 => ⟨S300000x32, .f32⟩
  | 23 => ⟨S300000x32, .f32⟩
  | 24 => ⟨S_, .f32⟩
  | 25 => ⟨S_, .f32⟩
  | 26 => ⟨S_, .f32⟩
  | 27 => ⟨S_, .f32⟩
  | 28 => ⟨S32, .f32⟩
  | 29 => ⟨S32, .f32⟩
  | 30 => ⟨S32, .f32⟩
  | 31 => ⟨S_, .f32⟩
  | 32 => ⟨S_, .i1⟩
  | 33 => ⟨S_, .f32⟩
  | 34 => ⟨S_, .f32⟩
  | 35 => ⟨S32, .f32⟩
  | 36 => ⟨S32, .f32⟩
  | 37 => ⟨S1x32, .f32⟩
  | 38 => ⟨S300000x32, .f32⟩
  | 39 => ⟨S300000x32, .f32⟩
  | 40 => ⟨S_, .f32⟩
  | 41 => ⟨S32, .f32⟩
  | 42 => ⟨S32, .f32⟩
  | 43 => ⟨S32, .f32⟩
  | 44 => ⟨S1x32, .f32⟩
  | 45 => ⟨S300000x32, .f32⟩
  | 46 => ⟨S300000x32, .f32⟩
  | 47 => ⟨S_, .f32⟩
  | 48 => ⟨S300000x32, .f32⟩
  | 49 => ⟨S300000x32, .f32⟩
  | 50 => ⟨S_, .i32⟩
  | 51 => ⟨S27x150000, .i32⟩
  | 52 => ⟨S27x150000, .i1⟩
  | 53 => ⟨S_, .i32⟩
  | 54 => ⟨S_, .i32⟩
  | 55 => ⟨S27x150000, .i32⟩
  | 56 => ⟨S27x150000, .i32⟩
  | 57 => ⟨S_, .i32⟩
  | 58 => ⟨S27x150000, .i32⟩
  | 59 => ⟨S27x150000, .i1⟩
  | 60 => ⟨S_, .i32⟩
  | 61 => ⟨S27x150000, .i32⟩
  | 62 => ⟨S27x150000, .i32⟩
  | 63 => ⟨S27x150000, .i32⟩
  | 64 => ⟨S27x150000x1, .i32⟩
  | 65 => ⟨S27x150000x32, .f32⟩
  | 66 => ⟨S27x150000x32, .f32⟩
  | 67 => ⟨S_, .i32⟩
  | 68 => ⟨S_, .i32⟩
  | 69 => ⟨S27x150000, .i32⟩
  | 70 => ⟨S27x150000, .i32⟩
  | 71 => ⟨S4050000, .i32⟩
  | 72 => ⟨S4050000x32, .f32⟩
  | 73 => ⟨S_, .f32⟩
  | 74 => ⟨S300001x32, .f32⟩
  | 75 => ⟨S4050000x1, .i32⟩
  | 76 => ⟨S300001x32, .f32⟩
  | 77 => ⟨S300000x32, .f32⟩
  | 78 => ⟨S_, .f32⟩
  | 79 => ⟨S32, .f32⟩
  | 80 => ⟨S_, .f32⟩
  | 81 => ⟨S32, .f32⟩
  | 82 => ⟨S32, .f32⟩
  | 83 => ⟨S_, .i32⟩
  | 84 => ⟨S_, .f32⟩
  | 85 => ⟨S32, .f32⟩
  | 86 => ⟨S1x32, .f32⟩
  | 87 => ⟨S_, .f32⟩
  | 88 => ⟨S1x32, .f32⟩
  | 89 => ⟨S1x32, .f32⟩
  | 90 => ⟨S300000x32, .f32⟩
  | 91 => ⟨S300000x32, .f32⟩
  | 92 => ⟨S300000x32, .f32⟩
  | 93 => ⟨S_, .f32⟩
  | 94 => ⟨S_, .f32⟩
  | 95 => ⟨S_, .f32⟩
  | 96 => ⟨S_, .f32⟩
  | 97 => ⟨S32, .f32⟩
  | 98 => ⟨S32, .f32⟩
  | 99 => ⟨S32, .f32⟩
  | 100 => ⟨S_, .f32⟩
  | 101 => ⟨S_, .i1⟩
  | 102 => ⟨S_, .f32⟩
  | 103 => ⟨S_, .f32⟩
  | 104 => ⟨S32, .f32⟩
  | 105 => ⟨S32, .f32⟩
  | 106 => ⟨S1x32, .f32⟩
  | 107 => ⟨S300000x32, .f32⟩
  | 108 => ⟨S300000x32, .f32⟩
  | 109 => ⟨S_, .f32⟩
  | 110 => ⟨S32, .f32⟩
  | 111 => ⟨S32, .f32⟩
  | 112 => ⟨S32, .f32⟩
  | 113 => ⟨S1x32, .f32⟩
  | 114 => ⟨S300000x32, .f32⟩
  | 115 => ⟨S300000x32, .f32⟩
  | 116 => ⟨S_, .f32⟩
  | 117 => ⟨S300000x32, .f32⟩
  | 118 => ⟨S300000x32, .f32⟩
  | 119 => ⟨S_, .i32⟩
  | 120 => ⟨S27x150000, .i32⟩
  | 121 => ⟨S27x150000, .i1⟩
  | 122 => ⟨S_, .i32⟩
  | 123 => ⟨S_, .i32⟩
  | 124 => ⟨S27x150000, .i32⟩
  | 125 => ⟨S27x150000, .i32⟩
  | 126 => ⟨S_, .i32⟩
  | 127 => ⟨S27x150000, .i32⟩
  | _ => ⟨S300000x32, .f32⟩

abbrev hbmTy0_1 (i : Nat) : BufTy := match i % 128 with
  | 0 => ⟨S27x150000, .i1⟩
  | 1 => ⟨S_, .i32⟩
  | 2 => ⟨S27x150000, .i32⟩
  | 3 => ⟨S27x150000, .i32⟩
  | 4 => ⟨S27x150000, .i32⟩
  | 5 => ⟨S27x150000x1, .i32⟩
  | 6 => ⟨S27x150000x32, .f32⟩
  | 7 => ⟨S27x150000x32, .f32⟩
  | 8 => ⟨S_, .i32⟩
  | 9 => ⟨S_, .i32⟩
  | 10 => ⟨S27x150000, .i32⟩
  | 11 => ⟨S27x150000, .i32⟩
  | 12 => ⟨S4050000, .i32⟩
  | 13 => ⟨S4050000x32, .f32⟩
  | 14 => ⟨S_, .f32⟩
  | 15 => ⟨S300001x32, .f32⟩
  | 16 => ⟨S4050000x1, .i32⟩
  | 17 => ⟨S300001x32, .f32⟩
  | 18 => ⟨S300000x32, .f32⟩
  | 19 => ⟨S300000x32, .f32⟩
  | 20 => ⟨S_, .i32⟩
  | 21 => ⟨S300000, .i32⟩
  | 22 => ⟨S300000, .i1⟩
  | 23 => ⟨S_, .i32⟩
  | 24 => ⟨S_, .i32⟩
  | 25 => ⟨S300000, .i32⟩
  | 26 => ⟨S300000, .i32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000x3, .f32⟩
  | 36 => ⟨S300000x1, .i1⟩
  | 37 => ⟨S_, .f32⟩
  | 38 => ⟨S_, .f32⟩
  | 39 => ⟨S300000x3, .i1⟩
  | 40 => ⟨S300000x3, .f32⟩
  | 41 => ⟨S300000x3, .f32⟩
  | 42 => ⟨S_, .i32⟩
  | 43 => ⟨S_, .i32⟩
  | 44 => ⟨S300000, .i32⟩
  | 45 => ⟨S300000, .i32⟩
  | 46 => ⟨S_, .f32⟩
  | 47 => ⟨S37501x3, .f32⟩
  | 48 => ⟨S300000x1, .i32⟩
  | 49 => ⟨S37501x3, .f32⟩
  | 50 => ⟨S37500x3, .f32⟩
  | 51 => ⟨S300000, .f32⟩
  | 52 => ⟨S_, .f32⟩
  | 53 => ⟨S37501, .f32⟩
  | 54 => ⟨S300000x1, .i32⟩
  | 55 => ⟨S37501, .f32⟩
  | 56 => ⟨S37500, .f32⟩
  | 57 => ⟨S_, .f32⟩
  | 58 => ⟨S37500, .f32⟩
  | 59 => ⟨S37500, .f32⟩
  | 60 => ⟨S37500x1, .f32⟩
  | 61 => ⟨S37500x3, .f32⟩
  | 62 => ⟨S37500x3, .f32⟩
  | 63 => ⟨S300000, .f32⟩
  | 64 => ⟨S_, .i32⟩
  | 65 => ⟨S300000, .i32⟩
  | 66 => ⟨S300000, .i1⟩
  | 67 => ⟨S_, .i32⟩
  | 68 => ⟨S_, .i32⟩
  | 69 => ⟨S300000, .i32⟩
  | 70 => ⟨S300000, .i32⟩
  | 71 => ⟨S_, .i32⟩
  | 72 => ⟨S300000, .i32⟩
  | 73 => ⟨S300000, .i1⟩
  | 74 => ⟨S_, .i32⟩
  | 75 => ⟨S300000, .i32⟩
  | 76 => ⟨S300000, .i32⟩
  | 77 => ⟨S300000, .i32⟩
  | 78 => ⟨S300000x1, .i32⟩
  | 79 => ⟨S300000, .f32⟩
  | 80 => ⟨S_, .f32⟩
  | 81 => ⟨S_, .f32⟩
  | 82 => ⟨S300000, .f32⟩
  | 83 => ⟨S300000, .f32⟩
  | 84 => ⟨S_, .i32⟩
  | 85 => ⟨S_, .i32⟩
  | 86 => ⟨S300000, .i32⟩
  | 87 => ⟨S300000, .i32⟩
  | 88 => ⟨S_, .f32⟩
  | 89 => ⟨S37501, .f32⟩
  | 90 => ⟨S300000x1, .i32⟩
  | 91 => ⟨S37501, .f32⟩
  | 92 => ⟨S37500, .f32⟩
  | 93 => ⟨S300000, .f32⟩
  | 94 => ⟨S_, .f32⟩
  | 95 => ⟨S37501, .f32⟩
  | 96 => ⟨S300000x1, .i32⟩
  | 97 => ⟨S37501, .f32⟩
  | 98 => ⟨S37500, .f32⟩
  | 99 => ⟨S_, .f32⟩
  | 100 => ⟨S37500, .f32⟩
  | 101 => ⟨S37500, .f32⟩
  | 102 => ⟨S37500, .f32⟩
  | _ => ⟨S300000x32, .f32⟩

abbrev hbmTy (i : Nat) : BufTy := match i / 128 with
  | 0 => hbmTy0_0 i
  | 1 => hbmTy0_1 i
  | _ => ⟨S300000x32, .f32⟩

abbrev bufTy : (tb : Table) → Fin (tcTables nBuf tb) → BufTy
  | .hbm, ⟨i, _⟩ => hbmTy i
  | _, _ => ⟨S300000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_3 : Ref sig .tc := ⟨.hbm, 31, rfl⟩
abbrev main_call0_v12 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call1_cst : Ref sig .tc := ⟨.hbm, 47, rfl⟩
abbrev main_call1_v0 : Ref sig .tc := ⟨.hbm, 48, rfl⟩
abbrev main_v13 : Ref sig .tc := ⟨.hbm, 49, rfl⟩
abbrev main_c_2 : Ref sig .tc := ⟨.hbm, 50, rfl⟩
abbrev main_v14 : Ref sig .tc := ⟨.hbm, 51, rfl⟩
abbrev main_v15 : Ref sig .tc := ⟨.hbm, 52, rfl⟩
abbrev main_c_3 : Ref sig .tc := ⟨.hbm, 53, rfl⟩
abbrev main_call2_v0 : Ref sig .tc := ⟨.hbm, 54, rfl⟩
abbrev main_call2_v1 : Ref sig .tc := ⟨.hbm, 55, rfl⟩
abbrev main_v16 : Ref sig .tc := ⟨.hbm, 56, rfl⟩
abbrev main_c_4 : Ref sig .tc := ⟨.hbm, 57, rfl⟩
abbrev main_v17 : Ref sig .tc := ⟨.hbm, 58, rfl⟩
abbrev main_v18 : Ref sig .tc := ⟨.hbm, 59, rfl⟩
abbrev main_c_5 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_c_6 : Ref sig .tc := ⟨.hbm, 67, rfl⟩
abbrev main_call3_v0 : Ref sig .tc := ⟨.hbm, 68, rfl⟩
abbrev main_call3_v1 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_7 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_8 : Ref sig .tc := ⟨.hbm, 78, rfl⟩
abbrev main_v32 : Ref sig .tc := ⟨.hbm, 79, rfl⟩
abbrev main_cst_9 : Ref sig .tc := ⟨.hbm, 80, rfl⟩
abbrev main_v33 : Ref sig .tc := ⟨.hbm, 81, rfl⟩
abbrev main_v34 : Ref sig .tc := ⟨.hbm, 82, rfl⟩
abbrev main_c_10 : Ref sig .tc := ⟨.hbm, 83, rfl⟩
abbrev main_call4_cst : Ref sig .tc := ⟨.hbm, 84, rfl⟩
abbrev main_call4_v0 : Ref sig .tc := ⟨.hbm, 85, rfl⟩
abbrev main_call4_v1 : Ref sig .tc := ⟨.hbm, 86, rfl⟩
abbrev main_call4_cst_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_v5 : Ref sig .tc := ⟨.hbm, 91, rfl⟩
abbrev main_call4_v6 : Ref sig .tc := ⟨.hbm, 92, rfl⟩
abbrev main_call4_v7 : Ref sig .tc := ⟨.hbm, 93, rfl⟩
abbrev main_call4_cst_1 : Ref sig .tc := ⟨.hbm, 94, rfl⟩
abbrev main_call4_v8 : Ref sig .tc := ⟨.hbm, 95, rfl⟩
abbrev main_call4_cst_2 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_cst_3 : Ref sig .tc := ⟨.hbm, 100, rfl⟩
abbrev main_call4_v12 : Ref sig .tc := ⟨.hbm, 101, rfl⟩
abbrev main_call4_cst_4 : Ref sig .tc := ⟨.hbm, 102, rfl⟩
abbrev main_call4_call0_v0 : Ref sig .tc := ⟨.hbm, 103, rfl⟩
abbrev main_call4_call0_v1 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_cst_11 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_call5_cst : Ref sig .tc := ⟨.hbm, 116, rfl⟩
abbrev main_call5_v0 : Ref sig .tc := ⟨.hbm, 117, rfl⟩
abbrev main_v45 : Ref sig .tc := ⟨.hbm, 118, rfl⟩
abbrev main_c_12 : Ref sig .tc := ⟨.hbm, 119, rfl⟩
abbrev main_v46 : Ref sig .tc := ⟨.hbm, 120, rfl⟩
abbrev main_v47 : Ref sig .tc := ⟨.hbm, 121, rfl⟩
abbrev main_c_13 : Ref sig .tc := ⟨.hbm, 122, rfl⟩
abbrev main_call6_v0 : Ref sig .tc := ⟨.hbm, 123, rfl⟩
abbrev main_call6_v1 : Ref sig .tc := ⟨.hbm, 124, rfl⟩
abbrev main_v48 : Ref sig .tc := ⟨.hbm, 125, rfl⟩
abbrev main_c_14 : Ref sig .tc := ⟨.hbm, 126, rfl⟩
abbrev main_v49 : Ref sig .tc := ⟨.hbm, 127, rfl⟩
abbrev main_v50 : Ref sig .tc := ⟨.hbm, 128, rfl⟩
abbrev main_c_15 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_c_16 : Ref sig .tc := ⟨.hbm, 136, rfl⟩
abbrev main_call7_v0 : Ref sig .tc := ⟨.hbm, 137, rfl⟩
abbrev main_call7_v1 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_cst_17 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_c_18 : Ref sig .tc := ⟨.hbm, 148, rfl⟩
abbrev main_v65 : Ref sig .tc := ⟨.hbm, 149, rfl⟩
abbrev main_v66 : Ref sig .tc := ⟨.hbm, 150, rfl⟩
abbrev main_c_19 : Ref sig .tc := ⟨.hbm, 151, rfl⟩
abbrev main_call8_v0 : Ref sig .tc := ⟨.hbm, 152, rfl⟩
abbrev main_call8_v1 : Ref sig .tc := ⟨.hbm, 153, rfl⟩
abbrev main_v67 : Ref sig .tc := ⟨.hbm, 154, rfl⟩
abbrev main_c_20 : Ref sig .tc := ⟨.hbm, 155, rfl⟩
abbrev main_v68 : Ref sig .tc := ⟨.hbm, 156, rfl⟩
abbrev main_v69 : Ref sig .tc := ⟨.hbm, 157, rfl⟩
abbrev main_c_21 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_cst_22 : Ref sig .tc := ⟨.hbm, 165, rfl⟩
abbrev main_call9_v0 : Ref sig .tc := ⟨.hbm, 166, rfl⟩
abbrev main_call9_v1 : Ref sig .tc := ⟨.hbm, 167, rfl⟩
abbrev main_call9_v2 : Ref sig .tc := ⟨.hbm, 168, rfl⟩
abbrev main_v76 : Ref sig .tc := ⟨.hbm, 169, rfl⟩
abbrev main_c_23 : Ref sig .tc := ⟨.hbm, 170, rfl⟩
abbrev main_call10_v0 : Ref sig .tc := ⟨.hbm, 171, rfl⟩
abbrev main_call10_v1 : Ref sig .tc := ⟨.hbm, 172, rfl⟩
abbrev main_v77 : Ref sig .tc := ⟨.hbm, 173, rfl⟩
abbrev main_cst_24 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_cst_25 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_cst_26 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_c_27 : Ref sig .tc := ⟨.hbm, 192, rfl⟩
abbrev main_v93 : Ref sig .tc := ⟨.hbm, 193, rfl⟩
abbrev main_v94 : Ref sig .tc := ⟨.hbm, 194, rfl⟩
abbrev main_c_28 : Ref sig .tc := ⟨.hbm, 195, rfl⟩
abbrev main_call11_v0 : Ref sig .tc := ⟨.hbm, 196, rfl⟩
abbrev main_call11_v1 : Ref sig .tc := ⟨.hbm, 197, rfl⟩
abbrev main_v95 : Ref sig .tc := ⟨.hbm, 198, rfl⟩
abbrev main_c_29 : Ref sig .tc := ⟨.hbm, 199, rfl⟩
abbrev main_v96 : Ref sig .tc := ⟨.hbm, 200, rfl⟩
abbrev main_v97 : Ref sig .tc := ⟨.hbm, 201, rfl⟩
abbrev main_c_30 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_cst_31 : Ref sig .tc := ⟨.hbm, 208, rfl⟩
abbrev main_call12_v0 : Ref sig .tc := ⟨.hbm, 209, rfl⟩
abbrev main_call12_v1 : Ref sig .tc := ⟨.hbm, 210, rfl⟩
abbrev main_v103 : Ref sig .tc := ⟨.hbm, 211, rfl⟩
abbrev main_c_32 : Ref sig .tc := ⟨.hbm, 212, rfl⟩
abbrev main_call13_v0 : Ref sig .tc := ⟨.hbm, 213, rfl⟩
abbrev main_call13_v1 : Ref sig .tc := ⟨.hbm, 214, rfl⟩
abbrev main_v104 : Ref sig .tc := ⟨.hbm, 215, rfl⟩
abbrev main_cst_33 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩
abbrev main_v109 : Ref sig .tc := ⟨.hbm, 221, rfl⟩
abbrev main_cst_34 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_cst_35 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩

abbrev nD : Nat := 1
abbrev τ : Topo := Topo.v7x

variable {F : FTy → Type} [FloatOps F]

class Facts₀ : Prop where
  reducesTo_S300000x32_S32_d0 : S300000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S300000x32_0_1 : S1x32.BroadcastsInDim S300000x32 (![0, 1] : Fin 2 → Fin S300000x32.rank)
  bcast_S_S300000x32 : S_.BroadcastsInDim S300000x32 (![] : Fin 0 → Fin S300000x32.rank)
  bcast_S_S27x150000 : S_.BroadcastsInDim S27x150000 (![] : Fin 0 → Fin S27x150000.rank)
  bcast_S27x150000_S27x150000x1_0_1 : S27x150000.BroadcastsInDim S27x150000x1 (![0, 1] : Fin 2 → Fin S27x150000x1.rank)
  shapeCasts_S27x150000_S4050000 : S27x150000.ShapeCasts S4050000
  shapeCasts_S27x150000x32_S4050000x32 : S27x150000x32.ShapeCasts S4050000x32
  bcast_S_S300001x32 : S_.BroadcastsInDim S300001x32 (![] : Fin 0 → Fin S300001x32.rank)
  bcast_S4050000_S4050000x1_0 : S4050000.BroadcastsInDim S4050000x1 (![0] : Fin 1 → Fin S4050000x1.rank)
  slices_S300001x32_S300000x32_0_0 : S300001x32.Slices ![0, 0] S300000x32
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x3_0_1 : S300000x1.BroadcastsInDim S300000x3 (![0, 1] : Fin 2 → Fin S300000x3.rank)
  bcast_S_S300000x3 : S_.BroadcastsInDim S300000x3 (![] : Fin 0 → Fin S300000x3.rank)
  bcast_S_S37501x3 : S_.BroadcastsInDim S37501x3 (![] : Fin 0 → Fin S37501x3.rank)
  slices_S37501x3_S37500x3_0_0 : S37501x3.Slices ![0, 0] S37500x3
  bcast_S_S37501 : S_.BroadcastsInDim S37501 (![] : Fin 0 → Fin S37501.rank)
  slices_S37501_S37500_0 : S37501.Slices ![0] S37500
  bcast_S_S37500 : S_.BroadcastsInDim S37500 (![] : Fin 0 → Fin S37500.rank)
  bcast_S37500_S37500x1_0 : S37500.BroadcastsInDim S37500x1 (![0] : Fin 1 → Fin S37500x1.rank)
  bcast_S37500x1_S37500x3_0_1 : S37500x1.BroadcastsInDim S37500x3 (![0, 1] : Fin 2 → Fin S37500x3.rank)
  gather_S300000x32_S27x150000x1_S27x150000x32_2_0_n_n_0_2_132_wf : GatherDims.WF S300000x32 S27x150000x1 S27x150000x32 [2] [0] [] [0] [] 2 ![1, 32]
  dot_S27x150000x32_S27x32x32_S27x150000x32_2_1_1_2_0_0_wf : DotDims.WF S27x150000x32 S27x32x32 S27x150000x32 [2] [1] [1] [2] [0] [0]
  scatter_S300001x32_S4050000x1_S4050000x32_1_0_0_1_wf : ScatterDims.WF S300001x32 S4050000x1 S4050000x32 [1] [0] [0] 1
  gather_S300000x3_S300000x1_S300000x3_1_0_n_n_0_1_13_wf : GatherDims.WF S300000x3 S300000x1 S300000x3 [1] [0] [] [0] [] 1 ![1, 3]
  scatter_S37501x3_S300000x1_S300000x3_1_0_0_1_wf : ScatterDims.WF S37501x3 S300000x1 S300000x3 [1] [0] [0] 1
  scatter_S37501_S300000x1_S300000_n_0_0_1_wf : ScatterDims.WF S37501 S300000x1 S300000 [] [0] [0] 1
  gather_S300000_S300000x1_S300000_n_0_n_n_0_1_1_wf : GatherDims.WF S300000 S300000x1 S300000 [] [0] [] [0] [] 1 ![1]

variable [Facts₀]

def gather_S300000x32_S27x150000x1_S27x150000x32_2_0_n_n_0_2_132 : GatherDims S300000x32 S27x150000x1 S27x150000x32 where
  offsetDims := [2]
  collapsedSliceDims := [0]
  operandBatchingDims := []
  startIndicesBatchingDims := []
  startIndexMap := [0]
  indexVectorDim := 2
  sliceSizes := ![1, 32]
  wf := gather_S300000x32_S27x150000x1_S27x150000x32_2_0_n_n_0_2_132_wf
def dot_S27x150000x32_S27x32x32_S27x150000x32_2_1_1_2_0_0 : DotDims S27x150000x32 S27x32x32 S27x150000x32 where
  lhsContracting := [2]
  rhsContracting := [1]
  lhsNonContracting := [1]
  rhsNonContracting := [2]
  lhsBatch := [0]
  rhsBatch := [0]
  wf := dot_S27x150000x32_S27x32x32_S27x150000x32_2_1_1_2_0_0_wf
def scatter_S300001x32_S4050000x1_S4050000x32_1_0_0_1 : ScatterDims S300001x32 S4050000x1 S4050000x32 where
  updateWindowDims := [1]
  insertedWindowDims := [0]
  scatterDimsToOperandDims := [0]
  indexVectorDim := 1
  wf := scatter_S300001x32_S4050000x1_S4050000x32_1_0_0_1_wf
def gather_S300000x3_S300000x1_S300000x3_1_0_n_n_0_1_13 : GatherDims S300000x3 S300000x1 S300000x3 where
  offsetDims := [1]
  collapsedSliceDims := [0]
  operandBatchingDims := []
  startIndicesBatchingDims := []
  startIndexMap := [0]
  indexVectorDim := 1
  sliceSizes := ![1, 3]
  wf := gather_S300000x3_S300000x1_S300000x3_1_0_n_n_0_1_13_wf
def scatter_S37501x3_S300000x1_S300000x3_1_0_0_1 : ScatterDims S37501x3 S300000x1 S300000x3 where
  updateWindowDims := [1]
  insertedWindowDims := [0]
  scatterDimsToOperandDims := [0]
  indexVectorDim := 1
  wf := scatter_S37501x3_S300000x1_S300000x3_1_0_0_1_wf
def scatter_S37501_S300000x1_S300000_n_0_0_1 : ScatterDims S37501 S300000x1 S300000 where
  updateWindowDims := []
  insertedWindowDims := [0]
  scatterDimsToOperandDims := [0]
  indexVectorDim := 1
  wf := scatter_S37501_S300000x1_S300000_n_0_0_1_wf
def gather_S300000_S300000x1_S300000_n_0_n_n_0_1_1 : GatherDims S300000 S300000x1 S300000 where
  offsetDims := []
  collapsedSliceDims := [0]
  operandBatchingDims := []
  startIndicesBatchingDims := []
  startIndexMap := [0]
  indexVectorDim := 1
  sliceSizes := ![1]
  wf := gather_S300000_S300000x1_S300000_n_0_n_n_0_1_1_wf

class Facts : Prop extends Facts₀ where

variable [Facts]
-- ==== Proof.KRun.lean ====
/-
  The idealized kernel program's run with every buffer NAMED. Its entry point is four pallas_call regions among
  stretches of host operations. Launched from a memory m with zero counters, every weakly fair execution ends, nothing
  faults, and each unscoped TensorCore buffer b ends holding what the chain of boundaries leaves in it: the launch
  contents pushed through each stretch's host operations (a fold of their results) and, across a region, through that
  region's write-backs (the arrays its output windows flush, block by block). The three result buffers are among them,
  which is what the value comparison with the reference starts from.
-/
import proofs.«164309_j70342974374320_2_alg».proof.Proof.FrameKernelIdeal

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from m terminates without a fault, and every unscoped buffer of every
    TensorCore ends at the last boundary's contents: the launch over the program's segments, the last thread state
    read against the final state. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W33 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c b hb => h c _ (mem_uc b hb))

end Cert.KernelIdeal.KRun

end
-- ==== Proof.RefOps.lean ====
/-
  The reference program's host operations as lists.

  Every function of the module is a straight line of StableHLO operations, and a call means the callee's body on
  the call's buffers. So each function is, for any arguments and any record of buffers, a list of operations — its
  own lines in order, a nested call contributing the callee's list — and @main is the concatenation of ten
  consecutive stages, each ending at the statement that writes a value the later stages and the comparison with the
  kernel read: the first normalization and its rectification, the first neighbour gather, the first contraction,
  the first scatter-add's slice, the second normalization, the second gather, the second contraction, the second
  scatter-add's slice plus the residual, the pooled coordinates, and the pooled batch indices.
-/
import proofs.«164309_j70342974374320_2_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem
open Cert.ReferenceIdeal Cert.ReferenceIdeal.Gen

variable {F : FTy → Type} [FloatOps F]

/-! ## The functions -/

/-- `_where` at a scalar predicate over a 32-vector: the scalar alternative converted to its own type (the identity), broadcast, and the selection. -/
abbrev opsWhere (arg0 : StableHlo.TRef sig ⟨S_, .i1⟩) (arg1 : StableHlo.TRef sig ⟨S32, .f32⟩) (arg2 : StableHlo.TRef sig ⟨S_, .f32⟩) (φ : fn_where.Bufs) : List (HloOp τ sig (Elt F)) :=
  [ StableHlo.TRef.unary arg2 φ.v0 id,
    StableHlo.TRef.unary φ.v0 φ.v1 (broadcastInDim S32 ![] bcast_S_S32),
    StableHlo.TRef.ternary arg0 arg1 φ.v1 φ.v2 (fun p a b => select (broadcastInDim S32 ![] bcast_S_S32 p) a b) ]

/-- `_var` down the rows of a 300000×32 array: the column sums, the column means (the sums over 3·10⁵, as a 1×32 row), the centred array and its square, the divisor `3·10⁵ − ddof` as a float, the column sums of the squares over that divisor, the test `divisor > 0`, the quiet-NaN constant, and then `_where`'s three. -/
abbrev opsVar (arg0 : StableHlo.TRef sig ⟨S300000x32, .f32⟩) (arg1 : StableHlo.TRef sig ⟨S_, .i32⟩) (φ : fn_var.Bufs) : List (HloOp τ sig (Elt F)) :=
  [ StableHlo.TRef.nullary φ.cst (constant S_ .f32 0x00000000#32),
    StableHlo.TRef.binary arg0 φ.cst φ.v0 (fun x v => Host.reduceAdd x v reducesTo_S300000x32_S32_d0 h_S_),
    StableHlo.TRef.unary φ.v0 φ.v1 (broadcastInDim S1x32 ![1] bcast_S32_S1x32_1),
    StableHlo.TRef.nullary φ.cst_0 (constant S_ .f32 0x48927C00#32),
    StableHlo.TRef.unary φ.cst_0 φ.v2 (broadcastInDim S1x32 ![] bcast_S_S1x32),
    StableHlo.TRef.binary φ.v1 φ.v2 φ.v3 Host.divf,
    StableHlo.TRef.unary φ.v3 φ.v4 (broadcastInDim S300000x32 ![0, 1] bcast_S1x32_S300000x32_0_1),
    StableHlo.TRef.binary arg0 φ.v4 φ.v5 subf,
    StableHlo.TRef.binary φ.v5 φ.v5 φ.v6 mulf,
    StableHlo.TRef.unary arg1 φ.v7 (sitofp .f32),
    StableHlo.TRef.nullary φ.cst_1 (constant S_ .f32 0x48927C00#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S300000x32_S32_d0 h_S_),
    StableHlo.TRef.unary φ.v8 φ.v10 (broadcastInDim S32 ![] bcast_S_S32),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32) ] ++
  (opsWhere φ.v12 φ.v11 φ.cst_4 φ.call0)

/-- `relu`: the scalar zero, its broadcast, and the elementwise maximum with it. -/
abbrev opsRelu (arg0 : StableHlo.TRef sig ⟨S300000x32, .f32⟩) (φ : fn_relu.Bufs) : List (HloOp τ sig (Elt F)) :=
  [ StableHlo.TRef.nullary φ.cst (constant S_ .f32 0x00000000#32),
    StableHlo.TRef.unary φ.cst φ.v0 (broadcastInDim S300000x32 ![] bcast_S_S300000x32),
    StableHlo.TRef.binary arg0 φ.v0 φ.v1 maximumf ]

/-- `_where` over a 27×150000 integer array: the scalar alternative converted (the identity), broadcast, and the selection. -/
abbrev opsWhere0 (arg0 : StableHlo.TRef sig ⟨S27x150000, .i1⟩) (arg1 : StableHlo.TRef sig ⟨S27x150000, .i32⟩) (arg2 : StableHlo.TRef sig ⟨S_, .i32⟩) (φ : fn_where_0.Bufs) : List (HloOp τ sig (Elt F)) :=
  [ StableHlo.TRef.unary arg2 φ.v0 id,
    StableHlo.TRef.unary φ.v0 φ.v1 (broadcastInDim S27x150000 ![] bcast_S_S27x150000),
    StableHlo.TRef.ternary arg0 arg1 φ.v1 φ.v2 select ]

/-- The second `_var`, operation for operation the first one's list over its own buffers. -/
abbrev opsVar1 (arg0 : StableHlo.TRef sig ⟨S300000x32, .f32⟩) (arg1 : StableHlo.TRef sig ⟨S_, .i32⟩) (φ : fn_var_1.Bufs) : List (HloOp τ sig (Elt F)) :=
  [ StableHlo.TRef.nullary φ.cst (constant S_ .f32 0x00000000#32),
    StableHlo.TRef.binary arg0 φ.cst φ.v0 (fun x v => Host.reduceAdd x v reducesTo_S300000x32_S32_d0 h_S_),
    StableHlo.TRef.unary φ.v0 φ.v1 (broadcastInDim S1x32 ![1] bcast_S32_S1x32_1),
    StableHlo.TRef.nullary φ.cst_0 (constant S_ .f32 0x48927C00#32),
    StableHlo.TRef.unary φ.cst_0 φ.v2 (broadcastInDim S1x32 ![] bcast_S_S1x32),
    StableHlo.TRef.binary φ.v1 φ.v2 φ.v3 Host.divf,
    StableHlo.TRef.unary φ.v3 φ.v4 (broadcastInDim S300000x32 ![0, 1] bcast_S1x32_S300000x32_0_1),
    StableHlo.TRef.binary arg0 φ.v4 φ.v5 subf,
    StableHlo.TRef.binary φ.v5 φ.v5 φ.v6 mulf,
    StableHlo.TRef.unary arg1 φ.v7 (sitofp .f32),
    StableHlo.TRef.nullary φ.cst_1 (constant S_ .f32 0x48927C00#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S300000x32_S32_d0 h_S_),
    StableHlo.TRef.unary φ.v8 φ.v10 (broadcastInDim S32 ![] bcast_S_S32),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32) ] ++
  (opsWhere φ.v12 φ.v11 φ.cst_4 φ.call0)

/-- `_where` over a 300000-vector of integers: conversion (the identity), broadcast, selection. -/
abbrev opsWhere2 (arg0 : StableHlo.TRef sig ⟨S300000, .i1⟩) (arg1 : StableHlo.TRef sig ⟨S300000, .i32⟩) (arg2 : StableHlo.TRef sig ⟨S_, .i32⟩) (φ : fn_where_2.Bufs) : List (HloOp τ sig (Elt F)) :=
  [ StableHlo.TRef.unary arg2 φ.v0 id,
    StableHlo.TRef.unary φ.v0 φ.v1 (broadcastInDim S300000 ![] bcast_S_S300000),
    StableHlo.TRef.ternary arg0 arg1 φ.v1 φ.v2 select ]

/-- `_where` at a 300000×1 predicate over a 300000×3 array: the scalar converted, the predicate broadcast along the columns, the scalar broadcast, the selection. -/
abbrev opsWhere3 (arg0 : StableHlo.TRef sig ⟨S300000x1, .i1⟩) (arg1 : StableHlo.TRef sig ⟨S300000x3, .f32⟩) (arg2 : StableHlo.TRef sig ⟨S_, .f32⟩) (φ : fn_where_3.Bufs) : List (HloOp τ sig (Elt F)) :=
  [ StableHlo.TRef.unary arg2 φ.v0 id,
    StableHlo.TRef.unary arg0 φ.v1 (broadcastInDim S300000x3 ![0, 1] bcast_S300000x1_S300000x3_0_1),
    StableHlo.TRef.unary φ.v0 φ.v2 (broadcastInDim S300000x3 ![] bcast_S_S300000x3),
    StableHlo.TRef.ternary φ.v1 arg1 φ.v2 φ.v3 select ]

/-- `_where` over a 300000-vector of floats: conversion (the identity), broadcast, selection. -/
abbrev opsWhere4 (arg0 : StableHlo.TRef sig ⟨S300000, .i1⟩) (arg1 : StableHlo.TRef sig ⟨S300000, .f32⟩) (arg2 : StableHlo.TRef sig ⟨S_, .f32⟩) (φ : fn_where_4.Bufs) : List (HloOp τ sig (Elt F)) :=
  [ StableHlo.TRef.unary arg2 φ.v0 id,
    StableHlo.TRef.unary φ.v0 φ.v1 (broadcastInDim S300000 ![] bcast_S_S300000),
    StableHlo.TRef.ternary arg0 arg1 φ.v1 φ.v2 select ]

/-! ## @main's ten stages -/

/-- Stage 1 — the first normalization, rectified: the column means of the features, their variance (`_var`), the centred features times the reciprocal square root of variance plus `1e-4`, and `relu` of that. -/
abbrev opsS1 : List (HloOp τ sig (Elt F)) :=
  [ StableHlo.nullary main_cst (constant S_ .f32 0x00000000#32),
    StableHlo.binary main_arg0 main_cst main_v0 ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)),
    StableHlo.nullary main_cst_0 (constant S_ .f32 0x48927C00#32),
    StableHlo.unary main_cst_0 main_v1 (broadcastInDim S32 ![] bcast_S_S32 : (⟨S_, .f32⟩ : BufTy).Contents (Elt F) → (⟨S32, .f32⟩ : BufTy).Contents (Elt F)),
    StableHlo.binary main_v0 main_v1 main_v2 (Host.divf : (⟨S32, .f32⟩ : BufTy).Contents (Elt F) → (⟨S32, .f32⟩ : BufTy).Contents (Elt F) → (⟨S32, .f32⟩ : BufTy).Contents (Elt F)),
    StableHlo.nullary main_c (constantI S_ 32 0#32) ] ++
  (opsVar (.of main_arg0) (.of main_c) main_call0 ++
  ([ StableHlo.unary main_v2 main_v4 (broadcastInDim S1x32 ![1] bcast_S32_S1x32_1 : (⟨S32, .f32⟩ : BufTy).Contents (Elt F) → (⟨S1x32, .f32⟩ : BufTy).Contents (Elt F)),
    StableHlo.unary main_v4 main_v5 (broadcastInDim S300000x32 ![0, 1] bcast_S1x32_S300000x32_0_1 : (⟨S1x32, .f32⟩ : BufTy).Contents (Elt F) → (⟨S300000x32, .f32⟩ : BufTy).Contents (Elt F)),
    StableHlo.binary main_arg0 main_v5 main_v6 (subf : (⟨S300000x32, .f32⟩ : BufTy).Contents (Elt F) → (⟨S300000x32, .f32⟩ : BufTy).Contents (Elt F) → (⟨S300000x32, .f32⟩ : BufTy).Contents (Elt F)),
    StableHlo.nullary main_cst_1 (constant S_ .f32 0x38D1B717#32),
    StableHlo.unary main_cst_1 main_v7 (broadcastInDim S32 ![] bcast_S_S32 : (⟨S_, .f32⟩ : BufTy).Contents (Elt F) → (⟨S32, .f32⟩ : BufTy).Contents (Elt F)),
    StableHlo.binary main_v3 main_v7 main_v8 (addf : (⟨S32, .f32⟩ : BufTy).Contents (Elt F) → (⟨S32, .f32⟩ : BufTy).Contents (Elt F) → (⟨S32, .f32⟩ : BufTy).Contents (Elt F)),
    StableHlo.unary main_v8 main_v9 (Host.rsqrt : (⟨S32, .f32⟩ : BufTy).Contents (Elt F) → (⟨S32, .f32⟩ : BufTy).Contents (Elt F)),
    StableHlo.unary main_v9 main_v10 (broadcastInDim S1x32 ![1] bcast_S32_S1x32_1 : (⟨S32, .f32⟩ : BufTy).Contents (Elt F) → (⟨S1x32, .f32⟩ : BufTy).Contents (Elt F)),
    StableHlo.unary main_v10 main_v11 (broadcastInDim S300000x32 ![0, 1] bcast_S1x32_S300000x32_0_1 : (⟨S1x32, .f32⟩ : BufTy).Contents (Elt F) → (⟨S300000x32, .f32⟩ : BufTy).Contents (Elt F)),
    StableHlo.binary main_v6 main_v11 main_v12 (mulf : (⟨S300000x32, .f32⟩ : BufTy).Contents (Elt F) → (⟨S300000x32, .f32⟩ : BufTy).Contents (Elt F) → (⟨S300000x32, .f32⟩ : BufTy).Contents (Elt F)) ] ++
  (opsRelu (.of main_v12) main_call1)))

/-- Stage 2 — the first neighbour gather: the input-side index table with its negative entries replaced by zero (`_where`), wrapped into range, and the rows of the rectified features it names. -/
abbrev opsS2 : List (HloOp τ sig (Elt F)) :=
  [ StableHlo.nullary main_c_2 (constantI S_ 32 0#32),
    StableHlo.unary main_c_2 main_v14 (broadcastInDim S27x150000 ![] bcast_S_S27x150000 : (⟨S_, .i32⟩ : BufTy).Contents (Elt F) → (⟨S27x150000, .i32⟩ : BufTy).Contents (Elt F)),
    StableHlo.binary main_arg3 main_v14 main_v15 (cmpi .sge : (⟨S27x150000, .i32⟩ : BufTy).Contents (Elt F) → (⟨S27x150000, .i32⟩ : BufTy).Contents (Elt F) → (⟨S27x150000, .i1⟩ : BufTy).Contents (Elt F)),
    StableHlo.nullary main_c_3 (constantI S_ 32 0#32) ] ++
  (opsWhere0 (.of main_v15) (.of main_arg3) (.of main_c_3) main_call2 ++
  ([ StableHlo.nullary main_c_4 (constantI S_ 32 0#32),
    StableHlo.unary main_c_4 main_v17 (broadcastInDim S27x150000 ![] bcast_S_S27x150000 : (⟨S_, .i32⟩ : BufTy).Contents (Elt F) → (⟨S27x150000, .i32⟩ : BufTy).Contents (Elt F)),
    StableHlo.binary main_v16 main_v17 main_v18 (cmpi .slt : (⟨S27x150000, .i32⟩ : BufTy).Contents (Elt F) → (⟨S27x150000, .i32⟩ : BufTy).Contents (Elt F) → (⟨S27x150000, .i1⟩ : BufTy).Contents (Elt F)),
    StableHlo.nullary main_c_5 (constantI S_ 32 300000#32),
    StableHlo.unary main_c_5 main_v19 (broadcastInDim S27x150000 ![] bcast_S_S27x150000 : (⟨S_, .i32⟩ : BufTy).Contents (Elt F) → (⟨S27x150000, .i32⟩ : BufTy).Contents (Elt F)),
    StableHlo.binary main_v16 main_v19 main_v20 (addi : (⟨S27x150000, .i32⟩ : BufTy).Contents (Elt F) → (⟨S27x150000, .i32⟩ : BufTy).Contents (Elt F) → (⟨S27x150000, .i32⟩ : BufTy).Contents (Elt F)),
    StableHlo.ternary main_v18 main_v20 main_v16 main_v21 (select : (⟨S27x150000, .i1⟩ : BufTy).Contents (Elt F) → (⟨S27x150000, .i32⟩ : BufTy).Contents (Elt F) → (⟨S27x150000, .i32⟩ : BufTy).Contents (Elt F) → (⟨S27x150000, .i32⟩ : BufTy).Contents (Elt F)),
    StableHlo.unary main_v21 main_v22 (broadcastInDim S27x150000x1 ![0, 1] bcast_S27x150000_S27x150000x1_0_1 : (⟨S27x150000, .i32⟩ : BufTy).Contents (Elt F) → (⟨S27x150000x1, .i32⟩ : BufTy).Contents (Elt F)),
    StableHlo.binary main_v13 main_v22 main_v23 ((fun x i => Host.gather gather_S300000x32_S27x150000x1_S27x150000x32_2_0_n_n_0_2_132 x i) : (⟨S300000x32, .f32⟩ : BufTy).Contents (Elt F) → (⟨S27x150000x1, .i32⟩ : BufTy).Contents (Elt F) → (⟨S27x150000x32, .f32⟩ : BufTy).Contents (Elt F)) ]))

/-- Stage 3 — the first contraction: each offset's gathered rows times that offset's 32×32 weight. -/
abbrev opsS3 : List (HloOp τ sig (Elt F)) :=
  [ StableHlo.binary main_v23 main_arg7 main_v24 ((fun l r => Host.dotGeneral dot_S27x150000x32_S27x32x32_S27x150000x32_2_1_1_2_0_0 none l r) : (⟨S27x150000x32, .f32⟩ : BufTy).Contents (Elt F) → (⟨S27x32x32, .f32⟩ : BufTy).Contents (Elt F) → (⟨S27x150000x32, .f32⟩ : BufTy).Contents (Elt F)) ]

/-- Stage 4 — the first scatter-add: the output-side index table with its invalid entries sent to the extra row 300000, the products added at those rows of a zero array with that extra row, and the first 300000 rows of it. -/
abbrev opsS4 : List (HloOp τ sig (Elt F)) :=
  [ StableHlo.nullary main_c_6 (constantI S_ 32 300000#32) ] ++
  (opsWhere0 (.of main_v15) (.of main_arg4) (.of main_c_6) main_call3 ++
  ([ StableHlo.reshape main_v25 main_v26 rfl shapeCasts_S27x150000_S4050000,
    StableHlo.reshape main_v24 main_v27 rfl shapeCasts_S27x150000x32_S4050000x32,
    StableHlo.nullary main_cst_7 (constant S_ .f32 0x00000000#32),
    StableHlo.unary main_cst_7 main_v28 (broadcastInDim S300001x32 ![] bcast_S_S300001x32 : (⟨S_, .f32⟩ : BufTy).Contents (Elt F) → (⟨S300001x32, .f32⟩ : BufTy).Contents (Elt F)),
    StableHlo.unary main_v26 main_v29 (broadcastInDim S4050000x1 ![0] bcast_S4050000_S4050000x1_0 : (⟨S4050000, .i32⟩ : BufTy).Contents (Elt F) → (⟨S4050000x1, .i32⟩ : BufTy).Contents (Elt F)),
    StableHlo.ternary main_v28 main_v29 main_v27 main_v30 ((fun x i u => Host.scatterAdd scatter_S300001x32_S4050000x1_S4050000x32_1_0_0_1 x i u) : (⟨S300001x32, .f32⟩ : BufTy).Contents (Elt F) → (⟨S4050000x1, .i32⟩ : BufTy).Contents (Elt F) → (⟨S4050000x32, .f32⟩ : BufTy).Contents (Elt F) → (⟨S300001x32, .f32⟩ : BufTy).Contents (Elt F)),
    StableHlo.unary main_v30 main_v31 ((extractStridedSlice S300000x32 ![0, 0] · slices_S300001x32_S300000x32_0_0) : (⟨S300001x32, .f32⟩ : BufTy).Contents (Elt F) → (⟨S300000x32, .f32⟩ : BufTy).Contents (Elt F)) ]))

/-- Stage 5 — the second normalization, rectified: as stage 1 over stage 4's result. -/
abbrev opsS5 : List (HloOp τ sig (Elt F)) :=
  [ StableHlo.nullary main_cst_8 (constant S_ .f32 0x00000000#32),
    StableHlo.binary main_v31 main_cst_8 main_v32 ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)),
    StableHlo.nullary main_cst_9 (constant S_ .f32 0x48927C00#32),
    StableHlo.unary main_cst_9 main_v33 (broadcastInDim S32 ![] bcast_S_S32 : (⟨S_, .f32⟩ : BufTy).Contents (Elt F) → (⟨S32, .f32⟩ : BufTy).Contents (Elt F)),
    StableHlo.binary main_v32 main_v33 main_v34 (Host.divf : (⟨S32, .f32⟩ : BufTy).Contents (Elt F) → (⟨S32, .f32⟩ : BufTy).Contents (Elt F) → (⟨S32, .f32⟩ : BufTy).Contents (Elt F)),
    StableHlo.nullary main_c_10 (constantI S_ 32 0#32) ] ++
  (opsVar1 (.of main_v31) (.of main_c_10) main_call4 ++
  ([ StableHlo.unary main_v34 main_v36 (broadcastInDim S1x32 ![1] bcast_S32_S1x32_1 : (⟨S32, .f32⟩ : BufTy).Contents (Elt F) → (⟨S1x32, .f32⟩ : BufTy).Contents (Elt F)),
    StableHlo.unary main_v36 main_v37 (broadcastInDim S300000x32 ![0, 1] bcast_S1x32_S300000x32_0_1 : (⟨S1x32, .f32⟩ : BufTy).Contents (Elt F) → (⟨S300000x32, .f32⟩ : BufTy).Contents (Elt F)),
    StableHlo.binary main_v31 main_v37 main_v38 (subf : (⟨S300000x32, .f32⟩ : BufTy).Contents (Elt F) → (⟨S300000x32, .f32⟩ : BufTy).Contents (Elt F) → (⟨S300000x32, .f32⟩ : BufTy).Contents (Elt F)),
    StableHlo.nullary main_cst_11 (constant S_ .f32 0x38D1B717#32),
    StableHlo.unary main_cst_11 main_v39 (broadcastInDim S32 ![] bcast_S_S32 : (⟨S_, .f32⟩ : BufTy).Contents (Elt F) → (⟨S32, .f32⟩ : BufTy).Contents (Elt F)),
    StableHlo.binary main_v35 main_v39 main_v40 (addf : (⟨S32, .f32⟩ : BufTy).Contents (Elt F) → (⟨S32, .f32⟩ : BufTy).Contents (Elt F) → (⟨S32, .f32⟩ : BufTy).Contents (Elt F)),
    StableHlo.unary main_v40 main_v41 (Host.rsqrt : (⟨S32, .f32⟩ : BufTy).Contents (Elt F) → (⟨S32, .f32⟩ : BufTy).Contents (Elt F)),
    StableHlo.unary main_v41 main_v42 (broadcastInDim S1x32 ![1] bcast_S32_S1x32_1 : (⟨S32, .f32⟩ : BufTy).Contents (Elt F) → (⟨S1x32, .f32⟩ : BufTy).Contents (Elt F)),
    StableHlo.unary main_v42 main_v43 (broadcastInDim S300000x32 ![0, 1] bcast_S1x32_S300000x32_0_1 : (⟨S1x32, .f32⟩ : BufTy).Contents (Elt F) → (⟨S300000x32, .f32⟩ : BufTy).Contents (Elt F)),
    StableHlo.binary main_v38 main_v43 main_v44 (mulf : (⟨S300000x32, .f32⟩ : BufTy).Contents (Elt F) → (⟨S300000x32, .f32⟩ : BufTy).Contents (Elt F) → (⟨S300000x32, .f32⟩ : BufTy).Contents (Elt F)) ] ++
  (opsRelu (.of main_v44) main_call5)))

/-- Stage 6 — the second neighbour gather: as stage 2 over stage 5's result. -/
abbrev opsS6 : List (HloOp τ sig (Elt F)) :=
  [ StableHlo.nullary main_c_12 (constantI S_ 32 0#32),
    StableHlo.unary main_c_12 main_v46 (broadcastInDim S27x150000 ![] bcast_S_S27x150000 : (⟨S_, .i32⟩ : BufTy).Contents (Elt F) → (⟨S27x150000, .i32⟩ : BufTy).Contents (Elt F)),
    StableHlo.binary main_arg3 main_v46 main_v47 (cmpi .sge : (⟨S27x150000, .i32⟩ : BufTy).Contents (Elt F) → (⟨S27x150000, .i32⟩ : BufTy).Contents (Elt F) → (⟨S27x150000, .i1⟩ : BufTy).Contents (Elt F)),
    StableHlo.nullary main_c_13 (constantI S_ 32 0#32) ] ++
  (opsWhere0 (.of main_v47) (.of main_arg3) (.of main_c_13) main_call6 ++
  ([ StableHlo.nullary main_c_14 (constantI S_ 32 0#32),
    StableHlo.unary main_c_14 main_v49 (broadcastInDim S27x150000 ![] bcast_S_S27x150000 : (⟨S_, .i32⟩ : BufTy).Contents (Elt F) → (⟨S27x150000, .i32⟩ : BufTy).Contents (Elt F)),
    StableHlo.binary main_v48 main_v49 main_v50 (cmpi .slt : (⟨S27x150000, .i32⟩ : BufTy).Contents (Elt F) → (⟨S27x150000, .i32⟩ : BufTy).Contents (Elt F) → (⟨S27x150000, .i1⟩ : BufTy).Contents (Elt F)),
    StableHlo.nullary main_c_15 (constantI S_ 32 300000#32),
    StableHlo.unary main_c_15 main_v51 (broadcastInDim S27x150000 ![] bcast_S_S27x150000 : (⟨S_, .i32⟩ : BufTy).Contents (Elt F) → (⟨S27x150000, .i32⟩ : BufTy).Contents (Elt F)),
    StableHlo.binary main_v48 main_v51 main_v52 (addi : (⟨S27x150000, .i32⟩ : BufTy).Contents (Elt F) → (⟨S27x150000, .i32⟩ : BufTy).Contents (Elt F) → (⟨S27x150000, .i32⟩ : BufTy).Contents (Elt F)),
    StableHlo.ternary main_v50 main_v52 main_v48 main_v53 (select : (⟨S27x150000, .i1⟩ : BufTy).Contents (Elt F) → (⟨S27x150000, .i32⟩ : BufTy).Contents (Elt F) → (⟨S27x150000, .i32⟩ : BufTy).Contents (Elt F) → (⟨S27x150000, .i32⟩ : BufTy).Contents (Elt F)),
    StableHlo.unary main_v53 main_v54 (broadcastInDim S27x150000x1 ![0, 1] bcast_S27x150000_S27x150000x1_0_1 : (⟨S27x150000, .i32⟩ : BufTy).Contents (Elt F) → (⟨S27x150000x1, .i32⟩ : BufTy).Contents (Elt F)),
    StableHlo.binary main_v45 main_v54 main_v55 ((fun x i => Host.gather gather_S300000x32_S27x150000x1_S27x150000x32_2_0_n_n_0_2_132 x i) : (⟨S300000x32, .f32⟩ : BufTy).Contents (Elt F) → (⟨S27x150000x1, .i32⟩ : BufTy).Contents (Elt F) → (⟨S27x150000x32, .f32⟩ : BufTy).Contents (Elt F)) ]))

/-- Stage 7 — the second contraction: as stage 3, with the second weight. -/
abbrev opsS7 : List (HloOp τ sig (Elt F)) :=
  [ StableHlo.binary main_v55 main_arg8 main_v56 ((fun l r => Host.dotGeneral dot_S27x150000x32_S27x32x32_S27x150000x32_2_1_1_2_0_0 none l r) : (⟨S27x150000x32, .f32⟩ : BufTy).Contents (Elt F) → (⟨S27x32x32, .f32⟩ : BufTy).Contents (Elt F) → (⟨S27x150000x32, .f32⟩ : BufTy).Contents (Elt F)) ]

/-- Stage 8 — the second scatter-add, its first 300000 rows, plus the features (the residual). -/
abbrev opsS8 : List (HloOp τ sig (Elt F)) :=
  [ StableHlo.nullary main_c_16 (constantI S_ 32 300000#32) ] ++
  (opsWhere0 (.of main_v47) (.of main_arg4) (.of main_c_16) main_call7 ++
  ([ StableHlo.reshape main_v57 main_v58 rfl shapeCasts_S27x150000_S4050000,
    StableHlo.reshape main_v56 main_v59 rfl shapeCasts_S27x150000x32_S4050000x32,
    StableHlo.nullary main_cst_17 (constant S_ .f32 0x00000000#32),
    StableHlo.unary main_cst_17 main_v60 (broadcastInDim S300001x32 ![] bcast_S_S300001x32 : (⟨S_, .f32⟩ : BufTy).Contents (Elt F) → (⟨S300001x32, .f32⟩ : BufTy).Contents (Elt F)),
    StableHlo.unary main_v58 main_v61 (broadcastInDim S4050000x1 ![0] bcast_S4050000_S4050000x1_0 : (⟨S4050000, .i32⟩ : BufTy).Contents (Elt F) → (⟨S4050000x1, .i32⟩ : BufTy).Contents (Elt F)),
    StableHlo.ternary main_v60 main_v61 main_v59 main_v62 ((fun x i u => Host.scatterAdd scatter_S300001x32_S4050000x1_S4050000x32_1_0_0_1 x i u) : (⟨S300001x32, .f32⟩ : BufTy).Contents (Elt F) → (⟨S4050000x1, .i32⟩ : BufTy).Contents (Elt F) → (⟨S4050000x32, .f32⟩ : BufTy).Contents (Elt F) → (⟨S300001x32, .f32⟩ : BufTy).Contents (Elt F)),
    StableHlo.unary main_v62 main_v63 ((extractStridedSlice S300000x32 ![0, 0] · slices_S300001x32_S300000x32_0_0) : (⟨S300001x32, .f32⟩ : BufTy).Contents (Elt F) → (⟨S300000x32, .f32⟩ : BufTy).Contents (Elt F)),
    StableHlo.binary main_v63 main_arg0 main_v64 (addf : (⟨S300000x32, .f32⟩ : BufTy).Contents (Elt F) → (⟨S300000x32, .f32⟩ : BufTy).Contents (Elt F) → (⟨S300000x32, .f32⟩ : BufTy).Contents (Elt F)) ]))

/-- Stage 9 up to the broadcast of the clamped counts along the three columns (all of it but the final division). -/
abbrev opsS9a : List (HloOp τ sig (Elt F)) :=
  [ StableHlo.nullary main_c_18 (constantI S_ 32 0#32),
    StableHlo.unary main_c_18 main_v65 (broadcastInDim S300000 ![] bcast_S_S300000 : (⟨S_, .i32⟩ : BufTy).Contents (Elt F) → (⟨S300000, .i32⟩ : BufTy).Contents (Elt F)),
    StableHlo.binary main_arg5 main_v65 main_v66 (cmpi .sge : (⟨S300000, .i32⟩ : BufTy).Contents (Elt F) → (⟨S300000, .i32⟩ : BufTy).Contents (Elt F) → (⟨S300000, .i1⟩ : BufTy).Contents (Elt F)),
    StableHlo.nullary main_c_19 (constantI S_ 32 0#32) ] ++
  (opsWhere2 (.of main_v66) (.of main_arg5) (.of main_c_19) main_call8 ++
  ([ StableHlo.nullary main_c_20 (constantI S_ 32 0#32),
    StableHlo.unary main_c_20 main_v68 (broadcastInDim S300000 ![] bcast_S_S300000 : (⟨S_, .i32⟩ : BufTy).Contents (Elt F) → (⟨S300000, .i32⟩ : BufTy).Contents (Elt F)),
    StableHlo.binary main_v67 main_v68 main_v69 (cmpi .slt : (⟨S300000, .i32⟩ : BufTy).Contents (Elt F) → (⟨S300000, .i32⟩ : BufTy).Contents (Elt F) → (⟨S300000, .i1⟩ : BufTy).Contents (Elt F)),
    StableHlo.nullary main_c_21 (constantI S_ 32 300000#32),
    StableHlo.unary main_c_21 main_v70 (broadcastInDim S300000 ![] bcast_S_S300000 : (⟨S_, .i32⟩ : BufTy).Contents (Elt F) → (⟨S300000, .i32⟩ : BufTy).Contents (Elt F)),
    StableHlo.binary main_v67 main_v70 main_v71 (addi : (⟨S300000, .i32⟩ : BufTy).Contents (Elt F) → (⟨S300000, .i32⟩ : BufTy).Contents (Elt F) → (⟨S300000, .i32⟩ : BufTy).Contents (Elt F)),
    StableHlo.ternary main_v69 main_v71 main_v67 main_v72 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v72 main_v73 (broadcastInDim S300000x1 ![0] bcast_S300000_S300000x1_0 : (⟨S300000, .i32⟩ : BufTy).Contents (Elt F) → (⟨S300000x1, .i32⟩ : BufTy).Contents (Elt F)),
    StableHlo.binary main_arg1 main_v73 main_v74 ((fun x i => Host.gather gather_S300000x3_S300000x1_S300000x3_1_0_n_n_0_1_13 x i) : (⟨S300000x3, .f32⟩ : BufTy).Contents (Elt F) → (⟨S300000x1, .i32⟩ : BufTy).Contents (Elt F) → (⟨S300000x3, .f32⟩ : BufTy).Contents (Elt F)),
    StableHlo.unary main_v66 main_v75 (broadcastInDim S300000x1 ![0] bcast_S300000_S300000x1_0 : (⟨S300000, .i1⟩ : BufTy).Contents (Elt F) → (⟨S300000x1, .i1⟩ : BufTy).Contents (Elt F)),
    StableHlo.nullary main_cst_22 (constant S_ .f32 0x00000000#32) ] ++
  (opsWhere3 (.of main_v75) (.of main_v74) (.of main_cst_22) main_call9 ++
  ([ StableHlo.nullary main_c_23 (constantI S_ 32 37500#32) ] ++
  (opsWhere2 (.of main_v66) (.of main_arg6) (.of main_c_23) main_call10 ++
  ([ StableHlo.nullary main_cst_24 (constant S_ .f32 0x00000000#32),
    StableHlo.unary main_cst_24 main_v78 (broadcastInDim S37501x3 ![] bcast_S_S37501x3 : (⟨S_, .f32⟩ : BufTy).Contents (Elt F) → (⟨S37501x3, .f32⟩ : BufTy).Contents (Elt F)),
    StableHlo.unary main_v77 main_v79 (broadcastInDim S300000x1 ![0] bcast_S300000_S300000x1_0 : (⟨S300000, .i32⟩ : BufTy).Contents (Elt F) → (⟨S300000x1, .i32⟩ : BufTy).Contents (Elt F)),
    StableHlo.ternary main_v78 main_v79 main_v76 main_v80 ((fun x i u => Host.scatterAdd scatter_S37501x3_S300000x1_S300000x3_1_0_0_1 x i u) : (⟨S37501x3, .f32⟩ : BufTy).Contents (Elt F) → (⟨S300000x1, .i32⟩ : BufTy).Contents (Elt F) → (⟨S300000x3, .f32⟩ : BufTy).Contents (Elt F) → (⟨S37501x3, .f32⟩ : BufTy).Contents (Elt F)),
    StableHlo.unary main_v80 main_v81 ((extractStridedSlice S37500x3 ![0, 0] · slices_S37501x3_S37500x3_0_0) : (⟨S37501x3, .f32⟩ : BufTy).Contents (Elt F) → (⟨S37500x3, .f32⟩ : BufTy).Contents (Elt F)),
    StableHlo.unary main_v66 main_v82 (uitofp .f32 : (⟨S300000, .i1⟩ : BufTy).Contents (Elt F) → (⟨S300000, .f32⟩ : BufTy).Contents (Elt F)),
    StableHlo.nullary main_cst_25 (constant S_ .f32 0x00000000#32),
    StableHlo.unary main_cst_25 main_v83 (broadcastInDim S37501 ![] bcast_S_S37501 : (⟨S_, .f32⟩ : BufTy).Contents (Elt F) → (⟨S37501, .f32⟩ : BufTy).Contents (Elt F)),
    StableHlo.unary main_v77 main_v84 (broadcastInDim S300000x1 ![0] bcast_S300000_S300000x1_0 : (⟨S300000, .i32⟩ : BufTy).Contents (Elt F) → (⟨S300000x1, .i32⟩ : BufTy).Contents (Elt F)),
    StableHlo.ternary main_v83 main_v84 main_v82 main_v85 ((fun x i u => Host.scatterAdd scatter_S37501_S300000x1_S300000_n_0_0_1 x i u) : (⟨S37501, .f32⟩ : BufTy).Contents (Elt F) → (⟨S300000x1, .i32⟩ : BufTy).Contents (Elt F) → (⟨S300000, .f32⟩ : BufTy).Contents (Elt F) → (⟨S37501, .f32⟩ : BufTy).Contents (Elt F)),
    StableHlo.unary main_v85 main_v86 ((extractStridedSlice S37500 ![0] · slices_S37501_S37500_0) : (⟨S37501, .f32⟩ : BufTy).Contents (Elt F) → (⟨S37500, .f32⟩ : BufTy).Contents (Elt F)),
    StableHlo.nullary main_cst_26 (constant S_ .f32 0x3F800000#32),
    StableHlo.unary main_cst_26 main_v87 (broadcastInDim S37500 ![] bcast_S_S37500 : (⟨S_, .f32⟩ : BufTy).Contents (Elt F) → (⟨S37500, .f32⟩ : BufTy).Contents (Elt F)),
    StableHlo.binary main_v86 main_v87 main_v88 (maximumf : (⟨S37500, .f32⟩ : BufTy).Contents (Elt F) → (⟨S37500, .f32⟩ : BufTy).Contents (Elt F) → (⟨S37500, .f32⟩ : BufTy).Contents (Elt F)),
    StableHlo.unary main_v88 main_v89 (broadcastInDim S37500x1 ![0] bcast_S37500_S37500x1_0 : (⟨S37500, .f32⟩ : BufTy).Contents (Elt F) → (⟨S37500x1, .f32⟩ : BufTy).Contents (Elt F)),
    StableHlo.unary main_v89 main_v90 (broadcastInDim S37500x3 ![0, 1] bcast_S37500x1_S37500x3_0_1 : (⟨S37500x1, .f32⟩ : BufTy).Contents (Elt F) → (⟨S37500x3, .f32⟩ : BufTy).Contents (Elt F)) ]))))))

/-- Stage 9's final division. -/
abbrev opsS9b : List (HloOp τ sig (Elt F)) :=
  [ StableHlo.binary main_v81 main_v90 main_v91 (Host.divf : (⟨S37500x3, .f32⟩ : BufTy).Contents (Elt F) → (⟨S37500x3, .f32⟩ : BufTy).Contents (Elt F) → (⟨S37500x3, .f32⟩ : BufTy).Contents (Elt F)) ]

/-- Stage 9 — the pooled coordinates: the coordinates' rows at the valid pooling indices (zero elsewhere), added at their cluster's row of a zero array with an extra row, over the clusters' counts clamped below at one. -/
abbrev opsS9 : List (HloOp τ sig (Elt F)) := opsS9a ++ opsS9b

/-- Stage 10 — the pooled batch indices: the batch indices as floats, treated as stage 9 treats one column of coordinates. -/
abbrev opsS10 : List (HloOp τ sig (Elt F)) :=
  [ StableHlo.unary main_arg2 main_v92 (sitofp .f32 : (⟨S300000, .i32⟩ : BufTy).Contents (Elt F) → (⟨S300000, .f32⟩ : BufTy).Contents (Elt F)),
    StableHlo.nullary main_c_27 (constantI S_ 32 0#32),
    StableHlo.unary main_c_27 main_v93 (broadcastInDim S300000 ![] bcast_S_S300000 : (⟨S_, .i32⟩ : BufTy).Contents (Elt F) → (⟨S300000, .i32⟩ : BufTy).Contents (Elt F)),
    StableHlo.binary main_arg5 main_v93 main_v94 (cmpi .sge : (⟨S300000, .i32⟩ : BufTy).Contents (Elt F) → (⟨S300000, .i32⟩ : BufTy).Contents (Elt F) → (⟨S300000, .i1⟩ : BufTy).Contents (Elt F)),
    StableHlo.nullary main_c_28 (constantI S_ 32 0#32) ] ++
  (opsWhere2 (.of main_v94) (.of main_arg5) (.of main_c_28) main_call11 ++
  ([ StableHlo.nullary main_c_29 (constantI S_ 32 0#32),
    StableHlo.unary main_c_29 main_v96 (broadcastInDim S300000 ![] bcast_S_S300000 : (⟨S_, .i32⟩ : BufTy).Contents (Elt F) → (⟨S300000, .i32⟩ : BufTy).Contents (Elt F)),
    StableHlo.binary main_v95 main_v96 main_v97 (cmpi .slt : (⟨S300000, .i32⟩ : BufTy).Contents (Elt F) → (⟨S300000, .i32⟩ : BufTy).Contents (Elt F) → (⟨S300000, .i1⟩ : BufTy).Contents (Elt F)),
    StableHlo.nullary main_c_30 (constantI S_ 32 300000#32),
    StableHlo.unary main_c_30 main_v98 (broadcastInDim S300000 ![] bcast_S_S300000 : (⟨S_, .i32⟩ : BufTy).Contents (Elt F) → (⟨S300000, .i32⟩ : BufTy).Contents (Elt F)),
    StableHlo.binary main_v95 main_v98 main_v99 (addi : (⟨S300000, .i32⟩ : BufTy).Contents (Elt F) → (⟨S300000, .i32⟩ : BufTy).Contents (Elt F) → (⟨S300000, .i32⟩ : BufTy).Contents (Elt F)),
    StableHlo.ternary main_v97 main_v99 main_v95 main_v100 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v100 main_v101 (broadcastInDim S300000x1 ![0] bcast_S300000_S300000x1_0 : (⟨S300000, .i32⟩ : BufTy).Contents (Elt F) → (⟨S300000x1, .i32⟩ : BufTy).Contents (Elt F)),
    StableHlo.binary main_v92 main_v101 main_v102 ((fun x i => Host.gather gather_S300000_S300000x1_S300000_n_0_n_n_0_1_1 x i) : (⟨S300000, .f32⟩ : BufTy).Contents (Elt F) → (⟨S300000x1, .i32⟩ : BufTy).Contents (Elt F) → (⟨S300000, .f32⟩ : BufTy).Contents (Elt F)),
    StableHlo.nullary main_cst_31 (constant S_ .f32 0x00000000#32) ] ++
  (opsWhere4 (.of main_v94) (.of main_v102) (.of main_cst_31) main_call12 ++
  ([ StableHlo.nullary main_c_32 (constantI S_ 32 37500#32) ] ++
  (opsWhere2 (.of main_v94) (.of main_arg6) (.of main_c_32) main_call13 ++
  ([ StableHlo.nullary main_cst_33 (constant S_ .f32 0x00000000#32),
    StableHlo.unary main_cst_33 main_v105 (broadcastInDim S37501 ![] bcast_S_S37501 : (⟨S_, .f32⟩ : BufTy).Contents (Elt F) → (⟨S37501, .f32⟩ : BufTy).Contents (Elt F)),
    StableHlo.unary main_v104 main_v106 (broadcastInDim S300000x1 ![0] bcast_S300000_S300000x1_0 : (⟨S300000, .i32⟩ : BufTy).Contents (Elt F) → (⟨S300000x1, .i32⟩ : BufTy).Contents (Elt F)),
    StableHlo.ternary main_v105 main_v106 main_v103 main_v107 ((fun x i u => Host.scatterAdd scatter_S37501_S300000x1_S300000_n_0_0_1 x i u) : (⟨S37501, .f32⟩ : BufTy).Contents (Elt F) → (⟨S300000x1, .i32⟩ : BufTy).Contents (Elt F) → (⟨S300000, .f32⟩ : BufTy).Contents (Elt F) → (⟨S37501, .f32⟩ : BufTy).Contents (Elt F)),
    StableHlo.unary main_v107 main_v108 ((extractStridedSlice S37500 ![0] · slices_S37501_S37500_0) : (⟨S37501, .f32⟩ : BufTy).Contents (Elt F) → (⟨S37500, .f32⟩ : BufTy).Contents (Elt F)),
    StableHlo.unary main_v94 main_v109 (uitofp .f32 : (⟨S300000, .i1⟩ : BufTy).Contents (Elt F) → (⟨S300000, .f32⟩ : BufTy).Contents (Elt F)),
    StableHlo.nullary main_cst_34 (constant S_ .f32 0x00000000#32),
    StableHlo.unary main_cst_34 main_v110 (broadcastInDim S37501 ![] bcast_S_S37501 : (⟨S_, .f32⟩ : BufTy).Contents (Elt F) → (⟨S37501, .f32⟩ : BufTy).Contents (Elt F)),
    StableHlo.unary main_v104 main_v111 (broadcastInDim S300000x1 ![0] bcast_S300000_S300000x1_0 : (⟨S300000, .i32⟩ : BufTy).Contents (Elt F) → (⟨S300000x1, .i32⟩ : BufTy).Contents (Elt F)),
    StableHlo.ternary main_v110 main_v111 main_v109 main_v112 ((fun x i u => Host.scatterAdd scatter_S37501_S300000x1_S300000_n_0_0_1 x i u) : (⟨S37501, .f32⟩ : BufTy).Contents (Elt F) → (⟨S300000x1, .i32⟩ : BufTy).Contents (Elt F) → (⟨S300000, .f32⟩ : BufTy).Contents (Elt F) → (⟨S37501, .f32⟩ : BufTy).Contents (Elt F)),
    StableHlo.unary main_v112 main_v113 ((extractStridedSlice S37500 ![0] · slices_S37501_S37500_0) : (⟨S37501, .f32⟩ : BufTy).Contents (Elt F) → (⟨S37500, .f32⟩ : BufTy).Contents (Elt F)),
    StableHlo.nullary main_cst_35 (constant S_ .f32 0x3F800000#32),
    StableHlo.unary main_cst_35 main_v114 (broadcastInDim S37500 ![] bcast_S_S37500 : (⟨S_, .f32⟩ : BufTy).Contents (Elt F) → (⟨S37500, .f32⟩ : BufTy).Contents (Elt F)),
    StableHlo.binary main_v113 main_v114 main_v115 (maximumf : (⟨S37500, .f32⟩ : BufTy).Contents (Elt F) → (⟨S37500, .f32⟩ : BufTy).Contents (Elt F) → (⟨S37500, .f32⟩ : BufTy).Contents (Elt F)),
    StableHlo.binary main_v108 main_v115 main_v116 (Host.divf : (⟨S37500, .f32⟩ : BufTy).Contents (Elt F) → (⟨S37500, .f32⟩ : BufTy).Contents (Elt F) → (⟨S37500, .f32⟩ : BufTy).Contents (Elt F)) ]))))))

/-- @main's operations, in order: the ten stages, associated to the right. -/
abbrev ops : List (HloOp τ sig (Elt F)) :=
  opsS1 ++ (opsS2 ++ (opsS3 ++ (opsS4 ++ (opsS5 ++ (opsS6 ++ (opsS7 ++ (opsS8 ++ (opsS9 ++ opsS10))))))))

end Cert.ReferenceIdeal.RefRun

end
-- ==== Proof.RefRun.lean ====
/-
  The reference's run.

  The reference is StableHLO operations only, so its run is the library's run of a straight line
  (`StableHlo.run_seq`) once @main is shown to be `StableHlo.seq` of its operations. Each module-local function's
  body is the run of its list for any arguments and record (by unfolding; `_var` also unfolds the `_where` it
  calls and re-associates the sequencing). @main is printed as three consecutive windows run in order; each window
  is the run of the concatenation of the stages it holds — both sides flattened to one chain of steps by unfolding
  the functions at their calls and re-associating — and the run of a concatenation is the runs in sequence
  (`seq_append`), so @main is the run of all ten stages. Stage 9 straddles the second and third windows: its last
  operation, the division, opens the third.
-/
import proofs.«164309_j70342974374320_2_alg».proof.Proof.RefOps

noncomputable section

namespace Cert.ReferenceIdeal.RefRun

open Idealize.ShloMosaic Idealize.ShloMosaic.TcCoe Idealize.ShloMosaic.StableHlo Idealize.SL.Sem
open Cert.ReferenceIdeal Cert.ReferenceIdeal.Gen

variable {F : FTy → Type} [FloatOps F]

/-! ## Each function's body is the run of its list -/

theorem where_eq (arg0 : StableHlo.TRef sig ⟨S_, .i1⟩) (arg1 : StableHlo.TRef sig ⟨S32, .f32⟩) (arg2 : StableHlo.TRef sig ⟨S_, .f32⟩) (φ : fn_where.Bufs) :
    fn_where.body (F := F) arg0 arg1 arg2 φ = seq (opsWhere arg0 arg1 arg2 φ) := rfl

/-- `_var`: its nineteen own steps, then `_where`'s three, the sequencing re-associated. -/
theorem var_eq (arg0 : StableHlo.TRef sig ⟨S300000x32, .f32⟩) (arg1 : StableHlo.TRef sig ⟨S_, .i32⟩) (φ : fn_var.Bufs) :
    fn_var.body (F := F) arg0 arg1 φ = seq (opsVar arg0 arg1 φ) := by
  simp only [fn_var.body, fn_where.body, seq, List.cons_append, List.nil_append, bind_assoc, pure_bind]

theorem relu_eq (arg0 : StableHlo.TRef sig ⟨S300000x32, .f32⟩) (φ : fn_relu.Bufs) :
    fn_relu.body (F := F) arg0 φ = seq (opsRelu arg0 φ) := rfl

theorem where0_eq (arg0 : StableHlo.TRef sig ⟨S27x150000, .i1⟩) (arg1 : StableHlo.TRef sig ⟨S27x150000, .i32⟩) (arg2 : StableHlo.TRef sig ⟨S_, .i32⟩) (φ : fn_where_0.Bufs) :
    fn_where_0.body (F := F) arg0 arg1 arg2 φ = seq (opsWhere0 arg0 arg1 arg2 φ) := rfl

theorem var1_eq (arg0 : StableHlo.TRef sig ⟨S300000x32, .f32⟩) (arg1 : StableHlo.TRef sig ⟨S_, .i32⟩) (φ : fn_var_1.Bufs) :
    fn_var_1.body (F := F) arg0 arg1 φ = seq (opsVar1 arg0 arg1 φ) := by
  simp only [fn_var_1.body, fn_where.body, seq, List.cons_append, List.nil_append, bind_assoc, pure_bind]

theorem where2_eq (arg0 : StableHlo.TRef sig ⟨S300000, .i1⟩) (arg1 : StableHlo.TRef sig ⟨S300000, .i32⟩) (arg2 : StableHlo.TRef sig ⟨S_, .i32⟩) (φ : fn_where_2.Bufs) :
    fn_where_2.body (F := F) arg0 arg1 arg2 φ = seq (opsWhere2 arg0 arg1 arg2 φ) := rfl

theorem where3_eq (arg0 : StableHlo.TRef sig ⟨S300000x1, .i1⟩) (arg1 : StableHlo.TRef sig ⟨S300000x3, .f32⟩) (arg2 : StableHlo.TRef sig ⟨S_, .f32⟩) (φ : fn_where_3.Bufs) :
    fn_where_3.body (F := F) arg0 arg1 arg2 φ = seq (opsWhere3 arg0 arg1 arg2 φ) := rfl

theorem where4_eq (arg0 : StableHlo.TRef sig ⟨S300000, .i1⟩) (arg1 : StableHlo.TRef sig ⟨S300000, .f32⟩) (arg2 : StableHlo.TRef sig ⟨S_, .f32⟩) (φ : fn_where_4.Bufs) :
    fn_where_4.body (F := F) arg0 arg1 arg2 φ = seq (opsWhere4 arg0 arg1 arg2 φ) := rfl

/-! ## @main's three windows -/

-- a hundred-odd binds re-associated: the rewrite under the chain recurses once per step
set_option maxRecDepth 8192 in
/-- The first window is stages 1 to 5: `_var`, `_where`, `relu` and the integer `_where` unfolded at their calls,
    both sides are one chain of steps once the sequencing is re-associated. -/
theorem part0_eq (c : Dev nD) :
    main_part0 (F := F) c = seq (opsS1 ++ (opsS2 ++ (opsS3 ++ (opsS4 ++ opsS5)))) := by
  simp only [main_part0, fn_var.body, fn_var_1.body, fn_where.body, fn_relu.body, fn_where_0.body, seq,
    List.cons_append, List.nil_append, List.append_assoc, bind_assoc, pure_bind]

set_option maxRecDepth 8192 in
/-- The second window is stages 6 to 8 and stage 9 short of its division. -/
theorem part1_eq (c : Dev nD) :
    main_part1 (F := F) c = seq (opsS6 ++ (opsS7 ++ (opsS8 ++ opsS9a))) := by
  simp only [main_part1, fn_where_0.body, fn_where_2.body, fn_where_3.body, seq,
    List.cons_append, List.nil_append, List.append_assoc, bind_assoc, pure_bind]
  rfl

set_option maxRecDepth 4096 in
/-- The third window is stage 9's division and stage 10. -/
theorem part2_eq (c : Dev nD) : main_part2 (F := F) c = seq (opsS9b ++ opsS10) := by
  simp only [main_part2, fn_where_2.body, fn_where_4.body, seq, List.cons_append, List.nil_append, List.append_assoc,
    bind_assoc, pure_bind]

/-! ## @main -/

/-- The ten stages regrouped by window (concatenation is associative). -/
theorem regroup {α : Type} (A B C D E G H I Ja Jb K : List α) :
    A ++ (B ++ (C ++ (D ++ (E ++ (G ++ (H ++ (I ++ ((Ja ++ Jb) ++ K))))))))
      = (A ++ (B ++ (C ++ (D ++ E)))) ++ ((G ++ (H ++ (I ++ Ja))) ++ (Jb ++ K)) := by
  simp only [List.append_assoc]

/-- @main is the run of its operations: the three windows in order, each the run of its stages, and runs in
    sequence are the run of the concatenation. -/
theorem main_eq (c : Dev nD) : main (F := F) c = seq ops :=
  calc main (F := F) c
      = (main_part0 c >>= fun _ => main_part1 c >>= fun _ => main_part2 c) := rfl
    _ = (seq (opsS1 ++ (opsS2 ++ (opsS3 ++ (opsS4 ++ opsS5)))) >>= fun _ =>
          seq (opsS6 ++ (opsS7 ++ (opsS8 ++ opsS9a))) >>= fun _ => seq (opsS9b ++ opsS10)) := by
        rw [part0_eq, part1_eq, part2_eq]
    _ = (seq (opsS1 ++ (opsS2 ++ (opsS3 ++ (opsS4 ++ opsS5)))) >>= fun _ =>
          seq ((opsS6 ++ (opsS7 ++ (opsS8 ++ opsS9a))) ++ (opsS9b ++ opsS10))) := by
        rw [seq_append (opsS6 ++ (opsS7 ++ (opsS8 ++ opsS9a))) (opsS9b ++ opsS10)]
    _ = seq ((opsS1 ++ (opsS2 ++ (opsS3 ++ (opsS4 ++ opsS5))))
          ++ ((opsS6 ++ (opsS7 ++ (opsS8 ++ opsS9a))) ++ (opsS9b ++ opsS10))) :=
        (seq_append _ _).symm
    _ = seq ops :=
        congrArg seq (regroup opsS1 opsS2 opsS3 opsS4 opsS5 opsS6 opsS7 opsS8 opsS9a opsS9b opsS10).symm

/-! ## What the run and the arguments ask of each operation -/

/-- @main's nine arguments are the references of index below nine; every value of the program has a later one. -/
def Tame (op : HloOp τ sig (Elt F)) : Prop :=
  op.bufs ⊆ tcRefs τ sig ∧ op.fresh = ∅ ∧ ∀ r : Ref sig .tc, r.idx.val < 9 → Proc.devRef (τ := τ) .tc r ∉ op.writes

/-- An operation over TensorCore references that determines its one result, a reference of index nine or more. -/
theorem tame_of {op : HloOp τ sig (Elt F)} {y : Ref sig .tc} (hb : op.bufs ⊆ tcRefs τ sig) (hf : op.fresh = ∅)
    (hw : op.writes = {Proc.devRef .tc y}) (h : 9 ≤ y.idx.val) : Tame op :=
  ⟨hb, hf, fun r hr hm => by
    rw [hw, Finset.mem_singleton] at hm
    have e : r = y := Proc.devRef_injective _ hm
    subst e
    omega⟩

section Builders

variable (x a b c y : Ref sig .tc)

theorem tame_nullary (v : y.ty.Contents (Elt F)) (hy) (h : 9 ≤ y.idx.val) : Tame (nullary (τ := τ) y v hy) :=
  tame_of (nullary_bufs_sub ..) rfl rfl h
theorem tame_unary (f : x.ty.Contents (Elt F) → y.ty.Contents (Elt F)) (hx hy) (h : 9 ≤ y.idx.val) :
    Tame (unary (τ := τ) x y f hx hy) :=
  tame_of (unary_bufs_sub ..) rfl rfl h
theorem tame_binary (f : a.ty.Contents (Elt F) → b.ty.Contents (Elt F) → y.ty.Contents (Elt F)) (ha hb hy) (h : 9 ≤ y.idx.val) :
    Tame (binary (τ := τ) a b y f ha hb hy) :=
  tame_of (binary_bufs_sub ..) rfl rfl h
theorem tame_ternary (f : c.ty.Contents (Elt F) → a.ty.Contents (Elt F) → b.ty.Contents (Elt F) → y.ty.Contents (Elt F))
    (hc ha hb hy) (h : 9 ≤ y.idx.val) : Tame (ternary (τ := τ) c a b y f hc ha hb hy) :=
  tame_of (ternary_bufs_sub ..) rfl rfl h
theorem tame_reshape (he hn hx hy) (h : 9 ≤ y.idx.val) : Tame (reshape (τ := τ) (Val := Elt F) x y he hn hx hy) :=
  tame_of (reshape_bufs_sub ..) rfl rfl h

end Builders

/-! Stage by stage: the list splits at its concatenations and its elements, each element one of the five builders,
    its result reference's index read off the literal. -/

theorem opsS1_tame : (opsS1 (F := F)).Forall Tame := by
  simp (disch := decide) only [List.forall_append, List.Forall, tame_nullary, tame_unary, tame_binary, tame_ternary, and_self]
theorem opsS2_tame : (opsS2 (F := F)).Forall Tame := by
  simp (disch := decide) only [List.forall_append, List.Forall, tame_nullary, tame_unary, tame_binary, tame_ternary, and_self]
theorem opsS3_tame : (opsS3 (F := F)).Forall Tame := by
  simp (disch := decide) only [List.Forall, tame_binary]
theorem opsS4_tame : (opsS4 (F := F)).Forall Tame := by
  simp (disch := decide) only [List.forall_append, List.Forall, tame_nullary, tame_unary, tame_ternary, tame_reshape, and_self]
theorem opsS5_tame : (opsS5 (F := F)).Forall Tame := by
  simp (disch := decide) only [List.forall_append, List.Forall, tame_nullary, tame_unary, tame_binary, tame_ternary, and_self]
theorem opsS6_tame : (opsS6 (F := F)).Forall Tame := by
  simp (disch := decide) only [List.forall_append, List.Forall, tame_nullary, tame_unary, tame_binary, tame_ternary, and_self]
theorem opsS7_tame : (opsS7 (F := F)).Forall Tame := by
  simp (disch := decide) only [List.Forall, tame_binary]
theorem opsS8_tame : (opsS8 (F := F)).Forall Tame := by
  simp (disch := decide) only [List.forall_append, List.Forall, tame_nullary, tame_unary, tame_binary, tame_ternary, tame_reshape, and_self]
theorem opsS9_tame : (opsS9 (F := F)).Forall Tame := by
  simp (disch := decide) only [List.forall_append, List.Forall, tame_nullary, tame_unary, tame_binary, tame_ternary, and_self]
theorem opsS10_tame : (opsS10 (F := F)).Forall Tame := by
  simp (disch := decide) only [List.forall_append, List.Forall, tame_nullary, tame_unary, tame_binary, tame_ternary, and_self]

theorem ops_tame : (ops (F := F)).Forall Tame :=
  List.forall_append.mpr ⟨opsS1_tame, List.forall_append.mpr ⟨opsS2_tame, List.forall_append.mpr ⟨opsS3_tame,
    List.forall_append.mpr ⟨opsS4_tame, List.forall_append.mpr ⟨opsS5_tame, List.forall_append.mpr ⟨opsS6_tame,
    List.forall_append.mpr ⟨opsS7_tame, List.forall_append.mpr ⟨opsS8_tame, List.forall_append.mpr ⟨opsS9_tame, opsS10_tame⟩⟩⟩⟩⟩⟩⟩⟩⟩

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ops_tame.imp fun _ h => h.1

theorem ops_fresh : ∀ op ∈ (ops : List (HloOp τ sig (Elt F))), op.fresh = ∅ :=
  fun op h => (List.forall_iff_forall_mem.mp ops_tame op h).2.1

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold, stage by stage, and the arguments -/

/-- The fold over a concatenation is the folds in turn. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The whole fold is the ten stages' folds in turn. -/
theorem after_ops (V : Valuation τ sig (Elt F)) :
    after ops V = after opsS10 (after opsS9 (after opsS8 (after opsS7 (after opsS6 (after opsS5 (after opsS4
      (after opsS3 (after opsS2 (after opsS1 V))))))))) :=
  (after_append opsS1 _ _).trans <| (after_append opsS2 _ _).trans <| (after_append opsS3 _ _).trans <|
    (after_append opsS4 _ _).trans <| (after_append opsS5 _ _).trans <| (after_append opsS6 _ _).trans <|
    (after_append opsS7 _ _).trans <| (after_append opsS8 _ _).trans <| after_append opsS9 _ _

/-- No operation writes an argument: a reference of index below nine keeps its contents. -/
theorem after_ops_arg (V : Valuation τ sig (Elt F)) (r : Ref sig .tc) (hr : r.idx.val < 9) :
    after ops V (Proc.devRef .tc r) = V (Proc.devRef .tc r) :=
  after_of_forall_not_mem ops V fun op h => (List.forall_iff_forall_mem.mp ops_tame op h).2.2 r hr

theorem arg_kept_0 (V : Valuation τ sig (Elt F)) :
    after ops V (main_arg0 : DevRef τ sig) = V (main_arg0 : DevRef τ sig) := after_ops_arg V main_arg0 (by decide)
theorem arg_kept_1 (V : Valuation τ sig (Elt F)) :
    after ops V (main_arg1 : DevRef τ sig) = V (main_arg1 : DevRef τ sig) := after_ops_arg V main_arg1 (by decide)
theorem arg_kept_2 (V : Valuation τ sig (Elt F)) :
    after ops V (main_arg2 : DevRef τ sig) = V (main_arg2 : DevRef τ sig) := after_ops_arg V main_arg2 (by decide)
theorem arg_kept_3 (V : Valuation τ sig (Elt F)) :
    after ops V (main_arg3 : DevRef τ sig) = V (main_arg3 : DevRef τ sig) := after_ops_arg V main_arg3 (by decide)
theorem arg_kept_4 (V : Valuation τ sig (Elt F)) :
    after ops V (main_arg4 : DevRef τ sig) = V (main_arg4 : DevRef τ sig) := after_ops_arg V main_arg4 (by decide)
theorem arg_kept_5 (V : Valuation τ sig (Elt F)) :
    after ops V (main_arg5 : DevRef τ sig) = V (main_arg5 : DevRef τ sig) := after_ops_arg V main_arg5 (by decide)
theorem arg_kept_6 (V : Valuation τ sig (Elt F)) :
    after ops V (main_arg6 : DevRef τ sig) = V (main_arg6 : DevRef τ sig) := after_ops_arg V main_arg6 (by decide)
theorem arg_kept_7 (V : Valuation τ sig (Elt F)) :
    after ops V (main_arg7 : DevRef τ sig) = V (main_arg7 : DevRef τ sig) := after_ops_arg V main_arg7 (by decide)
theorem arg_kept_8 (V : Valuation τ sig (Elt F)) :
    after ops V (main_arg8 : DevRef τ sig) = V (main_arg8 : DevRef τ sig) := after_ops_arg V main_arg8 (by decide)

end Cert.ReferenceIdeal.RefRun

end
-- ==== Proof.KChain.lean ====
/-
  Reading the idealized kernel program's boundary contents. The program is a chain of boundaries W0 … W33: W0 is the launch
  memory, a stretch of host operations takes one boundary to the next by the fold of its operations' results, and a
  pallas_call region takes its entry boundary to the one where its output arrays hold what the grid's write-backs leave and
  every other buffer is untouched. A buffer that nothing between two boundaries writes holds the same contents at both.
-/
import proofs.«164309_j70342974374320_2_alg».proof.Proof.FrameKernelIdeal

set_option maxRecDepth 16384

noncomputable section

namespace Cert.KernelIdeal.KChain

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer written by no operation of the named stretch holds after the stretch what it held before it. -/
macro "kept_across " s:ident : tactic => `(tactic|
  exact StableHlo.after_of_forall_not_mem _ _ (List.forall_iff_forall_mem.mp (by
    simp only [$s:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The nine argument arrays of the program. -/
def IsArg (b : Ref sig .tc) : Prop :=
  b = main_arg0 ∨ b = main_arg1 ∨ b = main_arg2 ∨ b = main_arg3 ∨ b = main_arg4 ∨ b = main_arg5 ∨ b = main_arg6 ∨ b = main_arg7 ∨ b = main_arg8

end Cert.KernelIdeal.KChain

end
-- ==== Proof.KArgTable.lean ====
/- A table of cases, one per boundary W1 … W33 of the idealized kernel program: no stretch of host operations and no region
   writes an argument array, so an argument holds at each boundary what it held at the one before, hence what the launch
   memory holds. Each case is closed by the tactic kept_across of KChain.lean (a stretch) or by the frame's fact that a
   region leaves every buffer but its own arrays untouched, and an input window's array as it found it. -/
import proofs.«164309_j70342974374320_2_alg».proof.Proof.KChain

set_option maxRecDepth 16384

noncomputable section

namespace Cert.KernelIdeal.KChain

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (ρ : Dev nD → PrngReg)

theorem arg_step1 (c : Dev nD) (b : Ref sig .tc) (hb : IsArg b) :
    W1 m ρ c (Proc.devRef .tc b) = W0 m ρ c (Proc.devRef .tc b) := by
  rcases hb with rfl | rfl | rfl | rfl | rfl | rfl | rfl | rfl | rfl <;> kept_across hostOps0
theorem arg_step2 (c : Dev nD) (b : Ref sig .tc) (hb : IsArg b) :
    W2 m ρ c (Proc.devRef .tc b) = W1 m ρ c (Proc.devRef .tc b) := by
  rcases hb with rfl | rfl | rfl | rfl | rfl | rfl | rfl | rfl | rfl <;> kept_across hostOps0_1
theorem arg_step3 (c : Dev nD) (b : Ref sig .tc) (hb : IsArg b) :
    W3 m ρ c (Proc.devRef .tc b) = W2 m ρ c (Proc.devRef .tc b) := by
  rcases hb with rfl | rfl | rfl | rfl | rfl | rfl | rfl | rfl | rfl <;> kept_across hostOps0_2
theorem arg_step4 (c : Dev nD) (b : Ref sig .tc) (hb : IsArg b) :
    W4 m ρ c (Proc.devRef .tc b) = W3 m ρ c (Proc.devRef .tc b) := by
  rcases hb with rfl | rfl | rfl | rfl | rfl | rfl | rfl | rfl | rfl <;> first | exact W4_of_ne m ρ c _ (by decide) | exact (W4_arr m ρ c 0).trans (((dat0 (V3 m ρ) c).arrAt_in 0 rfl _).trans (A_eq0 (V3 m ρ) c 0))
theorem arg_step5 (c : Dev nD) (b : Ref sig .tc) (hb : IsArg b) :
    W5 m ρ c (Proc.devRef .tc b) = W4 m ρ c (Proc.devRef .tc b) := by
  rcases hb with rfl | rfl | rfl | rfl | rfl | rfl | rfl | rfl | rfl <;> kept_across hostOps1
theorem arg_step6 (c : Dev nD) (b : Ref sig .tc) (hb : IsArg b) :
    W6 m ρ c (Proc.devRef .tc b) = W5 m ρ c (Proc.devRef .tc b) := by
  rcases hb with rfl | rfl | rfl | rfl | rfl | rfl | rfl | rfl | rfl <;> kept_across hostOps1_1
theorem arg_step7 (c : Dev nD) (b : Ref sig .tc) (hb : IsArg b) :
    W7 m ρ c (Proc.devRef .tc b) = W6 m ρ c (Proc.devRef .tc b) := by
  rcases hb with rfl | rfl | rfl | rfl | rfl | rfl | rfl | rfl | rfl <;> kept_across hostOps1_2
theorem arg_step8 (c : Dev nD) (b : Ref sig .tc) (hb : IsArg b) :
    W8 m ρ c (Proc.devRef .tc b) = W7 m ρ c (Proc.devRef .tc b) := by
  rcases hb with rfl | rfl | rfl | rfl | rfl | rfl | rfl | rfl | rfl <;> first | exact W8_of_ne m ρ c _ (by decide) | exact (W8_arr m ρ c 1).trans (((dat1 (V7 m ρ) c).arrAt_in 1 rfl _).trans (A_eq1 (V7 m ρ) c 1))
theorem arg_step9 (c : Dev nD) (b : Ref sig .tc) (hb : IsArg b) :
    W9 m ρ c (Proc.devRef .tc b) = W8 m ρ c (Proc.devRef .tc b) := by
  rcases hb with rfl | rfl | rfl | rfl | rfl | rfl | rfl | rfl | rfl <;> kept_across hostOps2
theorem arg_step10 (c : Dev nD) (b : Ref sig .tc) (hb : IsArg b) :
    W10 m ρ c (Proc.devRef .tc b) = W9 m ρ c (Proc.devRef .tc b) := by
  rcases hb with rfl | rfl | rfl | rfl | rfl | rfl | rfl | rfl | rfl <;> kept_across hostOps2_1
theorem arg_step11 (c : Dev nD) (b : Ref sig .tc) (hb : IsArg b) :
    W11 m ρ c (Proc.devRef .tc b) = W10 m ρ c (Proc.devRef .tc b) := by
  rcases hb with rfl | rfl | rfl | rfl | rfl | rfl | rfl | rfl | rfl <;> kept_across hostOps2_2
theorem arg_step12 (c : Dev nD) (b : Ref sig .tc) (hb : IsArg b) :
    W12 m ρ c (Proc.devRef .tc b) = W11 m ρ c (Proc.devRef .tc b) := by
  rcases hb with rfl | rfl | rfl | rfl | rfl | rfl | rfl | rfl | rfl <;> kept_across hostOps2_3
theorem arg_step13 (c : Dev nD) (b : Ref sig .tc) (hb : IsArg b) :
    W13 m ρ c (Proc.devRef .tc b) = W12 m ρ c (Proc.devRef .tc b) := by
  rcases hb with rfl | rfl | rfl | rfl | rfl | rfl | rfl | rfl | rfl <;> kept_across hostOps2_4
theorem arg_step14 (c : Dev nD) (b : Ref sig .tc) (hb : IsArg b) :
    W14 m ρ c (Proc.devRef .tc b) = W13 m ρ c (Proc.devRef .tc b) := by
  rcases hb with rfl | rfl | rfl | rfl | rfl | rfl | rfl | rfl | rfl <;> first | exact W14_of_ne m ρ c _ (by decide) | exact (W14_arr m ρ c 0).trans (((dat2 (V13 m ρ) c).arrAt_in 0 rfl _).trans (A_eq2 (V13 m ρ) c 0))
theorem arg_step15 (c : Dev nD) (b : Ref sig .tc) (hb : IsArg b) :
    W15 m ρ c (Proc.devRef .tc b) = W14 m ρ c (Proc.devRef .tc b) := by
  rcases hb with rfl | rfl | rfl | rfl | rfl | rfl | rfl | rfl | rfl <;> kept_across hostOps3
theorem arg_step16 (c : Dev nD) (b : Ref sig .tc) (hb : IsArg b) :
    W16 m ρ c (Proc.devRef .tc b) = W15 m ρ c (Proc.devRef .tc b) := by
  rcases hb with rfl | rfl | rfl | rfl | rfl | rfl | rfl | rfl | rfl <;> kept_across hostOps3_1
theorem arg_step17 (c : Dev nD) (b : Ref sig .tc) (hb : IsArg b) :
    W17 m ρ c (Proc.devRef .tc b) = W16 m ρ c (Proc.devRef .tc b) := by
  rcases hb with rfl | rfl | rfl | rfl | rfl | rfl | rfl | rfl | rfl <;> kept_across hostOps3_2
theorem arg_step18 (c : Dev nD) (b : Ref sig .tc) (hb : IsArg b) :
    W18 m ρ c (Proc.devRef .tc b) = W17 m ρ c (Proc.devRef .tc b) := by
  rcases hb with rfl | rfl | rfl | rfl | rfl | rfl | rfl | rfl | rfl <;> first | exact W18_of_ne m ρ c _ (by decide) | exact (W18_arr m ρ c 1).trans (((dat3 (V17 m ρ) c).arrAt_in 1 rfl _).trans (A_eq3 (V17 m ρ) c 1))
theorem arg_step19 (c : Dev nD) (b : Ref sig .tc) (hb : IsArg b) :
    W19 m ρ c (Proc.devRef .tc b) = W18 m ρ c (Proc.devRef .tc b) := by
  rcases hb with rfl | rfl | rfl | rfl | rfl | rfl | rfl | rfl | rfl <;> kept_across hostOps4
theorem arg_step20 (c : Dev nD) (b : Ref sig .tc) (hb : IsArg b) :
    W20 m ρ c (Proc.devRef .tc b) = W19 m ρ c (Proc.devRef .tc b) := by
  rcases hb with rfl | rfl | rfl | rfl | rfl | rfl | rfl | rfl | rfl <;> kept_across hostOps4_1
theorem arg_step21 (c : Dev nD) (b : Ref sig .tc) (hb : IsArg b) :
    W21 m ρ c (Proc.devRef .tc b) = W20 m ρ c (Proc.devRef .tc b) := by
  rcases hb with rfl | rfl | rfl | rfl | rfl | rfl | rfl | rfl | rfl <;> kept_across hostOps4_2
theorem arg_step22 (c : Dev nD) (b : Ref sig .tc) (hb : IsArg b) :
    W22 m ρ c (Proc.devRef .tc b) = W21 m ρ c (Proc.devRef .tc b) := by
  rcases hb with rfl | rfl | rfl | rfl | rfl | rfl | rfl | rfl | rfl <;> kept_across hostOps4_3
theorem arg_step23 (c : Dev nD) (b : Ref sig .tc) (hb : IsArg b) :
    W23 m ρ c (Proc.devRef .tc b) = W22 m ρ c (Proc.devRef .tc b) := by
  rcases hb with rfl | rfl | rfl | rfl | rfl | rfl | rfl | rfl | rfl <;> kept_across hostOps4_4
theorem arg_step24 (c : Dev nD) (b : Ref sig .tc) (hb : IsArg b) :
    W24 m ρ c (Proc.devRef .tc b) = W23 m ρ c (Proc.devRef .tc b) := by
  rcases hb with rfl | rfl | rfl | rfl | rfl | rfl | rfl | rfl | rfl <;> kept_across hostOps4_5
theorem arg_step25 (c : Dev nD) (b : Ref sig .tc) (hb : IsArg b) :
    W25 m ρ c (Proc.devRef .tc b) = W24 m ρ c (Proc.devRef .tc b) := by
  rcases hb with rfl | rfl | rfl | rfl | rfl | rfl | rfl | rfl | rfl <;> kept_across hostOps4_6
theorem arg_step26 (c : Dev nD) (b : Ref sig .tc) (hb : IsArg b) :
    W26 m ρ c (Proc.devRef .tc b) = W25 m ρ c (Proc.devRef .tc b) := by
  rcases hb with rfl | rfl | rfl | rfl | rfl | rfl | rfl | rfl | rfl <;> kept_across hostOps4_7
theorem arg_step27 (c : Dev nD) (b : Ref sig .tc) (hb : IsArg b) :
    W27 m ρ c (Proc.devRef .tc b) = W26 m ρ c (Proc.devRef .tc b) := by
  rcases hb with rfl | rfl | rfl | rfl | rfl | rfl | rfl | rfl | rfl <;> kept_across hostOps4_8
theorem arg_step28 (c : Dev nD) (b : Ref sig .tc) (hb : IsArg b) :
    W28 m ρ c (Proc.devRef .tc b) = W27 m ρ c (Proc.devRef .tc b) := by
  rcases hb with rfl | rfl | rfl | rfl | rfl | rfl | rfl | rfl | rfl <;> kept_across hostOps4_9
theorem arg_step29 (c : Dev nD) (b : Ref sig .tc) (hb : IsArg b) :
    W29 m ρ c (Proc.devRef .tc b) = W28 m ρ c (Proc.devRef .tc b) := by
  rcases hb with rfl | rfl | rfl | rfl | rfl | rfl | rfl | rfl | rfl <;> kept_across hostOps4_10
theorem arg_step30 (c : Dev nD) (b : Ref sig .tc) (hb : IsArg b) :
    W30 m ρ c (Proc.devRef .tc b) = W29 m ρ c (Proc.devRef .tc b) := by
  rcases hb with rfl | rfl | rfl | rfl | rfl | rfl | rfl | rfl | rfl <;> kept_across hostOps4_11
theorem arg_step31 (c : Dev nD) (b : Ref sig .tc) (hb : IsArg b) :
    W31 m ρ c (Proc.devRef .tc b) = W30 m ρ c (Proc.devRef .tc b) := by
  rcases hb with rfl | rfl | rfl | rfl | rfl | rfl | rfl | rfl | rfl <;> kept_across hostOps4_12
theorem arg_step32 (c : Dev nD) (b : Ref sig .tc) (hb : IsArg b) :
    W32 m ρ c (Proc.devRef .tc b) = W31 m ρ c (Proc.devRef .tc b) := by
  rcases hb with rfl | rfl | rfl | rfl | rfl | rfl | rfl | rfl | rfl <;> kept_across hostOps4_13
theorem arg_step33 (c : Dev nD) (b : Ref sig .tc) (hb : IsArg b) :
    W33 m ρ c (Proc.devRef .tc b) = W32 m ρ c (Proc.devRef .tc b) := by
  rcases hb with rfl | rfl | rfl | rfl | rfl | rfl | rfl | rfl | rfl <;> kept_across hostOps4_14

theorem arg_at0 (c : Dev nD) (b : Ref sig .tc) (hb : IsArg b) : W0 m ρ c (Proc.devRef .tc b) = m ((c : Thread nD τ).loc b) := rfl
theorem arg_at1 (c : Dev nD) (b : Ref sig .tc) (hb : IsArg b) : W1 m ρ c (Proc.devRef .tc b) = m ((c : Thread nD τ).loc b) :=
  (arg_step1 m ρ c b hb).trans (arg_at0 m ρ c b hb)
theorem arg_at2 (c : Dev nD) (b : Ref sig .tc) (hb : IsArg b) : W2 m ρ c (Proc.devRef .tc b) = m ((c : Thread nD τ).loc b) :=
  (arg_step2 m ρ c b hb).trans (arg_at1 m ρ c b hb)
theorem arg_at3 (c : Dev nD) (b : Ref sig .tc) (hb : IsArg b) : W3 m ρ c (Proc.devRef .tc b) = m ((c : Thread nD τ).loc b) :=
  (arg_step3 m ρ c b hb).trans (arg_at2 m ρ c b hb)
theorem arg_at4 (c : Dev nD) (b : Ref sig .tc) (hb : IsArg b) : W4 m ρ c (Proc.devRef .tc b) = m ((c : Thread nD τ).loc b) :=
  (arg_step4 m ρ c b hb).trans (arg_at3 m ρ c b hb)
theorem arg_at5 (c : Dev nD) (b : Ref sig .tc) (hb : IsArg b) : W5 m ρ c (Proc.devRef .tc b) = m ((c : Thread nD τ).loc b) :=
  (arg_step5 m ρ c b hb).trans (arg_at4 m ρ c b hb)
theorem arg_at6 (c : Dev nD) (b : Ref sig .tc) (hb : IsArg b) : W6 m ρ c (Proc.devRef .tc b) = m ((c : Thread nD τ).loc b) :=
  (arg_step6 m ρ c b hb).trans (arg_at5 m ρ c b hb)
theorem arg_at7 (c : Dev nD) (b : Ref sig .tc) (hb : IsArg b) : W7 m ρ c (Proc.devRef .tc b) = m ((c : Thread nD τ).loc b) :=
  (arg_step7 m ρ c b hb).trans (arg_at6 m ρ c b hb)
theorem arg_at8 (c : Dev nD) (b : Ref sig .tc) (hb : IsArg b) : W8 m ρ c (Proc.devRef .tc b) = m ((c : Thread nD τ).loc b) :=
  (arg_step8 m ρ c b hb).trans (arg_at7 m ρ c b hb)
theorem arg_at9 (c : Dev nD) (b : Ref sig .tc) (hb : IsArg b) : W9 m ρ c (Proc.devRef .tc b) = m ((c : Thread nD τ).loc b) :=
  (arg_step9 m ρ c b hb).trans (arg_at8 m ρ c b hb)
theorem arg_at10 (c : Dev nD) (b : Ref sig .tc) (hb : IsArg b) : W10 m ρ c (Proc.devRef .tc b) = m ((c : Thread nD τ).loc b) :=
  (arg_step10 m ρ c b hb).trans (arg_at9 m ρ c b hb)
theorem arg_at11 (c : Dev nD) (b : Ref sig .tc) (hb : IsArg b) : W11 m ρ c (Proc.devRef .tc b) = m ((c : Thread nD τ).loc b) :=
  (arg_step11 m ρ c b hb).trans (arg_at10 m ρ c b hb)
theorem arg_at12 (c : Dev nD) (b : Ref sig .tc) (hb : IsArg b) : W12 m ρ c (Proc.devRef .tc b) = m ((c : Thread nD τ).loc b) :=
  (arg_step12 m ρ c b hb).trans (arg_at11 m ρ c b hb)
theorem arg_at13 (c : Dev nD) (b : Ref sig .tc) (hb : IsArg b) : W13 m ρ c (Proc.devRef .tc b) = m ((c : Thread nD τ).loc b) :=
  (arg_step13 m ρ c b hb).trans (arg_at12 m ρ c b hb)
theorem arg_at14 (c : Dev nD) (b : Ref sig .tc) (hb : IsArg b) : W14 m ρ c (Proc.devRef .tc b) = m ((c : Thread nD τ).loc b) :=
  (arg_step14 m ρ c b hb).trans (arg_at13 m ρ c b hb)
theorem arg_at15 (c : Dev nD) (b : Ref sig .tc) (hb : IsArg b) : W15 m ρ c (Proc.devRef .tc b) = m ((c : Thread nD τ).loc b) :=
  (arg_step15 m ρ c b hb).trans (arg_at14 m ρ c b hb)
theorem arg_at16 (c : Dev nD) (b : Ref sig .tc) (hb : IsArg b) : W16 m ρ c (Proc.devRef .tc b) = m ((c : Thread nD τ).loc b) :=
  (arg_step16 m ρ c b hb).trans (arg_at15 m ρ c b hb)
theorem arg_at17 (c : Dev nD) (b : Ref sig .tc) (hb : IsArg b) : W17 m ρ c (Proc.devRef .tc b) = m ((c : Thread nD τ).loc b) :=
  (arg_step17 m ρ c b hb).trans (arg_at16 m ρ c b hb)
theorem arg_at18 (c : Dev nD) (b : Ref sig .tc) (hb : IsArg b) : W18 m ρ c (Proc.devRef .tc b) = m ((c : Thread nD τ).loc b) :=
  (arg_step18 m ρ c b hb).trans (arg_at17 m ρ c b hb)
theorem arg_at19 (c : Dev nD) (b : Ref sig .tc) (hb : IsArg b) : W19 m ρ c (Proc.devRef .tc b) = m ((c : Thread nD τ).loc b) :=
  (arg_step19 m ρ c b hb).trans (arg_at18 m ρ c b hb)
theorem arg_at20 (c : Dev nD) (b : Ref sig .tc) (hb : IsArg b) : W20 m ρ c (Proc.devRef .tc b) = m ((c : Thread nD τ).loc b) :=
  (arg_step20 m ρ c b hb).trans (arg_at19 m ρ c b hb)
theorem arg_at21 (c : Dev nD) (b : Ref sig .tc) (hb : IsArg b) : W21 m ρ c (Proc.devRef .tc b) = m ((c : Thread nD τ).loc b) :=
  (arg_step21 m ρ c b hb).trans (arg_at20 m ρ c b hb)
theorem arg_at22 (c : Dev nD) (b : Ref sig .tc) (hb : IsArg b) : W22 m ρ c (Proc.devRef .tc b) = m ((c : Thread nD τ).loc b) :=
  (arg_step22 m ρ c b hb).trans (arg_at21 m ρ c b hb)
theorem arg_at23 (c : Dev nD) (b : Ref sig .tc) (hb : IsArg b) : W23 m ρ c (Proc.devRef .tc b) = m ((c : Thread nD τ).loc b) :=
  (arg_step23 m ρ c b hb).trans (arg_at22 m ρ c b hb)
theorem arg_at24 (c : Dev nD) (b : Ref sig .tc) (hb : IsArg b) : W24 m ρ c (Proc.devRef .tc b) = m ((c : Thread nD τ).loc b) :=
  (arg_step24 m ρ c b hb).trans (arg_at23 m ρ c b hb)
theorem arg_at25 (c : Dev nD) (b : Ref sig .tc) (hb : IsArg b) : W25 m ρ c (Proc.devRef .tc b) = m ((c : Thread nD τ).loc b) :=
  (arg_step25 m ρ c b hb).trans (arg_at24 m ρ c b hb)
theorem arg_at26 (c : Dev nD) (b : Ref sig .tc) (hb : IsArg b) : W26 m ρ c (Proc.devRef .tc b) = m ((c : Thread nD τ).loc b) :=
  (arg_step26 m ρ c b hb).trans (arg_at25 m ρ c b hb)
theorem arg_at27 (c : Dev nD) (b : Ref sig .tc) (hb : IsArg b) : W27 m ρ c (Proc.devRef .tc b) = m ((c : Thread nD τ).loc b) :=
  (arg_step27 m ρ c b hb).trans (arg_at26 m ρ c b hb)
theorem arg_at28 (c : Dev nD) (b : Ref sig .tc) (hb : IsArg b) : W28 m ρ c (Proc.devRef .tc b) = m ((c : Thread nD τ).loc b) :=
  (arg_step28 m ρ c b hb).trans (arg_at27 m ρ c b hb)
theorem arg_at29 (c : Dev nD) (b : Ref sig .tc) (hb : IsArg b) : W29 m ρ c (Proc.devRef .tc b) = m ((c : Thread nD τ).loc b) :=
  (arg_step29 m ρ c b hb).trans (arg_at28 m ρ c b hb)
theorem arg_at30 (c : Dev nD) (b : Ref sig .tc) (hb : IsArg b) : W30 m ρ c (Proc.devRef .tc b) = m ((c : Thread nD τ).loc b) :=
  (arg_step30 m ρ c b hb).trans (arg_at29 m ρ c b hb)
theorem arg_at31 (c : Dev nD) (b : Ref sig .tc) (hb : IsArg b) : W31 m ρ c (Proc.devRef .tc b) = m ((c : Thread nD τ).loc b) :=
  (arg_step31 m ρ c b hb).trans (arg_at30 m ρ c b hb)
theorem arg_at32 (c : Dev nD) (b : Ref sig .tc) (hb : IsArg b) : W32 m ρ c (Proc.devRef .tc b) = m ((c : Thread nD τ).loc b) :=
  (arg_step32 m ρ c b hb).trans (arg_at31 m ρ c b hb)
theorem arg_at33 (c : Dev nD) (b : Ref sig .tc) (hb : IsArg b) : W33 m ρ c (Proc.devRef .tc b) = m ((c : Thread nD τ).loc b) :=
  (arg_step33 m ρ c b hb).trans (arg_at32 m ρ c b hb)

end Cert.KernelIdeal.KChain

end
-- ==== Proof.RChain.lean ====
/-
  Reading the idealized reference program's buffer contents. The reference is one straight line of host operations, cut
  into ten consecutive stages; R0 is the launch memory and each stage takes one boundary to the next by the fold of its
  operations' results, so the contents after the whole line are the last boundary's. A buffer that no operation of a
  stage writes holds the same contents on both sides of the stage; no stage writes an argument array.
-/
import proofs.«164309_j70342974374320_2_alg».proof.Proof.RefOps

set_option maxRecDepth 16384

noncomputable section

namespace Cert.ReferenceIdeal.RChain

open Cert.ReferenceIdeal Cert.ReferenceIdeal.Gen Cert.ReferenceIdeal.RefRun
open Idealize.ShloMosaic Idealize.ShloMosaic.TcCoe Idealize.ShloMosaic.StableHlo Idealize.SL.Sem

variable {F : FTy → Type} [FloatOps F]

/-- Running two lines one after the other folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m' : (ℓ : Loc nD τ sig) → Buf (Elt F) ℓ)

/-- The launch contents of core `c`. -/
abbrev R0 : Dev nD → Valuation τ sig (Elt F) := fun c => launchContents m' c
abbrev R1 : Dev nD → Valuation τ sig (Elt F) := fun c => after opsS1 (R0 m' c)
abbrev R2 : Dev nD → Valuation τ sig (Elt F) := fun c => after opsS2 (R1 m' c)
abbrev R3 : Dev nD → Valuation τ sig (Elt F) := fun c => after opsS3 (R2 m' c)
abbrev R4 : Dev nD → Valuation τ sig (Elt F) := fun c => after opsS4 (R3 m' c)
abbrev R5 : Dev nD → Valuation τ sig (Elt F) := fun c => after opsS5 (R4 m' c)
abbrev R6 : Dev nD → Valuation τ sig (Elt F) := fun c => after opsS6 (R5 m' c)
abbrev R7 : Dev nD → Valuation τ sig (Elt F) := fun c => after opsS7 (R6 m' c)
abbrev R8 : Dev nD → Valuation τ sig (Elt F) := fun c => after opsS8 (R7 m' c)
abbrev R9 : Dev nD → Valuation τ sig (Elt F) := fun c => after opsS9 (R8 m' c)
abbrev R10 : Dev nD → Valuation τ sig (Elt F) := fun c => after opsS10 (R9 m' c)

/-- The whole line's fold is the last boundary. -/
theorem after_ops (c : Dev nD) : after ops (launchContents m' c) = R10 m' c := by
  show after (opsS1 ++ (opsS2 ++ (opsS3 ++ (opsS4 ++ (opsS5 ++ (opsS6 ++ (opsS7 ++ (opsS8 ++ (opsS9 ++ opsS10)))))))))
    (launchContents m' c) = R10 m' c
  rw [after_append, after_append, after_append, after_append, after_append, after_append, after_append, after_append,
    after_append]

/-- A buffer written by no operation of the named stage holds after the stage what it held before it. -/
macro "kept_stage " s:ident : tactic => `(tactic|
  exact StableHlo.after_of_forall_not_mem _ _ (List.forall_iff_forall_mem.mp (by
    simp only [$s:ident, opsS9a, opsS9b, opsWhere, opsVar, opsRelu, opsWhere0, opsVar1, opsWhere2, opsWhere3, opsWhere4,
      List.cons_append, List.nil_append, List.append_assoc, List.Forall,
      StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The nine argument arrays of the program. -/
def IsArg (b : Ref sig .tc) : Prop :=
  b = main_arg0 ∨ b = main_arg1 ∨ b = main_arg2 ∨ b = main_arg3 ∨ b = main_arg4 ∨ b = main_arg5 ∨ b = main_arg6 ∨ b = main_arg7 ∨ b = main_arg8

end Cert.ReferenceIdeal.RChain

end
-- ==== Proof.RArgTable.lean ====
/- A table of cases, one per boundary R1 … R10 of the idealized reference program: no stage writes an argument array, so an
   argument holds at each boundary what it held at the one before, hence what the launch memory holds. Each case is closed
   by the tactic kept_stage of RChain.lean. -/
import proofs.«164309_j70342974374320_2_alg».proof.Proof.RChain

set_option maxRecDepth 16384

noncomputable section

namespace Cert.ReferenceIdeal.RChain

open Cert.ReferenceIdeal Cert.ReferenceIdeal.Gen Cert.ReferenceIdeal.RefRun
open Idealize.ShloMosaic Idealize.ShloMosaic.TcCoe Idealize.ShloMosaic.StableHlo Idealize.SL.Sem

variable {F : FTy → Type} [FloatOps F]
variable (m' : (ℓ : Loc nD τ sig) → Buf (Elt F) ℓ)

theorem arg_step1 (c : Dev nD) (b : Ref sig .tc) (hb : IsArg b) :
    R1 m' c (Proc.devRef .tc b) = R0 m' c (Proc.devRef .tc b) := by
  rcases hb with rfl | rfl | rfl | rfl | rfl | rfl | rfl | rfl | rfl <;> kept_stage opsS1
theorem arg_step2 (c : Dev nD) (b : Ref sig .tc) (hb : IsArg b) :
    R2 m' c (Proc.devRef .tc b) = R1 m' c (Proc.devRef .tc b) := by
  rcases hb with rfl | rfl | rfl | rfl | rfl | rfl | rfl | rfl | rfl <;> kept_stage opsS2
theorem arg_step3 (c : Dev nD) (b : Ref sig .tc) (hb : IsArg b) :
    R3 m' c (Proc.devRef .tc b) = R2 m' c (Proc.devRef .tc b) := by
  rcases hb with rfl | rfl | rfl | rfl | rfl | rfl | rfl | rfl | rfl <;> kept_stage opsS3
theorem arg_step4 (c : Dev nD) (b : Ref sig .tc) (hb : IsArg b) :
    R4 m' c (Proc.devRef .tc b) = R3 m' c (Proc.devRef .tc b) := by
  rcases hb with rfl | rfl | rfl | rfl | rfl | rfl | rfl | rfl | rfl <;> kept_stage opsS4
theorem arg_step5 (c : Dev nD) (b : Ref sig .tc) (hb : IsArg b) :
    R5 m' c (Proc.devRef .tc b) = R4 m' c (Proc.devRef .tc b) := by
  rcases hb with rfl | rfl | rfl | rfl | rfl | rfl | rfl | rfl | rfl <;> kept_stage opsS5
theorem arg_step6 (c : Dev nD) (b : Ref sig .tc) (hb : IsArg b) :
    R6 m' c (Proc.devRef .tc b) = R5 m' c (Proc.devRef .tc b) := by
  rcases hb with rfl | rfl | rfl | rfl | rfl | rfl | rfl | rfl | rfl <;> kept_stage opsS6
theorem arg_step7 (c : Dev nD) (b : Ref sig .tc) (hb : IsArg b) :
    R7 m' c (Proc.devRef .tc b) = R6 m' c (Proc.devRef .tc b) := by
  rcases hb with rfl | rfl | rfl | rfl | rfl | rfl | rfl | rfl | rfl <;> kept_stage opsS7
theorem arg_step8 (c : Dev nD) (b : Ref sig .tc) (hb : IsArg b) :
    R8 m' c (Proc.devRef .tc b) = R7 m' c (Proc.devRef .tc b) := by
  rcases hb with rfl | rfl | rfl | rfl | rfl | rfl | rfl | rfl | rfl <;> kept_stage opsS8
theorem arg_step9 (c : Dev nD) (b : Ref sig .tc) (hb : IsArg b) :
    R9 m' c (Proc.devRef .tc b) = R8 m' c (Proc.devRef .tc b) := by
  rcases hb with rfl | rfl | rfl | rfl | rfl | rfl | rfl | rfl | rfl <;> kept_stage opsS9
theorem arg_step10 (c : Dev nD) (b : Ref sig .tc) (hb : IsArg b) :
    R10 m' c (Proc.devRef .tc b) = R9 m' c (Proc.devRef .tc b) := by
  rcases hb with rfl | rfl | rfl | rfl | rfl | rfl | rfl | rfl | rfl <;> kept_stage opsS10

theorem arg_at0 (c : Dev nD) (b : Ref sig .tc) (hb : IsArg b) : R0 m' c (Proc.devRef .tc b) = m' ((c : Thread nD τ).loc b) := rfl
theorem arg_at1 (c : Dev nD) (b : Ref sig .tc) (hb : IsArg b) : R1 m' c (Proc.devRef .tc b) = m' ((c : Thread nD τ).loc b) :=
  (arg_step1 m' c b hb).trans (arg_at0 m' c b hb)
theorem arg_at2 (c : Dev nD) (b : Ref sig .tc) (hb : IsArg b) : R2 m' c (Proc.devRef .tc b) = m' ((c : Thread nD τ).loc b) :=
  (arg_step2 m' c b hb).trans (arg_at1 m' c b hb)
theorem arg_at3 (c : Dev nD) (b : Ref sig .tc) (hb : IsArg b) : R3 m' c (Proc.devRef .tc b) = m' ((c : Thread nD τ).loc b) :=
  (arg_step3 m' c b hb).trans (arg_at2 m' c b hb)
theorem arg_at4 (c : Dev nD) (b : Ref sig .tc) (hb : IsArg b) : R4 m' c (Proc.devRef .tc b) = m' ((c : Thread nD τ).loc b) :=
  (arg_step4 m' c b hb).trans (arg_at3 m' c b hb)
theorem arg_at5 (c : Dev nD) (b : Ref sig .tc) (hb : IsArg b) : R5 m' c (Proc.devRef .tc b) = m' ((c : Thread nD τ).loc b) :=
  (arg_step5 m' c b hb).trans (arg_at4 m' c b hb)
theorem arg_at6 (c : Dev nD) (b : Ref sig .tc) (hb : IsArg b) : R6 m' c (Proc.devRef .tc b) = m' ((c : Thread nD τ).loc b) :=
  (arg_step6 m' c b hb).trans (arg_at5 m' c b hb)
theorem arg_at7 (c : Dev nD) (b : Ref sig .tc) (hb : IsArg b) : R7 m' c (Proc.devRef .tc b) = m' ((c : Thread nD τ).loc b) :=
  (arg_step7 m' c b hb).trans (arg_at6 m' c b hb)
theorem arg_at8 (c : Dev nD) (b : Ref sig .tc) (hb : IsArg b) : R8 m' c (Proc.devRef .tc b) = m' ((c : Thread nD τ).loc b) :=
  (arg_step8 m' c b hb).trans (arg_at7 m' c b hb)
theorem arg_at9 (c : Dev nD) (b : Ref sig .tc) (hb : IsArg b) : R9 m' c (Proc.devRef .tc b) = m' ((c : Thread nD τ).loc b) :=
  (arg_step9 m' c b hb).trans (arg_at8 m' c b hb)
theorem arg_at10 (c : Dev nD) (b : Ref sig .tc) (hb : IsArg b) : R10 m' c (Proc.devRef .tc b) = m' ((c : Thread nD τ).loc b) :=
  (arg_step10 m' c b hb).trans (arg_at9 m' c b hb)

end Cert.ReferenceIdeal.RChain

end
-- ==== Proof.Bridge0.lean ====
/-
  The comparison of the idealized kernel program with the idealized reference, boundary by boundary. Both programs are the
  same composition — normalize and rectify, gather the neighbour rows, contract with the weights, scatter-add, twice over,
  add the input back, and pool the coordinates and the batch indices — the kernel program running the normalization and the
  contraction as pallas_call regions block by block where the reference applies whole-array host operations. This module
  fixes the vocabulary: the two programs' memories, and that each named argument is one of its program's arguments.
-/
import proofs.«164309_j70342974374320_2_alg».proof.Proof.KArgTable
import proofs.«164309_j70342974374320_2_alg».proof.Proof.RArgTable
import Idealize.ShloMosaic.PureOps.Ideal

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

/-- The idealized kernel program's memories and the idealized reference's. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

local notation "KA" => Cert.KernelIdeal.KChain.IsArg
local notation "RA" => Cert.ReferenceIdeal.RChain.IsArg

theorem kA0 : KA Cert.KernelIdeal.main_arg0 := Or.inl rfl
theorem kA1 : KA Cert.KernelIdeal.main_arg1 := Or.inr (Or.inl rfl)
theorem kA2 : KA Cert.KernelIdeal.main_arg2 := Or.inr (Or.inr (Or.inl rfl))
theorem kA3 : KA Cert.KernelIdeal.main_arg3 := Or.inr (Or.inr (Or.inr (Or.inl rfl)))
theorem kA4 : KA Cert.KernelIdeal.main_arg4 := Or.inr (Or.inr (Or.inr (Or.inr (Or.inl rfl))))
theorem kA5 : KA Cert.KernelIdeal.main_arg5 := Or.inr (Or.inr (Or.inr (Or.inr (Or.inr (Or.inl rfl)))))
theorem kA6 : KA Cert.KernelIdeal.main_arg6 := Or.inr (Or.inr (Or.inr (Or.inr (Or.inr (Or.inr (Or.inl rfl))))))
theorem kA7 : KA Cert.KernelIdeal.main_arg7 := Or.inr (Or.inr (Or.inr (Or.inr (Or.inr (Or.inr (Or.inr (Or.inl rfl)))))))
theorem kA8 : KA Cert.KernelIdeal.main_arg8 := Or.inr (Or.inr (Or.inr (Or.inr (Or.inr (Or.inr (Or.inr (Or.inr rfl)))))))
theorem rA0 : RA Cert.ReferenceIdeal.main_arg0 := Or.inl rfl
theorem rA1 : RA Cert.ReferenceIdeal.main_arg1 := Or.inr (Or.inl rfl)
theorem rA2 : RA Cert.ReferenceIdeal.main_arg2 := Or.inr (Or.inr (Or.inl rfl))
theorem rA3 : RA Cert.ReferenceIdeal.main_arg3 := Or.inr (Or.inr (Or.inr (Or.inl rfl)))
theorem rA4 : RA Cert.ReferenceIdeal.main_arg4 := Or.inr (Or.inr (Or.inr (Or.inr (Or.inl rfl))))
theorem rA5 : RA Cert.ReferenceIdeal.main_arg5 := Or.inr (Or.inr (Or.inr (Or.inr (Or.inr (Or.inl rfl)))))
theorem rA6 : RA Cert.ReferenceIdeal.main_arg6 := Or.inr (Or.inr (Or.inr (Or.inr (Or.inr (Or.inr (Or.inl rfl))))))
theorem rA7 : RA Cert.ReferenceIdeal.main_arg7 := Or.inr (Or.inr (Or.inr (Or.inr (Or.inr (Or.inr (Or.inr (Or.inl rfl)))))))
theorem rA8 : RA Cert.ReferenceIdeal.main_arg8 := Or.inr (Or.inr (Or.inr (Or.inr (Or.inr (Or.inr (Or.inr (Or.inr rfl)))))))

variable (m : KMem) (ρ : Dev Cert.KernelIdeal.nD → PrngReg) (m' : RMem)

end Cert.Bridge

end
-- ==== Proof.Claims.lean ====
/-
  The five claims assembled. The word-level kernel program and its idealization run, terminate and leave their arguments as
  launched: the frame certificates of the two programs. The reference is one straight line of host operations: its run ends
  with every buffer at the fold of the operations over the launch contents, and no operation writes an argument. The
  idealization pass rewrote nothing, so there is nothing to preserve. And the two idealized programs, launched from memories
  that agree on the nine arguments, end with the same three results: each result buffer of the kernel program holds what
  its last boundary holds, each result buffer of the reference what its last stage leaves, and these were compared boundary
  by boundary.
-/
import proofs.«164309_j70342974374320_2_alg».proof.Defs
import proofs.«164309_j70342974374320_2_alg».proof.Proof.FrameKernel
import proofs.«164309_j70342974374320_2_alg».proof.Proof.KRun
import proofs.«164309_j70342974374320_2_alg».proof.Proof.RefRun
import proofs.«164309_j70342974374320_2_alg».proof.Proof.Bridge0
import proofs.«164309_j70342974374320_2_alg».proof.Proof.Gen.Pre_finite_inputs

set_option maxRecDepth 16384

noncomputable section

namespace Cert.Proof.Claims

open Idealize.ShloMosaic Idealize.ShloMosaic.TcCoe Idealize.ShloMosaic.StableHlo Idealize.SL.Sem
open Cert.Bridge
open Cert.KernelIdeal.GenP (W33)
open Cert.ReferenceIdeal.RChain (R10)

theorem frame_p : Cert.frame_Kernel := fun m ρ _ => Cert.Kernel.GenP.frame m ρ

theorem frame_pi : Cert.frame_KernelIdeal := fun m ρ _ => Cert.KernelIdeal.GenP.frame m ρ

/-- The reference's run leaves every argument array as launched: no operation of the line writes one. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg_kept_0 _),
     (h c Cert.ReferenceIdeal.main_arg1).trans (Cert.ReferenceIdeal.RefRun.arg_kept_1 _),
     (h c Cert.ReferenceIdeal.main_arg2).trans (Cert.ReferenceIdeal.RefRun.arg_kept_2 _),
     (h c Cert.ReferenceIdeal.main_arg3).trans (Cert.ReferenceIdeal.RefRun.arg_kept_3 _),
     (h c Cert.ReferenceIdeal.main_arg4).trans (Cert.ReferenceIdeal.RefRun.arg_kept_4 _),
     (h c Cert.ReferenceIdeal.main_arg5).trans (Cert.ReferenceIdeal.RefRun.arg_kept_5 _),
     (h c Cert.ReferenceIdeal.main_arg6).trans (Cert.ReferenceIdeal.RefRun.arg_kept_6 _),
     (h c Cert.ReferenceIdeal.main_arg7).trans (Cert.ReferenceIdeal.RefRun.arg_kept_7 _),
     (h c Cert.ReferenceIdeal.main_arg8).trans (Cert.ReferenceIdeal.RefRun.arg_kept_8 _)⟩)
    (Cert.ReferenceIdeal.RefRun.run_main (F := Ideal) m ρ)

theorem preserves : Cert.preserves_Kernel_KernelIdeal := trivial

/-- The two memories agree on the nine arguments on core `c` (the hypothesis of the algebraic claim, at one core). -/
def AgreeAt (m : KMem) (m' : RMem) (c : Dev Cert.KernelIdeal.nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-- The algebraic claim from the three comparisons of result buffers: the kernel program's run names every buffer at its
    last boundary, the reference's at its last stage; the witnesses are the kernel program's three. -/
theorem algebraic_of
    (hout : ∀ (m : KMem) (ρ : Dev Cert.KernelIdeal.nD → PrngReg) (m' : RMem) (c : Dev Cert.KernelIdeal.nD), AgreeAt m m' c →
      W33 m ρ c (Proc.devRef .tc Cert.KernelIdeal.main_v50) = R10 m' c (Proc.devRef .tc Cert.ReferenceIdeal.main_v64))
    (hxyz : ∀ (m : KMem) (ρ : Dev Cert.KernelIdeal.nD → PrngReg) (m' : RMem) (c : Dev Cert.KernelIdeal.nD), AgreeAt m m' c →
      W33 m ρ c (Proc.devRef .tc Cert.KernelIdeal.main_v77) = R10 m' c (Proc.devRef .tc Cert.ReferenceIdeal.main_v91))
    (hbatch : ∀ (m : KMem) (ρ : Dev Cert.KernelIdeal.nD → PrngReg) (m' : RMem) (c : Dev Cert.KernelIdeal.nD), AgreeAt m m' c →
      W33 m ρ c (Proc.devRef .tc Cert.KernelIdeal.main_v102) = R10 m' c (Proc.devRef .tc Cert.ReferenceIdeal.main_v116)) :
    Cert.algebraic_KernelIdeal_ReferenceIdeal := by
  intro m ρ m' ρ' _ hagree
  refine ⟨fun c => W33 m ρ c (Proc.devRef .tc Cert.KernelIdeal.main_v50),
    fun c => W33 m ρ c (Proc.devRef .tc Cert.KernelIdeal.main_v77),
    fun c => W33 m ρ c (Proc.devRef .tc Cert.KernelIdeal.main_v102), ?_, ?_⟩
  · refine (θ_run Cert.KernelIdeal.defs _ _).mono (fun r h c => ?_) (Cert.KernelIdeal.KRun.run_all (F := Ideal) m ρ)
    exact ⟨h c Cert.KernelIdeal.main_v50 (by decide), h c Cert.KernelIdeal.main_v77 (by decide), h c Cert.KernelIdeal.main_v102 (by decide),
      (h c Cert.KernelIdeal.main_arg0 (by decide)).trans (Cert.KernelIdeal.GenP.W33_main_arg0 m ρ c),
      (h c Cert.KernelIdeal.main_arg1 (by decide)).trans (Cert.KernelIdeal.GenP.W33_main_arg1 m ρ c),
      (h c Cert.KernelIdeal.main_arg2 (by decide)).trans (Cert.KernelIdeal.GenP.W33_main_arg2 m ρ c),
      (h c Cert.KernelIdeal.main_arg3 (by decide)).trans (Cert.KernelIdeal.GenP.W33_main_arg3 m ρ c),
      (h c Cert.KernelIdeal.main_arg4 (by decide)).trans (Cert.KernelIdeal.GenP.W33_main_arg4 m ρ c),
      (h c Cert.KernelIdeal.main_arg5 (by decide)).trans (Cert.KernelIdeal.GenP.W33_main_arg5 m ρ c),
      (h c Cert.KernelIdeal.main_arg6 (by decide)).trans (Cert.KernelIdeal.GenP.W33_main_arg6 m ρ c),
      (h c Cert.KernelIdeal.main_arg7 (by decide)).trans (Cert.KernelIdeal.GenP.W33_main_arg7 m ρ c),
      (h c Cert.KernelIdeal.main_arg8 (by decide)).trans (Cert.KernelIdeal.GenP.W33_main_arg8 m ρ c)⟩
  · refine (θ_run Cert.ReferenceIdeal.defs _ _).mono (fun r h c => ?_) (Cert.ReferenceIdeal.RefRun.run_main (F := Ideal) m' ρ')
    have hR := Cert.ReferenceIdeal.RChain.after_ops m' c
    exact ⟨((h c Cert.ReferenceIdeal.main_v64).trans (congrFun hR _)).trans (hout m ρ m' c (hagree c)).symm,
      ((h c Cert.ReferenceIdeal.main_v91).trans (congrFun hR _)).trans (hxyz m ρ m' c (hagree c)).symm,
      ((h c Cert.ReferenceIdeal.main_v116).trans (congrFun hR _)).trans (hbatch m ρ m' c (hagree c)).symm,
      (h c Cert.ReferenceIdeal.main_arg0).trans (Cert.ReferenceIdeal.RefRun.arg_kept_0 _),
      (h c Cert.ReferenceIdeal.main_arg1).trans (Cert.ReferenceIdeal.RefRun.arg_kept_1 _),
      (h c Cert.ReferenceIdeal.main_arg2).trans (Cert.ReferenceIdeal.RefRun.arg_kept_2 _),
      (h c Cert.ReferenceIdeal.main_arg3).trans (Cert.ReferenceIdeal.RefRun.arg_kept_3 _),
      (h c Cert.ReferenceIdeal.main_arg4).trans (Cert.ReferenceIdeal.RefRun.arg_kept_4 _),
      (h c Cert.ReferenceIdeal.main_arg5).trans (Cert.ReferenceIdeal.RefRun.arg_kept_5 _),
      (h c Cert.ReferenceIdeal.main_arg6).trans (Cert.ReferenceIdeal.RefRun.arg_kept_6 _),
      (h c Cert.ReferenceIdeal.main_arg7).trans (Cert.ReferenceIdeal.RefRun.arg_kept_7 _),
      (h c Cert.ReferenceIdeal.main_arg8).trans (Cert.ReferenceIdeal.RefRun.arg_kept_8 _)⟩

end Cert.Proof.Claims

end
-- ==== Proof.BnPayload.lean ====
/-
  The batch-norm + ReLU bodies of the kernel, read at one index, at the ideal instance (floats are extended reals).
  Each body subtracts the mean row from the block, multiplies by the reciprocal square root of the variance row plus a
  small constant, and clamps below at zero. Both rows have one row of 32 entries and are broadcast over the block's
  5000 rows, so at the index (r, c) the body reads the block at (r, c) and the two rows at (0, c). The casts of a
  vector to its own shape are the identity.
-/
import proofs.«164309_j70342974374320_2_alg».proof.Proof.Gen.KernelIdeal.Skeleton
import Idealize.ShloMosaic.Lib.ValueIdx
import Idealize.ShloMosaic.Lib.ValueLayout

noncomputable section

namespace Cert.KernelIdeal.BnPayload

open Idealize.ShloMosaic Idealize.ShloMosaic.ValueIdx Cert.KernelIdeal Cert.KernelIdeal.Gen

/-- The first batch-norm body at the index (r, c). -/
theorem k0_pay1_apply (v0 : Vec Ideal S5000x32 .f32) (v1 v3 : Vec Ideal S1x32 .f32) (r : Fin 5000) (c : Fin 32) :
    k0_pay1 v0 v1 v3 (ix2 r c)
      = max ((v0 (ix2 r c) - v1 (ix2 (0 : Fin 1) c))
          * Ideal.rsqrt (v3 (ix2 (0 : Fin 1) c) + Ideal.ofBits .f32 0x38D1B717#32)) (Ideal.ofBits .f32 0x00000000#32) := by
  unfold k0_pay1
  simp only [shapeCast_self]
  rw [maximumf_apply, mulf_apply, subf_apply, broadcast_apply, broadcastTo_1b_ab_apply, broadcastTo_1b_ab_apply]
  rfl

/-- The second batch-norm body at the index (r, c): the same value. -/
theorem k2_pay1_apply (v0 : Vec Ideal S5000x32 .f32) (v2 v4 : Vec Ideal S1x32 .f32) (r : Fin 5000) (c : Fin 32) :
    k2_pay1 v0 v2 v4 (ix2 r c)
      = max ((v0 (ix2 r c) - v2 (ix2 (0 : Fin 1) c))
          * Ideal.rsqrt (v4 (ix2 (0 : Fin 1) c) + Ideal.ofBits .f32 0x38D1B717#32)) (Ideal.ofBits .f32 0x00000000#32) := by
  unfold k2_pay1
  simp only [shapeCast_self]
  rw [maximumf_apply, mulf_apply, subf_apply, broadcast_apply, broadcastTo_1b_ab_apply, broadcastTo_1b_ab_apply]
  rfl

end Cert.KernelIdeal.BnPayload

end
-- ==== Proof.Region0.lean ====
import proofs.«164309_j70342974374320_2_alg».proof.Proof.FrameKernelIdeal
import proofs.«164309_j70342974374320_2_alg».proof.Proof.BnPayload
import Idealize.ShloMosaic.Lib.Pipeline.Value
import Idealize.ShloMosaic.Lib.ValueIdx

/-! # The first normalisation region as a whole-array value

Each of the 60 grid points normalises one block of 5000 rows: every element has its column's mean subtracted, is
scaled by the reciprocal square root of its column's variance plus a small constant, and is clamped below at zero.
The blocks tile the 300000 rows, so the output array ends holding that function of the three input arrays, whatever
the buffers hold when the region is entered. -/

noncomputable section

namespace Cert.KernelIdeal.Regions

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem unit_offsets0 : (![0, 0] : Fin 2 → Nat) = fun _ => 0 := funext fun a => by fin_cases a <;> rfl

/-- Normalise by column and clamp at zero: the function of the data array `x`, the row of means `mu` and the row of
    variances `vr` that the region computes, index by index. -/
abbrev normRelu0 (x : S300000x32.Idx → EReal) (mu vr : S1x32.Idx → EReal) : S300000x32.Idx → EReal := fun i =>
  max ((x i - mu (ix2 0 (i 1))) * Ideal.rsqrt (vr (ix2 0 (i 1)) + Ideal.ofBits .f32 0x38D1B717#32))
    (Ideal.ofBits .f32 0x00000000#32)

/-- The index maps over the 60 points: the data and output windows sit at block row `t`, the two statistics rows
    at their one block. -/
theorem block_rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The data window's block at point `t` holds rows `5000 t … 5000 t + 4999` of the data array. -/
theorem data_block0 (c : Dev nD) (t : Fin cfg0.N) (r : Fin 5000) (q : Fin 32) (i : S300000x32.Idx)
    (h0 : (i 0).val = t.val * 5000 + r.val) (h1 : (i 1).val = q.val) :
    (iblk0 V c 0 t : Vec Ideal S5000x32 .f32) (ix2 r q)
      = (V c (Pipeline.arrRef spec0 0) : S300000x32.Idx → EReal) i := by
  obtain ⟨e00, e01, -⟩ := block_rows0 t
  unfold iblk0
  rw [View.read_apply]
  show V c (Pipeline.arrRef spec0 0) _ = V c (Pipeline.arrRef spec0 0) _
  refine congrArg _ ?_
  funext a
  apply Fin.ext
  match a with
  | ⟨0, _⟩ => show win0_0.index t (0 : Fin 2) * 5000 + 1 * r.val = (i 0).val; rw [e00, h0]; omega
  | ⟨1, _⟩ => show win0_0.index t (1 : Fin 2) * 32 + 1 * q.val = (i 1).val; rw [e01, h1]; omega

/-- The mean window's block at every point is the whole row of means. -/
theorem mean_block0 (c : Dev nD) (t : Fin cfg0.N) (q q' : Fin 32) (h : q'.val = q.val) :
    (iblk0 V c 1 t : Vec Ideal S1x32 .f32) (ix2 0 q)
      = (V c (Pipeline.arrRef spec0 1) : S1x32.Idx → EReal) (ix2 0 q') := by
  obtain ⟨-, -, e10, e11, -⟩ := block_rows0 t
  unfold iblk0
  rw [View.read_apply]
  show V c (Pipeline.arrRef spec0 1) _ = V c (Pipeline.arrRef spec0 1) _
  refine congrArg _ ?_
  funext a
  apply Fin.ext
  match a with
  | ⟨0, _⟩ => show win0_1.index t (0 : Fin 2) * 1 + 1 * 0 = 0; rw [e10]
  | ⟨1, _⟩ => show win0_1.index t (1 : Fin 2) * 32 + 1 * q.val = q'.val; rw [e11, h]; omega

/-- The variance window's block at every point is the whole row of variances. -/
theorem var_block0 (c : Dev nD) (t : Fin cfg0.N) (q q' : Fin 32) (h : q'.val = q.val) :
    (iblk0 V c 2 t : Vec Ideal S1x32 .f32) (ix2 0 q)
      = (V c (Pipeline.arrRef spec0 2) : S1x32.Idx → EReal) (ix2 0 q') := by
  obtain ⟨-, -, -, -, e20, e21, -⟩ := block_rows0 t
  unfold iblk0
  rw [View.read_apply]
  show V c (Pipeline.arrRef spec0 2) _ = V c (Pipeline.arrRef spec0 2) _
  refine congrArg _ ?_
  funext a
  apply Fin.ext
  match a with
  | ⟨0, _⟩ => show win0_2.index t (0 : Fin 2) * 1 + 1 * 0 = 0; rw [e20]
  | ⟨1, _⟩ => show win0_2.index t (1 : Fin 2) * 32 + 1 * q.val = q'.val; rw [e21, h]; omega

/-- WHAT POINT `t` WRITES BACK is block `t` of the normalised array: the body's one store covers its buffer, its
    payload at row `r`, column `q` reads the data block there and the two statistics rows at column `q`, and the
    output block's element `(r, q)` is the array's element `(5000 t + r, q)`. -/
theorem flushed0_eq (c : Dev nD) (t : Fin cfg0.N) :
    (dat0 V c).flushed 3 t = ((cfg0.win 3).blk t).view.read (Elt Ideal)
      (normRelu0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero unit_offsets0]
  simp only [View.ld_unit_zero (S := S5000x32) unit_offsets0, View.ld_unit_zero (S := S1x32) unit_offsets0]
  obtain ⟨-, -, -, -, -, -, e30, e31⟩ := block_rows0 t
  funext j
  obtain ⟨r, q, rfl⟩ : ∃ (r : Fin 5000) (q : Fin 32), j = ix2 r q := ⟨j 0, j 1, eq_ix2 j⟩
  show k0_pay1 (iblk0 V c 0 t) (iblk0 V c 1 t) (iblk0 V c 2 t) (ix2 r q)
    = normRelu0 (V c (Pipeline.arrRef spec0 0)) (V c (Pipeline.arrRef spec0 1)) (V c (Pipeline.arrRef spec0 2))
        (((cfg0.win 3).blk t).view.emb (ix2 r q))
  refine (BnPayload.k0_pay1_apply (iblk0 V c 0 t) (iblk0 V c 1 t) (iblk0 V c 2 t) r q).trans ?_
  have hq : ((((cfg0.win 3).blk t).view.emb (ix2 r q)) 1).val = q.val := by
    show win0_3.index t (1 : Fin 2) * 32 + 1 * q.val = q.val
    rw [e31]; omega
  have hr : ((((cfg0.win 3).blk t).view.emb (ix2 r q)) 0).val = t.val * 5000 + r.val := by
    show win0_3.index t (0 : Fin 2) * 5000 + 1 * r.val = t.val * 5000 + r.val
    rw [e30]; omega
  rw [data_block0 V c t r q _ hr hq, mean_block0 V c t q _ hq, var_block0 V c t q _ hq]

/-- An index of the array is in point `t`'s block iff each coordinate is in the block's range on its axis. -/
theorem mem_block0 (t : Fin cfg0.N) (i : S300000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v6).slice (win0_3.rect t)).set ↔ _
  rw [View.set_slice_whole, Rect.mem_set_unit]
  exact Iff.rfl

/-- THE ARRAY after the region: row `r` lies in the block of point `r / 5000`, so the sixty blocks cover the array
    and it ends holding the normalised data. -/
theorem region0_value (c : Dev nD) :
    (dat0 V c).arrAt 3 cfg0.N
      = normRelu0 (V c (Pipeline.arrRef spec0 0)) (V c (Pipeline.arrRef spec0 1)) (V c (Pipeline.arrRef spec0 2)) :=
  (dat0 V c).arrAt_eq_of_cover 3
    (normRelu0 (V c (Pipeline.arrRef spec0 0)) (V c (Pipeline.arrRef spec0 1)) (V c (Pipeline.arrRef spec0 2)))
    (fun t _ => flushed0_eq V c t) fun i => by
    have hi0 : (i 0).val < 300000 := (i 0).isLt
    have hi1 : (i 1).val < 32 := (i 1).isLt
    have hN : cfg0.N = 60 := N_0
    have ht : (i 0).val / 5000 < cfg0.N := by rw [hN]; omega
    obtain ⟨-, -, -, -, -, -, e30, e31⟩ := block_rows0 ⟨(i 0).val / 5000, ht⟩
    refine ⟨⟨(i 0).val / 5000, ht⟩, flush0_3 _, ?_⟩
    rw [mem_block0]
    intro a
    match a with
    | ⟨0, _⟩ =>
      show win0_3.index ⟨(i 0).val / 5000, ht⟩ (0 : Fin 2) * 5000 ≤ (i 0).val
        ∧ (i 0).val < win0_3.index ⟨(i 0).val / 5000, ht⟩ (0 : Fin 2) * 5000 + 5000
      rw [e30]
      show (i 0).val / 5000 * 5000 ≤ (i 0).val ∧ (i 0).val < (i 0).val / 5000 * 5000 + 5000
      omega
    | ⟨1, _⟩ =>
      show win0_3.index ⟨(i 0).val / 5000, ht⟩ (1 : Fin 2) * 32 ≤ (i 1).val
        ∧ (i 1).val < win0_3.index ⟨(i 0).val / 5000, ht⟩ (1 : Fin 2) * 32 + 32
      rw [e31]; omega

end Cert.KernelIdeal.Regions

end
-- ==== Proof.RefBn.lean ====
/-
  The reference's batch-norm + ReLU chain on whole arrays, read at one index, at the ideal instance (floats are
  extended reals). The reference lays the mean vector of 32 entries along a new leading unit axis and then along every
  one of the 300000 rows, subtracts it from the array, multiplies by the reciprocal square root of the variance vector
  plus a small constant (laid along the rows the same way), and clamps below at zero. At the index (r, c) a vector laid
  along the rows reads its entry c, a broadcast constant reads the constant, and the host's reciprocal square root is the
  function the extended reals have. Also here: a vector of 32 entries reshaped to one row of 32 reads, at (0, c), its
  entry c.
-/
import proofs.«164309_j70342974374320_2_alg».proof.Proof.Gen.ReferenceIdeal
import Idealize.ShloMosaic.Lib.ValueIdx
import Idealize.ShloMosaic.Lib.ValueLayout

noncomputable section

namespace Cert.ReferenceIdeal.RefBn

open Idealize.ShloMosaic Idealize.ShloMosaic.ValueIdx Cert.ReferenceIdeal Cert.ReferenceIdeal.Facts₀

/-- A vector of 32 entries laid along a leading unit axis and then along every row reads, at (r, c), its entry c. -/
theorem rows_apply {α : Type} (v : S32.Idx → α) (r : Fin 300000) (c : Fin 32) :
    broadcastInDim S300000x32 ![0, 1] bcast_S1x32_S300000x32_0_1 (broadcastInDim S1x32 ![1] bcast_S32_S1x32_1 v) (ix2 r c)
      = v (ix1 c) := by
  refine (broadcastInDim_apply _ _ _ (ix2 r c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

/-- The reference's batch-norm + ReLU term at the index (r, c). -/
theorem bnRelu_apply (x : FVec Ideal S300000x32 .f32) (mean var : FVec Ideal S32 .f32) (r : Fin 300000) (c : Fin 32) :
    maximumf
        (mulf
          (subf x (broadcastInDim S300000x32 ![0, 1] bcast_S1x32_S300000x32_0_1 (broadcastInDim S1x32 ![1] bcast_S32_S1x32_1 mean)))
          (broadcastInDim S300000x32 ![0, 1] bcast_S1x32_S300000x32_0_1 (broadcastInDim S1x32 ![1] bcast_S32_S1x32_1
            (Host.rsqrt (addf var (broadcastInDim S32 ![] bcast_S_S32 (constant (F := Ideal) S_ .f32 0x38D1B717#32)))))))
        (broadcastInDim S300000x32 ![] bcast_S_S300000x32 (constant (F := Ideal) S_ .f32 0x00000000#32)) (ix2 r c)
      = max ((x (ix2 r c) - mean (ix1 c)) * Ideal.rsqrt (var (ix1 c) + Ideal.ofBits .f32 0x38D1B717#32))
          (Ideal.ofBits .f32 0x00000000#32) := by
  rw [maximumf_apply, mulf_apply, subf_apply, rows_apply, rows_apply]
  rfl

/-- A vector of 32 entries reshaped to one row of 32 reads, at (0, c), its entry c. -/
theorem reshape_row_apply {α : Type} (v : S32.Idx → α) (h : S32.ShapeCasts S1x32) (c : Fin 32) :
    shapeCast S1x32 v h (ix2 (0 : Fin 1) c) = v (ix1 c) :=
  shapeCast_a_1a_apply v h 0 c

end Cert.ReferenceIdeal.RefBn

end
-- ==== Proof.RowCast.lean ====
import proofs.«164309_j70342974374320_2_alg».proof.Proof.FrameKernelIdeal
import Idealize.ShloMosaic.Lib.ValueLayout

/-! # A vector of 32 entries reshaped to a one-row matrix

The program makes each row of column statistics by reshaping a vector of 32 entries to shape [1, 32]. The reshape
keeps row-major order, so entry `(0, j)` of the row is entry `j` of the vector. -/

noncomputable section

namespace Cert.KernelIdeal.RowCast

open Cert.KernelIdeal Cert.KernelIdeal.Gen
open Idealize.ShloMosaic Idealize.ShloMosaic.TcCoe
open Idealize.ShloMosaic.ValueIdx

variable {F : FTy → Type} [FloatOps F]

/-- After `main_v3 = reshape main_v2`, entry `(0, j)` of the row `main_v3` is entry `j` of the vector `main_v2`. -/
theorem row_main_v3 (Vv : Valuation τ sig (Elt F)) (j : Fin 32) :
    (((StableHlo.reshape main_v2 main_v3 rfl shapeCasts_S32_S1x32 : HloOp τ sig (Elt F)).result Vv
        (Proc.devRef .tc main_v3)) : S1x32.Idx → Elt F .f32) (ix2 (0 : Fin 1) j)
      = (Vv (Proc.devRef .tc main_v2) : S32.Idx → Elt F .f32) (ix1 j) := by
  refine (congrFun (StableHlo.reshape_result main_v2 main_v3 rfl shapeCasts_S32_S1x32 ⟨by decide, rfl⟩ ⟨by decide, rfl⟩ Vv)
    (ix2 (0 : Fin 1) j)).trans ?_
  exact shapeCast_a_1a_apply (Vv (Proc.devRef .tc main_v2)) shapeCasts_S32_S1x32 0 j

/-- After `main_v5 = reshape main_v4`, entry `(0, j)` of the row `main_v5` is entry `j` of the vector `main_v4`. -/
theorem row_main_v5 (Vv : Valuation τ sig (Elt F)) (j : Fin 32) :
    (((StableHlo.reshape main_v4 main_v5 rfl shapeCasts_S32_S1x32 : HloOp τ sig (Elt F)).result Vv
        (Proc.devRef .tc main_v5)) : S1x32.Idx → Elt F .f32) (ix2 (0 : Fin 1) j)
      = (Vv (Proc.devRef .tc main_v4) : S32.Idx → Elt F .f32) (ix1 j) := by
  refine (congrFun (StableHlo.reshape_result main_v4 main_v5 rfl shapeCasts_S32_S1x32 ⟨by decide, rfl⟩ ⟨by decide, rfl⟩ Vv)
    (ix2 (0 : Fin 1) j)).trans ?_
  exact shapeCast_a_1a_apply (Vv (Proc.devRef .tc main_v4)) shapeCasts_S32_S1x32 0 j

/-- After `main_v28 = reshape main_v27`, entry `(0, j)` of the row `main_v28` is entry `j` of the vector `main_v27`. -/
theorem row_main_v28 (Vv : Valuation τ sig (Elt F)) (j : Fin 32) :
    (((StableHlo.reshape main_v27 main_v28 rfl shapeCasts_S32_S1x32 : HloOp τ sig (Elt F)).result Vv
        (Proc.devRef .tc main_v28)) : S1x32.Idx → Elt F .f32) (ix2 (0 : Fin 1) j)
      = (Vv (Proc.devRef .tc main_v27) : S32.Idx → Elt F .f32) (ix1 j) := by
  refine (congrFun (StableHlo.reshape_result main_v27 main_v28 rfl shapeCasts_S32_S1x32 ⟨by decide, rfl⟩ ⟨by decide, rfl⟩ Vv)
    (ix2 (0 : Fin 1) j)).trans ?_
  exact shapeCast_a_1a_apply (Vv (Proc.devRef .tc main_v27)) shapeCasts_S32_S1x32 0 j

/-- After `main_v30 = reshape main_v29`, entry `(0, j)` of the row `main_v30` is entry `j` of the vector `main_v29`. -/
theorem row_main_v30 (Vv : Valuation τ sig (Elt F)) (j : Fin 32) :
    (((StableHlo.reshape main_v29 main_v30 rfl shapeCasts_S32_S1x32 : HloOp τ sig (Elt F)).result Vv
        (Proc.devRef .tc main_v30)) : S1x32.Idx → Elt F .f32) (ix2 (0 : Fin 1) j)
      = (Vv (Proc.devRef .tc main_v29) : S32.Idx → Elt F .f32) (ix1 j) := by
  refine (congrFun (StableHlo.reshape_result main_v29 main_v30 rfl shapeCasts_S32_S1x32 ⟨by decide, rfl⟩ ⟨by decide, rfl⟩ Vv)
    (ix2 (0 : Fin 1) j)).trans ?_
  exact shapeCast_a_1a_apply (Vv (Proc.devRef .tc main_v29)) shapeCasts_S32_S1x32 0 j

end Cert.KernelIdeal.RowCast

end
-- ==== Proof.StageNorm1.lean ====
/-
  The first normalisation. The kernel program computes the column means and variances on the host, lays each out as
  one row, and normalises and clamps the array block by block in its first region; the reference does the same on whole
  arrays. Both end holding, at row r and column q, the larger of zero and (x − mean q) / √(variance q + 1e-4).
-/
import proofs.«164309_j70342974374320_2_alg».proof.Proof.Bridge0
import proofs.«164309_j70342974374320_2_alg».proof.Proof.Region0
import proofs.«164309_j70342974374320_2_alg».proof.Proof.RefBn
import proofs.«164309_j70342974374320_2_alg».proof.Proof.RowCast

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

/-! ## The reference's first stage, cut at the variance -/

section RefSide
open Cert.ReferenceIdeal Cert.ReferenceIdeal.Gen

variable {F : FTy → Type} [FloatOps F]

/-- The stage's first six operations: the column sums, their count, the column means, and the zero `ddof`. -/
abbrev s1Mean : List (HloOp τ sig (Elt F)) :=
  [ StableHlo.nullary main_cst (constant S_ .f32 0x00000000#32),
    StableHlo.binary main_arg0 main_cst main_v0 ((fun x v => Host.reduceAdd x v reducesTo_S300000x32_S32_d0 h_S_) : (⟨S300000x32, .f32⟩ : BufTy).Contents (Elt F) → (⟨S_, .f32⟩ : BufTy).Contents (Elt F) → (⟨S32, .f32⟩ : BufTy).Contents (Elt F)),
    StableHlo.nullary main_cst_0 (constant S_ .f32 0x48927C00#32),
    StableHlo.unary main_cst_0 main_v1 (broadcastInDim S32 ![] bcast_S_S32 : (⟨S_, .f32⟩ : BufTy).Contents (Elt F) → (⟨S32, .f32⟩ : BufTy).Contents (Elt F)),
    StableHlo.binary main_v0 main_v1 main_v2 (Host.divf : (⟨S32, .f32⟩ : BufTy).Contents (Elt F) → (⟨S32, .f32⟩ : BufTy).Contents (Elt F) → (⟨S32, .f32⟩ : BufTy).Contents (Elt F)),
    StableHlo.nullary main_c (constantI S_ 32 0#32) ]

/-- The stage's last thirteen operations: centre, scale by the reciprocal square root of variance plus a small
    constant, clamp below at zero. -/
abbrev s1Norm : List (HloOp τ sig (Elt F)) :=
  [ StableHlo.unary main_v2 main_v4 (broadcastInDim S1x32 ![1] bcast_S32_S1x32_1 : (⟨S32, .f32⟩ : BufTy).Contents (Elt F) → (⟨S1x32, .f32⟩ : BufTy).Contents (Elt F)),
    StableHlo.unary main_v4 main_v5 (broadcastInDim S300000x32 ![0, 1] bcast_S1x32_S300000x32_0_1 : (⟨S1x32, .f32⟩ : BufTy).Contents (Elt F) → (⟨S300000x32, .f32⟩ : BufTy).Contents (Elt F)),
    StableHlo.binary main_arg0 main_v5 main_v6 (subf : (⟨S300000x32, .f32⟩ : BufTy).Contents (Elt F) → (⟨S300000x32, .f32⟩ : BufTy).Contents (Elt F) → (⟨S300000x32, .f32⟩ : BufTy).Contents (Elt F)),
    StableHlo.nullary main_cst_1 (constant S_ .f32 0x38D1B717#32),
    StableHlo.unary main_cst_1 main_v7 (broadcastInDim S32 ![] bcast_S_S32 : (⟨S_, .f32⟩ : BufTy).Contents (Elt F) → (⟨S32, .f32⟩ : BufTy).Contents (Elt F)),
    StableHlo.binary main_v3 main_v7 main_v8 (addf : (⟨S32, .f32⟩ : BufTy).Contents (Elt F) → (⟨S32, .f32⟩ : BufTy).Contents (Elt F) → (⟨S32, .f32⟩ : BufTy).Contents (Elt F)),
    StableHlo.unary main_v8 main_v9 (Host.rsqrt : (⟨S32, .f32⟩ : BufTy).Contents (Elt F) → (⟨S32, .f32⟩ : BufTy).Contents (Elt F)),
    StableHlo.unary main_v9 main_v10 (broadcastInDim S1x32 ![1] bcast_S32_S1x32_1 : (⟨S32, .f32⟩ : BufTy).Contents (Elt F) → (⟨S1x32, .f32⟩ : BufTy).Contents (Elt F)),
    StableHlo.unary main_v10 main_v11 (broadcastInDim S300000x32 ![0, 1] bcast_S1x32_S300000x32_0_1 : (⟨S1x32, .f32⟩ : BufTy).Contents (Elt F) → (⟨S300000x32, .f32⟩ : BufTy).Contents (Elt F)),
    StableHlo.binary main_v6 main_v11 main_v12 (mulf : (⟨S300000x32, .f32⟩ : BufTy).Contents (Elt F) → (⟨S300000x32, .f32⟩ : BufTy).Contents (Elt F) → (⟨S300000x32, .f32⟩ : BufTy).Contents (Elt F)) ] ++
  (opsRelu (.of main_v12) main_call1)

/-- The stage is those two parts around the variance. -/
theorem opsS1_cut : (opsS1 : List (HloOp τ sig (Elt F)))
    = s1Mean ++ (opsVar (.of main_arg0) (.of main_c) main_call0 ++ s1Norm) := rfl

/-- The centred, scaled and clamped array as a term of the array, the vector of means and the vector of variances. -/
abbrev normTerm (x : FVec Ideal S300000x32 .f32) (mean var : FVec Ideal S32 .f32) : FVec Ideal S300000x32 .f32 :=
  maximumf
    (mulf
      (subf x (broadcastInDim S300000x32 ![0, 1] bcast_S1x32_S300000x32_0_1 (broadcastInDim S1x32 ![1] bcast_S32_S1x32_1 mean)))
      (broadcastInDim S300000x32 ![0, 1] bcast_S1x32_S300000x32_0_1 (broadcastInDim S1x32 ![1] bcast_S32_S1x32_1
        (Host.rsqrt (addf var (broadcastInDim S32 ![] bcast_S_S32 (constant (F := Ideal) S_ .f32 0x38D1B717#32)))))))
    (broadcastInDim S300000x32 ![] bcast_S_S300000x32 (constant (F := Ideal) S_ .f32 0x00000000#32))

set_option maxHeartbeats 4000000 in
/-- The last thirteen operations leave that term of what they find in the array, the means and the variances. -/
theorem s1Norm_result (X : Valuation τ sig (Elt Ideal)) :
    after (s1Norm (F := Ideal)) X (Proc.devRef .tc main_v13)
      = normTerm (X (Proc.devRef .tc main_arg0)) (X (Proc.devRef .tc main_v2)) (X (Proc.devRef .tc main_v3)) := by
  simp only [opsRelu, List.cons_append, List.nil_append]
  after_results_simp
  rfl

end RefSide

variable (m : KMem) (ρ : Dev Cert.KernelIdeal.nD → PrngReg) (m' : RMem)

/-- What the reference's variance finds: the contents after the stage's first six operations and the variance. -/
abbrev X1 (c : Dev Cert.ReferenceIdeal.nD) : Valuation Cert.ReferenceIdeal.τ Cert.ReferenceIdeal.sig (Elt Ideal) :=
  after (opsVar (.of Cert.ReferenceIdeal.main_arg0) (.of Cert.ReferenceIdeal.main_c) Cert.ReferenceIdeal.main_call0)
    (after s1Mean (R0 m' c))

/-- The reference's rectified array is the normalisation term of what the variance leaves. -/
theorem ref1_eq (c : Dev Cert.ReferenceIdeal.nD) :
    R1 m' c (Proc.devRef .tc Cert.ReferenceIdeal.main_v13)
      = normTerm (X1 m' c (Proc.devRef .tc Cert.ReferenceIdeal.main_arg0))
          (X1 m' c (Proc.devRef .tc Cert.ReferenceIdeal.main_v2)) (X1 m' c (Proc.devRef .tc Cert.ReferenceIdeal.main_v3)) := by
  have h : R1 m' c = after s1Norm (X1 m' c) := by
    show after opsS1 (R0 m' c) = _
    rw [opsS1_cut, Cert.ReferenceIdeal.RChain.after_append, Cert.ReferenceIdeal.RChain.after_append]
  rw [h]
  exact s1Norm_result (X1 m' c)

open Idealize.ShloMosaic.ValueIdx

/-- The array itself: neither program writes its argument. -/
theorem data1_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    W3 m ρ c (Proc.devRef .tc Cert.KernelIdeal.main_arg0) = X1 m' c (Proc.devRef .tc Cert.ReferenceIdeal.main_arg0) := by
  have e1 : X1 m' c (Proc.devRef .tc Cert.ReferenceIdeal.main_arg0)
      = after s1Mean (R0 m' c) (Proc.devRef .tc Cert.ReferenceIdeal.main_arg0) := by kept_stage opsVar
  have e2 : after s1Mean (R0 m' c) (Proc.devRef .tc Cert.ReferenceIdeal.main_arg0)
      = R0 m' c (Proc.devRef .tc Cert.ReferenceIdeal.main_arg0) := by kept_stage s1Mean
  rw [e1, e2, Cert.KernelIdeal.KChain.arg_at3 m ρ c _ kA0, Cert.ReferenceIdeal.RChain.arg_at0 m' c _ rA0, h0]

set_option maxHeartbeats 4000000 in
/-- The row of means: the kernel program reshapes the vector of column means to one row; the reference keeps the
    vector. The two vectors are the same column sums over the same count. -/
theorem mean1_row (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (q : Fin 32) :
    (W3 m ρ c (Proc.devRef .tc Cert.KernelIdeal.main_v3) : Cert.KernelIdeal.S1x32.Idx → Elt Ideal .f32) (ix2 (0 : Fin 1) q)
      = (X1 m' c (Proc.devRef .tc Cert.ReferenceIdeal.main_v2) : Cert.ReferenceIdeal.S32.Idx → Elt Ideal .f32) (ix1 q) := by
  have e1 : W3 m ρ c (Proc.devRef .tc Cert.KernelIdeal.main_v3) = W2 m ρ c (Proc.devRef .tc Cert.KernelIdeal.main_v3) := by
    kept_across hostOps0_2
  have e2 : W2 m ρ c (Proc.devRef .tc Cert.KernelIdeal.main_v3) = W1 m ρ c (Proc.devRef .tc Cert.KernelIdeal.main_v3) := by
    kept_across hostOps0_1
  have e3 : X1 m' c (Proc.devRef .tc Cert.ReferenceIdeal.main_v2)
      = after s1Mean (R0 m' c) (Proc.devRef .tc Cert.ReferenceIdeal.main_v2) := by kept_stage opsVar
  rw [e1, e2, e3]
  dsimp only [W1, hostOps0]
  after_results_simp
  refine (shapeCast_a_1a_apply _ _ 0 q).trans ?_
  rw [Cert.KernelIdeal.KChain.arg_at0 m ρ c _ kA0, Cert.ReferenceIdeal.RChain.arg_at0 m' c _ rA0, h0]

set_option maxHeartbeats 4000000 in
/-- The vector of variances: both programs run the same variance function on the array and a zero `ddof`. -/
theorem var1_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    W2 m ρ c (Proc.devRef .tc Cert.KernelIdeal.main_v4) = X1 m' c (Proc.devRef .tc Cert.ReferenceIdeal.main_v3) := by
  dsimp only [W2, W1, hostOps0_1, hostOps0, X1]
  simp only [opsVar, opsWhere, List.cons_append, List.nil_append]
  after_results_simp
  rw [Cert.KernelIdeal.KChain.arg_at0 m ρ c _ kA0, Cert.ReferenceIdeal.RChain.arg_at0 m' c _ rA0, h0]

/-- The row of variances: the kernel program reshapes the vector of variances to one row. -/
theorem var1_row (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (q : Fin 32) :
    (W3 m ρ c (Proc.devRef .tc Cert.KernelIdeal.main_v5) : Cert.KernelIdeal.S1x32.Idx → Elt Ideal .f32) (ix2 (0 : Fin 1) q)
      = (X1 m' c (Proc.devRef .tc Cert.ReferenceIdeal.main_v3) : Cert.ReferenceIdeal.S32.Idx → Elt Ideal .f32) (ix1 q) := by
  rw [← var1_eq m ρ m' c h0]
  exact Cert.KernelIdeal.RowCast.row_main_v5 (W2 m ρ c) q

/-- THE FIRST NORMALISATION: the kernel program's first region leaves what the reference's first stage leaves. -/
theorem bn1_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    W4 m ρ c (Proc.devRef .tc Cert.KernelIdeal.main_v6) = R1 m' c (Proc.devRef .tc Cert.ReferenceIdeal.main_v13) := by
  refine ((W4_arr m ρ c 3).trans (Cert.KernelIdeal.Regions.region0_value (V3 m ρ) c)).trans ?_
  rw [ref1_eq m' c]
  funext i
  obtain ⟨r, q, rfl⟩ : ∃ (r : Fin 300000) (q : Fin 32), i = ix2 r q := ⟨i 0, i 1, eq_ix2 i⟩
  refine Eq.trans ?_ (Cert.ReferenceIdeal.RefBn.bnRelu_apply _ _ _ r q).symm
  have key : ∀ (a a' b b' d d' : EReal), a = a' → b = b' → d = d' →
      max ((a - b) * Ideal.rsqrt (d + Ideal.ofBits .f32 0x38D1B717#32)) (Ideal.ofBits .f32 0x00000000#32)
        = max ((a' - b') * Ideal.rsqrt (d' + Ideal.ofBits .f32 0x38D1B717#32)) (Ideal.ofBits .f32 0x00000000#32) := by
    intro a a' b b' d d' ha hb hd; rw [ha, hb, hd]
  exact key _ _ _ _ _ _ (congrFun (data1_eq m ρ m' c h0) (ix2 r q)) (mean1_row m ρ m' c h0 q) (var1_row m ρ m' c h0 q)

end Cert.Bridge

end
-- ==== Proof.StageGather1.lean ====
/-
  The first gather. Both programs mask the input-side index table (an entry is valid when it is not negative), clamp the
  invalid entries to row 0, wrap negative entries by the row count, and gather those rows of the normalized features:
  one and the same chain of host operations of the index table and of the normalized array. So the two masks are one
  term of the index argument, and the two gathered arrays one term of it and of the normalized arrays, which agree by
  hypothesis.
-/
import proofs.«164309_j70342974374320_2_alg».proof.Proof.Bridge0

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

variable (m : KMem) (ρ : Dev Cert.KernelIdeal.nD → PrngReg) (m' : RMem)

set_option maxHeartbeats 4000000 in
/-- The valid-pair mask of the first layer: both programs compare the input-side index table with zero. -/
theorem valid1_eq (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    W7 m ρ c (Proc.devRef .tc Cert.KernelIdeal.main_v8) = R2 m' c (Proc.devRef .tc Cert.ReferenceIdeal.main_v15) := by
  have hK2 : W7 m ρ c (Proc.devRef .tc Cert.KernelIdeal.main_v8) = W6 m ρ c (Proc.devRef .tc Cert.KernelIdeal.main_v8) := by
    kept_across hostOps1_2
  have hK1 : W6 m ρ c (Proc.devRef .tc Cert.KernelIdeal.main_v8) = W5 m ρ c (Proc.devRef .tc Cert.KernelIdeal.main_v8) := by
    kept_across hostOps1_1
  rw [hK2, hK1]
  dsimp only [W5, hostOps1, R2]
  simp only [opsS2, opsWhere0, List.cons_append, List.nil_append, List.append_assoc]
  after_results_simp
  simp only [Cert.KernelIdeal.KChain.arg_at4 m ρ c _ kA3, Cert.ReferenceIdeal.RChain.arg_at1 m' c _ rA3]
  rw [h3]

set_option maxHeartbeats 4000000 in
/-- The gathered rows of the first layer: the same clamped and wrapped row gather of normalized arrays that agree. -/
theorem gath1_eq (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hx : W4 m ρ c (Proc.devRef .tc Cert.KernelIdeal.main_v6) = R1 m' c (Proc.devRef .tc Cert.ReferenceIdeal.main_v13)) :
    W7 m ρ c (Proc.devRef .tc Cert.KernelIdeal.main_v16) = R2 m' c (Proc.devRef .tc Cert.ReferenceIdeal.main_v23) := by
  dsimp only [W7, W6, W5, hostOps1_2, hostOps1_1, hostOps1, R2]
  simp only [opsS2, opsWhere0, List.cons_append, List.nil_append, List.append_assoc]
  after_results_simp
  simp only [Cert.KernelIdeal.KChain.arg_at4 m ρ c _ kA3, Cert.ReferenceIdeal.RChain.arg_at1 m' c _ rA3]
  rw [h3, hx]
  rfl

end Cert.Bridge

end
-- ==== Proof.MmPayload.lean ====
/-
  The matrix-product bodies of the kernel, read at one index, at the ideal instance (floats are extended reals).
  Each body drops the leading unit axis of a [1, 6000, 32] block and of a [1, 32, 32] weight block, narrows both to a
  shorter float format (the identity on the extended reals), multiplies the 6000×32 matrix by the 32×32 matrix into a
  zero accumulator, and puts the unit axis back. So at the index (0, p, d) the body is the sum over the contracted
  coordinate k of block (0, p, k) times weight (0, k, d).
-/
import proofs.«164309_j70342974374320_2_alg».proof.Proof.Gen.KernelIdeal.Skeleton
import Idealize.ShloMosaic.Lib.ValueIdx
import Idealize.ShloMosaic.Lib.ValueLayout
import Idealize.ShloMosaic.Lib.KernelVsHost
import Idealize.ShloMosaic.Lib.StackMember

noncomputable section

open scoped BigOperators

namespace Cert.KernelIdeal.MmPayload

open Idealize.ShloMosaic Idealize.ShloMosaic.ValueIdx Cert.KernelIdeal Cert.KernelIdeal.Gen

/-- The bodies' dimension numbers are the plain ones: rows × contraction times contraction × columns. -/
theorem dot_eq_plain : dot_S6000x32_S32x32_S6000x32_1_0_0_1_n_n = DotDims.plain 6000 32 32 := rfl

/-- The product of a 6000×32 by a 32×32 matrix into the zero accumulator, at (p, d): the sum of the products. -/
theorem matmul_zero_apply {φ₁ φ₂ : FTy} (A : FVec Ideal S6000x32 φ₁) (B : FVec Ideal S32x32 φ₂) (p : Fin 6000) (d : Fin 32) :
    matmul dot_S6000x32_S32x32_S6000x32_1_0_0_1_n_n none A B (constant S6000x32 .f32 0x00000000#32) (ix2 p d)
      = ∑ k : Fin 32, A (ix2 p k) * B (ix2 k d) := by
  rw [matmul_zero_eq_dotGeneral, dot_eq_plain]
  exact StackMember.dotGeneral_plain_apply none A B p d

/-- The first matrix-product body at the index (0, p, d). -/
theorem k1_pay1_apply (v0 : Vec Ideal S1x6000x32 .f32) (v3 : Vec Ideal S1x32x32 .f32) (p : Fin 6000) (d : Fin 32) :
    k1_pay1 v0 v3 (ix3 (0 : Fin 1) p d) = ∑ k : Fin 32, v0 (ix3 (0 : Fin 1) p k) * v3 (ix3 (0 : Fin 1) k d) := by
  unfold k1_pay1
  rw [shapeCast_ab_1ab_apply, matmul_zero_apply]
  refine Finset.sum_congr rfl fun k _ => ?_
  rw [truncf_apply, truncf_apply, shapeCast_1ab_ab_apply, shapeCast_1ab_ab_apply]

/-- The second matrix-product body at the index (0, p, d): the same sum. -/
theorem k3_pay1_apply (v0 : Vec Ideal S1x6000x32 .f32) (v3 : Vec Ideal S1x32x32 .f32) (p : Fin 6000) (d : Fin 32) :
    k3_pay1 v0 v3 (ix3 (0 : Fin 1) p d) = ∑ k : Fin 32, v0 (ix3 (0 : Fin 1) p k) * v3 (ix3 (0 : Fin 1) k d) := by
  unfold k3_pay1
  rw [shapeCast_ab_1ab_apply, matmul_zero_apply]
  refine Finset.sum_congr rfl fun k _ => ?_
  rw [truncf_apply, truncf_apply, shapeCast_1ab_ab_apply, shapeCast_1ab_ab_apply]

end Cert.KernelIdeal.MmPayload

end
-- ==== Proof.Region1.lean ====
/-
  The first matrix-product region as one function of the arrays it finds. The region runs its body on a grid of
  27 × 25 points. At the point (k, q) the body reads the block of the left array with first coordinate k and rows
  6000 q … 6000 q + 5999 (all 32 columns) and the k-th 32 × 32 matrix of the right array, multiplies the two, and the
  product is written back as the block of the result at the same place as the left block. The 675 blocks tile the
  result, so after the region the result at (k, p, d) is the sum over c of left (k, p, c) times right (k, c, d),
  whatever the region found in the buffers.
-/
import proofs.«164309_j70342974374320_2_alg».proof.Proof.FrameKernelIdeal
import proofs.«164309_j70342974374320_2_alg».proof.Proof.MmPayload
import Idealize.ShloMosaic.Lib.Pipeline.Value
import Idealize.ShloMosaic.Lib.ValueIdx

noncomputable section

open scoped BigOperators

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem zero_offsets : (![0, 0, 0] : Fin 3 → Nat) = fun _ => 0 := funext fun a => by fin_cases a <;> rfl

/-- The product of the two stacks, matrix by matrix: at (k, p, d) the sum over c of left (k, p, c) · right (k, c, d). -/
def stackProduct (a0 : S27x150000x32.Idx → EReal) (a1 : S27x32x32.Idx → EReal) : S27x150000x32.Idx → EReal :=
  fun i => ∑ k : Fin 32, a0 (ix3 (i 0 : Fin 27) (i 1 : Fin 150000) k) * a1 (ix3 (i 0 : Fin 27) k (i 2 : Fin 32))

/-- The stack product at the index (k, p, d), the sum written out. -/
theorem stackProduct_apply (a0 : S27x150000x32.Idx → EReal) (a1 : S27x32x32.Idx → EReal)
    (k : Fin 27) (p : Fin 150000) (d : Fin 32) :
    stackProduct a0 a1 (ix3 k p d) = ∑ c : Fin 32, a0 (ix3 k p c) * a1 (ix3 k c d) := rfl

/-- The block indices of the three windows at the grid's point number t: the point is (t / 25, t % 25); the left
    array's and the result's block is (t / 25, t % 25, 0), the right array's (t / 25, 0, 0). Decided over the grid. -/
theorem block_index : ∀ t : Fin cfg1.N,
    win1_0.index t (0 : Fin 3) = t.val / 25 ∧ win1_0.index t (1 : Fin 3) = t.val % 25 ∧ win1_0.index t (2 : Fin 3) = 0
    ∧ win1_1.index t (0 : Fin 3) = t.val / 25 ∧ win1_1.index t (1 : Fin 3) = 0 ∧ win1_1.index t (2 : Fin 3) = 0
    ∧ win1_2.index t (0 : Fin 3) = t.val / 25 ∧ win1_2.index t (1 : Fin 3) = t.val % 25 ∧ win1_2.index t (2 : Fin 3) = 0 :=
  (by decide +kernel : ∀ t : Fin grid1.N, _)

/-- The left array's block at point t, at (u, p, k), is the array at (t / 25, 6000 (t % 25) + p, k). -/
theorem left_block_apply (c : Dev nD) (t : Fin cfg1.N) (u : Fin 1) (p : Fin 6000) (k : Fin 32) (i : S27x150000x32.Idx)
    (h0 : (i 0).val = t.val / 25) (h1 : (i 1).val = t.val % 25 * 6000 + p.val) (h2 : (i 2).val = k.val) :
    iblk1 V c 0 t (ix3 u p k) = V c (Pipeline.arrRef spec1 0) i := by
  obtain ⟨e0, e1, e2, -⟩ := block_index t
  have hu : u.val = 0 := by omega
  show V c (Pipeline.arrRef spec1 0) (((cfg1.win 0).blk t).view.emb (ix3 u p k)) = V c (Pipeline.arrRef spec1 0) i
  refine congrArg (V c (Pipeline.arrRef spec1 0) : S27x150000x32.Idx → EReal) (funext fun a => Fin.ext ?_)
  match a with
  | ⟨0, _⟩ => show win1_0.index t (0 : Fin 3) * 1 + 1 * u.val = (i 0).val; omega
  | ⟨1, _⟩ => show win1_0.index t (1 : Fin 3) * 6000 + 1 * p.val = (i 1).val; omega
  | ⟨2, _⟩ => show win1_0.index t (2 : Fin 3) * 32 + 1 * k.val = (i 2).val; omega

/-- The right array's block at point t, at (u, k, d), is the array at (t / 25, k, d). -/
theorem right_block_apply (c : Dev nD) (t : Fin cfg1.N) (u : Fin 1) (k : Fin 32) (d : Fin 32) (i : S27x32x32.Idx)
    (h0 : (i 0).val = t.val / 25) (h1 : (i 1).val = k.val) (h2 : (i 2).val = d.val) :
    iblk1 V c 1 t (ix3 u k d) = V c (Pipeline.arrRef spec1 1) i := by
  obtain ⟨-, -, -, e0, e1, e2, -⟩ := block_index t
  have hu : u.val = 0 := by omega
  show V c (Pipeline.arrRef spec1 1) (((cfg1.win 1).blk t).view.emb (ix3 u k d)) = V c (Pipeline.arrRef spec1 1) i
  refine congrArg (V c (Pipeline.arrRef spec1 1) : S27x32x32.Idx → EReal) (funext fun a => Fin.ext ?_)
  match a with
  | ⟨0, _⟩ => show win1_1.index t (0 : Fin 3) * 1 + 1 * u.val = (i 0).val; omega
  | ⟨1, _⟩ => show win1_1.index t (1 : Fin 3) * 32 + 1 * k.val = (i 1).val; omega
  | ⟨2, _⟩ => show win1_1.index t (2 : Fin 3) * 32 + 1 * d.val = (i 2).val; omega

/-- Where the result's block at point t puts its entry (u, p, d): at (t / 25, 6000 (t % 25) + p, d). -/
theorem result_block_emb (t : Fin cfg1.N) (u : Fin 1) (p : Fin 6000) (d : Fin 32) :
    ((((cfg1.win 2).blk t).view.emb (ix3 u p d)) (0 : Fin 3)).val = t.val / 25
    ∧ ((((cfg1.win 2).blk t).view.emb (ix3 u p d)) (1 : Fin 3)).val = t.val % 25 * 6000 + p.val
    ∧ ((((cfg1.win 2).blk t).view.emb (ix3 u p d)) (2 : Fin 3)).val = d.val := by
  obtain ⟨-, -, -, -, -, -, e0, e1, e2⟩ := block_index t
  have hu : u.val = 0 := by omega
  refine ⟨?_, ?_, ?_⟩
  · show win1_2.index t (0 : Fin 3) * 1 + 1 * u.val = _; omega
  · show win1_2.index t (1 : Fin 3) * 6000 + 1 * p.val = _; omega
  · show win1_2.index t (2 : Fin 3) * 32 + 1 * d.val = _; omega

/-- What point t writes back is block t of the stack product of the two arrays as the region finds them. -/
theorem flushed_eq (c : Dev nD) (t : Fin cfg1.N) :
    (dat1 (F := Ideal) V c).flushed 2 t
      = ((cfg1.win 2).blk t).view.read (Elt Ideal)
          (stackProduct (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S1x6000x32) zero_offsets, View.ld_unit_zero (S := S1x32x32) zero_offsets]
  refine funext fun (j : S1x6000x32.Idx) => ?_
  obtain ⟨u, p, d, rfl⟩ : ∃ (u : Fin 1) (p : Fin 6000) (d : Fin 32), j = ix3 u p d := ⟨j 0, j 1, j 2, eq_ix3 j⟩
  obtain rfl : u = 0 := Subsingleton.elim u 0
  show k1_pay1 (iblk1 V c 0 t) (iblk1 V c 1 t) (ix3 (0 : Fin 1) p d)
    = stackProduct (V c (Pipeline.arrRef spec1 0)) (V c (Pipeline.arrRef spec1 1))
        (((cfg1.win 2).blk t).view.emb (ix3 (0 : Fin 1) p d))
  refine (MmPayload.k1_pay1_apply _ _ p d).trans ?_
  obtain ⟨r0, r1, r2⟩ := result_block_emb t (0 : Fin 1) p d
  unfold stackProduct
  refine Finset.sum_congr rfl fun k _ => ?_
  exact congrArg₂ (· * ·) (left_block_apply V c t 0 p k _ r0 r1 rfl) (right_block_apply V c t 0 k d _ r0 rfl r2)

/-- An index of the result is in point t's block iff each coordinate is in the block's range on its axis. -/
theorem mem_block (t : Fin cfg1.N) (i : S27x150000x32.Idx) :
    i ∈ ((cfg1.win 2).blk t).view.set ↔ ∀ a : Fin 3, win1_2.index t a * S1x6000x32.size a ≤ (i a).val
      ∧ (i a).val < win1_2.index t a * S1x6000x32.size a + S1x6000x32.size a := by
  show i ∈ ((View.whole main_v17).slice (win1_2.rect t)).set ↔ _
  rw [View.set_slice_whole, Rect.mem_set_unit]
  exact Iff.rfl

/-- Every index (k, p, d) of the result is in the block of the point number 25 k + p / 6000. -/
theorem cover (i : S27x150000x32.Idx) :
    ∃ t : Fin cfg1.N, (cfg1.win 2).flush t = true ∧ i ∈ ((cfg1.win 2).blk t).view.set := by
  have h0 : (i 0).val < 27 := (i 0).isLt
  have h1 : (i 1).val < 150000 := (i 1).isLt
  have h2 : (i 2).val < 32 := (i 2).isLt
  have hN : cfg1.N = 675 := N_1
  obtain ⟨t, ht⟩ : ∃ t : Fin cfg1.N, t.val = (i 0).val * 25 + (i 1).val / 6000 :=
    ⟨⟨(i 0).val * 25 + (i 1).val / 6000, by rw [hN]; omega⟩, rfl⟩
  obtain ⟨-, -, -, -, -, -, e0, e1, e2⟩ := block_index t
  refine ⟨t, flush1_2 t, ?_⟩
  rw [mem_block]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 6000 ≤ (i 1).val ∧ (i 1).val < win1_2.index t (1 : Fin 3) * 6000 + 6000
    omega
  | ⟨2, _⟩ =>
    show win1_2.index t (2 : Fin 3) * 32 ≤ (i 2).val ∧ (i 2).val < win1_2.index t (2 : Fin 3) * 32 + 32
    omega

/-- After the region the result array is the stack product of the two arrays the region found, whatever it found. -/
theorem region1_value (c : Dev nD) :
    (dat1 (F := Ideal) V c).arrAt 2 cfg1.N
      = stackProduct (V c (Pipeline.arrRef spec1 0)) (V c (Pipeline.arrRef spec1 1)) :=
  (dat1 V c).arrAt_eq_of_cover 2 _ (fun t _ => flushed_eq V c t) cover

end Cert.KernelIdeal.Region1

end
-- ==== Proof.RefMm.lean ====
/-
  The reference's product of two stacks of matrices, read at one index, at the ideal instance (floats are extended
  reals): 27 matrices of 150000×32 against 27 matrices of 32×32, matrix by matrix (one batch axis, the first of each;
  the last axis of the left stack contracted against the middle axis of the right). At (k, p, d) it is the sum over the
  contracted coordinate c of left (k, p, c) times right (k, c, d).
-/
import proofs.«164309_j70342974374320_2_alg».proof.Proof.Gen.ReferenceIdeal
import Idealize.ShloMosaic.Lib.ValueIdx
import Idealize.ShloMosaic.Lib.StackMember

noncomputable section

open scoped BigOperators

namespace Cert.ReferenceIdeal.RefMm

open Idealize.ShloMosaic Idealize.ShloMosaic.ValueIdx Cert.ReferenceIdeal Cert.ReferenceIdeal.Facts₀

/-- The reference's stack product at the index (k, p, d). -/
theorem dotGeneral_apply (g : FVec Ideal S27x150000x32 .f32) (w : FVec Ideal S27x32x32 .f32)
    (k : Fin 27) (p : Fin 150000) (d : Fin 32) :
    Host.dotGeneral dot_S27x150000x32_S27x32x32_S27x150000x32_2_1_1_2_0_0 none g w (ix3 k p d)
      = ∑ c : Fin 32, g (ix3 k p c) * w (ix3 k c d) :=
  StackMember.dotGeneral_stack_apply dot_S27x150000x32_S27x32x32_S27x150000x32_2_1_1_2_0_0_wf none g w k p d

end Cert.ReferenceIdeal.RefMm

end
-- ==== Proof.StageMm1.lean ====
/-
  The first contraction. The kernel program multiplies the gathered rows by the weights in a pallas_call region, block by
  block; after the region the result array is the product of the two stacks, matrix by matrix, of what the region found.
  The reference does it by one host dot_general with one batch axis. Read at an index (k, p, d) both are the sum over c of
  gathered (k, p, c) times weight (k, c, d); the gathered arrays agree by hypothesis and the weights are the same argument.
-/
import proofs.«164309_j70342974374320_2_alg».proof.Proof.Bridge0
import proofs.«164309_j70342974374320_2_alg».proof.Proof.Region1
import proofs.«164309_j70342974374320_2_alg».proof.Proof.RefMm

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

variable (m : KMem) (ρ : Dev Cert.KernelIdeal.nD → PrngReg) (m' : RMem)

set_option maxHeartbeats 4000000 in
/-- The first contraction: the region's result and the host dot_general's are the same sums of products. -/
theorem mm1_eq (c : Dev Cert.KernelIdeal.nD)
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hg : W7 m ρ c (Proc.devRef .tc Cert.KernelIdeal.main_v16) = R2 m' c (Proc.devRef .tc Cert.ReferenceIdeal.main_v23)) :
    W8 m ρ c (Proc.devRef .tc Cert.KernelIdeal.main_v17) = R3 m' c (Proc.devRef .tc Cert.ReferenceIdeal.main_v24) := by
  have hK : W8 m ρ c (Proc.devRef .tc Cert.KernelIdeal.main_v17)
      = Cert.KernelIdeal.Region1.stackProduct (W7 m ρ c (Proc.devRef .tc Cert.KernelIdeal.main_v16))
          (W7 m ρ c (Proc.devRef .tc Cert.KernelIdeal.main_arg7)) :=
    (W8_arr m ρ c 2).trans (Cert.KernelIdeal.Region1.region1_value (V7 m ρ) c)
  have hR : R3 m' c (Proc.devRef .tc Cert.ReferenceIdeal.main_v24)
      = Host.dotGeneral (F := Ideal) (φ₁ := .f32) (φ₂ := .f32) Cert.ReferenceIdeal.dot_S27x150000x32_S27x32x32_S27x150000x32_2_1_1_2_0_0 none
          (R2 m' c (Proc.devRef .tc Cert.ReferenceIdeal.main_v23)) (R2 m' c (Proc.devRef .tc Cert.ReferenceIdeal.main_arg7)) := by
    dsimp only [R3]
    simp only [opsS3]
    after_results_simp
  rw [hK, hR, hg, Cert.KernelIdeal.KChain.arg_at7 m ρ c _ kA7, Cert.ReferenceIdeal.RChain.arg_at2 m' c _ rA7, h7]
  refine funext fun (i : (⟨3, ![27, 150000, 32]⟩ : Shape).Idx) => ?_
  obtain ⟨k, p, d, rfl⟩ : ∃ (k : Fin 27) (p : Fin 150000) (d : Fin 32), i = ValueIdx.ix3 k p d :=
    ⟨i 0, i 1, i 2, ValueIdx.eq_ix3 i⟩
  exact (Cert.KernelIdeal.Region1.stackProduct_apply _ _ k p d).trans
    (Cert.ReferenceIdeal.RefMm.dotGeneral_apply _ _ k p d).symm

end Cert.Bridge

end
-- ==== Proof.StageScatter1.lean ====
/-
  The first scatter-add. Both programs take the first contraction's 27×150000×32 products and the output-side index
  table (its invalid entries, where the input-side table is negative, sent to the extra row 300000), flatten both, add
  the products at the indexed rows of a zero array of 300001 rows, and keep the first 300000 rows. The kernel program does
  it in the stretches after its second region, the reference in its fourth stage; given that the validity mask and the
  products agree, the two results are one term of them and of the output-side index argument.
-/
import proofs.«164309_j70342974374320_2_alg».proof.Proof.Bridge0

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

variable (m : KMem) (ρ : Dev Cert.KernelIdeal.nD → PrngReg) (m' : RMem)

set_option maxHeartbeats 4000000 in
/-- The first scatter-add and its slice: one chain of host operations on both sides, over the validity mask, the
    output-side index argument and the first contraction's products. -/
theorem scat1_eq (c : Dev Cert.KernelIdeal.nD)
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hv : W7 m ρ c (Proc.devRef .tc Cert.KernelIdeal.main_v8) = R2 m' c (Proc.devRef .tc Cert.ReferenceIdeal.main_v15))
    (hc : W8 m ρ c (Proc.devRef .tc Cert.KernelIdeal.main_v17) = R3 m' c (Proc.devRef .tc Cert.ReferenceIdeal.main_v24)) :
    W13 m ρ c (Proc.devRef .tc Cert.KernelIdeal.main_v24) = R4 m' c (Proc.devRef .tc Cert.ReferenceIdeal.main_v31) := by
  -- nothing after the slice's own stretch writes its result
  have k13 : W13 m ρ c (Proc.devRef .tc Cert.KernelIdeal.main_v24) = W12 m ρ c (Proc.devRef .tc Cert.KernelIdeal.main_v24) := by kept_across hostOps2_4
  have k12 : W12 m ρ c (Proc.devRef .tc Cert.KernelIdeal.main_v24) = W11 m ρ c (Proc.devRef .tc Cert.KernelIdeal.main_v24) := by kept_across hostOps2_3
  rw [k13, k12]
  -- what the two chains read at the boundaries they stop at
  have hm : W8 m ρ c (Proc.devRef .tc Cert.KernelIdeal.main_v8) = W7 m ρ c (Proc.devRef .tc Cert.KernelIdeal.main_v8) := W8_of_ne m ρ c _ (by decide)
  have ha := Cert.KernelIdeal.KChain.arg_at8 m ρ c _ kA4
  have e1 : R3 m' c (Proc.devRef .tc Cert.ReferenceIdeal.main_v15) = R2 m' c (Proc.devRef .tc Cert.ReferenceIdeal.main_v15) := by kept_stage opsS3
  have e4 := Cert.ReferenceIdeal.RChain.arg_at3 m' c _ rA4
  -- the reference's contents after its third stage, as one valuation (the stage is a single operation: unfolding would read through it)
  dsimp only [R4]
  generalize R3 m' c = VR at hc e1 e4 ⊢
  dsimp only [W11, W10, W9, hostOps2_2, hostOps2_1, hostOps2]
  simp only [opsS4, opsWhere0, List.cons_append, List.nil_append, List.append_assoc]
  after_results_simp
  simp only [hm, ha, e1, e4]
  rw [hv, hc, h4]
  rfl

end Cert.Bridge

end
-- ==== Proof.Region2.lean ====
import proofs.«164309_j70342974374320_2_alg».proof.Proof.FrameKernelIdeal
import proofs.«164309_j70342974374320_2_alg».proof.Proof.BnPayload
import Idealize.ShloMosaic.Lib.Pipeline.Value
import Idealize.ShloMosaic.Lib.ValueIdx

/-! # The second normalisation region as a whole-array value

Each of the 60 grid points normalises one block of 5000 rows: every element has its column's mean subtracted, is
scaled by the reciprocal square root of its column's variance plus a small constant, and is clamped below at zero.
The blocks tile the 300000 rows, so the output array ends holding that function of the three input arrays, whatever
the buffers hold when the region is entered. -/

noncomputable section

namespace Cert.KernelIdeal.Regions

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem unit_offsets2 : (![0, 0] : Fin 2 → Nat) = fun _ => 0 := funext fun a => by fin_cases a <;> rfl

/-- Normalise by column and clamp at zero: the function of the data array `x`, the row of means `mu` and the row of
    variances `vr` that the region computes, index by index. -/
abbrev normRelu2 (x : S300000x32.Idx → EReal) (mu vr : S1x32.Idx → EReal) : S300000x32.Idx → EReal := fun i =>
  max ((x i - mu (ix2 0 (i 1))) * Ideal.rsqrt (vr (ix2 0 (i 1)) + Ideal.ofBits .f32 0x38D1B717#32))
    (Ideal.ofBits .f32 0x00000000#32)

/-- The index maps over the 60 points: the data and output windows sit at block row `t`, the two statistics rows
    at their one block. -/
theorem block_rows2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The data window's block at point `t` holds rows `5000 t … 5000 t + 4999` of the data array. -/
theorem data_block2 (c : Dev nD) (t : Fin cfg2.N) (r : Fin 5000) (q : Fin 32) (i : S300000x32.Idx)
    (h0 : (i 0).val = t.val * 5000 + r.val) (h1 : (i 1).val = q.val) :
    (iblk2 V c 0 t : Vec Ideal S5000x32 .f32) (ix2 r q)
      = (V c (Pipeline.arrRef spec2 0) : S300000x32.Idx → EReal) i := by
  obtain ⟨e00, e01, -⟩ := block_rows2 t
  unfold iblk2
  rw [View.read_apply]
  show V c (Pipeline.arrRef spec2 0) _ = V c (Pipeline.arrRef spec2 0) _
  refine congrArg _ ?_
  funext a
  apply Fin.ext
  match a with
  | ⟨0, _⟩ => show win2_0.index t (0 : Fin 2) * 5000 + 1 * r.val = (i 0).val; rw [e00, h0]; omega
  | ⟨1, _⟩ => show win2_0.index t (1 : Fin 2) * 32 + 1 * q.val = (i 1).val; rw [e01, h1]; omega

/-- The mean window's block at every point is the whole row of means. -/
theorem mean_block2 (c : Dev nD) (t : Fin cfg2.N) (q q' : Fin 32) (h : q'.val = q.val) :
    (iblk2 V c 1 t : Vec Ideal S1x32 .f32) (ix2 0 q)
      = (V c (Pipeline.arrRef spec2 1) : S1x32.Idx → EReal) (ix2 0 q') := by
  obtain ⟨-, -, e10, e11, -⟩ := block_rows2 t
  unfold iblk2
  rw [View.read_apply]
  show V c (Pipeline.arrRef spec2 1) _ = V c (Pipeline.arrRef spec2 1) _
  refine congrArg _ ?_
  funext a
  apply Fin.ext
  match a with
  | ⟨0, _⟩ => show win2_1.index t (0 : Fin 2) * 1 + 1 * 0 = 0; rw [e10]
  | ⟨1, _⟩ => show win2_1.index t (1 : Fin 2) * 32 + 1 * q.val = q'.val; rw [e11, h]; omega

/-- The variance window's block at every point is the whole row of variances. -/
theorem var_block2 (c : Dev nD) (t : Fin cfg2.N) (q q' : Fin 32) (h : q'.val = q.val) :
    (iblk2 V c 2 t : Vec Ideal S1x32 .f32) (ix2 0 q)
      = (V c (Pipeline.arrRef spec2 2) : S1x32.Idx → EReal) (ix2 0 q') := by
  obtain ⟨-, -, -, -, e20, e21, -⟩ := block_rows2 t
  unfold iblk2
  rw [View.read_apply]
  show V c (Pipeline.arrRef spec2 2) _ = V c (Pipeline.arrRef spec2 2) _
  refine congrArg _ ?_
  funext a
  apply Fin.ext
  match a with
  | ⟨0, _⟩ => show win2_2.index t (0 : Fin 2) * 1 + 1 * 0 = 0; rw [e20]
  | ⟨1, _⟩ => show win2_2.index t (1 : Fin 2) * 32 + 1 * q.val = q'.val; rw [e21, h]; omega

/-- WHAT POINT `t` WRITES BACK is block `t` of the normalised array: the body's one store covers its buffer, its
    payload at row `r`, column `q` reads the data block there and the two statistics rows at column `q`, and the
    output block's element `(r, q)` is the array's element `(5000 t + r, q)`. -/
theorem flushed2_eq (c : Dev nD) (t : Fin cfg2.N) :
    (dat2 V c).flushed 3 t = ((cfg2.win 3).blk t).view.read (Elt Ideal)
      (normRelu2 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero unit_offsets2]
  simp only [View.ld_unit_zero (S := S5000x32) unit_offsets2, View.ld_unit_zero (S := S1x32) unit_offsets2]
  obtain ⟨-, -, -, -, -, -, e30, e31⟩ := block_rows2 t
  funext j
  obtain ⟨r, q, rfl⟩ : ∃ (r : Fin 5000) (q : Fin 32), j = ix2 r q := ⟨j 0, j 1, eq_ix2 j⟩
  show k2_pay1 (iblk2 V c 0 t) (iblk2 V c 1 t) (iblk2 V c 2 t) (ix2 r q)
    = normRelu2 (V c (Pipeline.arrRef spec2 0)) (V c (Pipeline.arrRef spec2 1)) (V c (Pipeline.arrRef spec2 2))
        (((cfg2.win 3).blk t).view.emb (ix2 r q))
  refine (BnPayload.k2_pay1_apply (iblk2 V c 0 t) (iblk2 V c 1 t) (iblk2 V c 2 t) r q).trans ?_
  have hq : ((((cfg2.win 3).blk t).view.emb (ix2 r q)) 1).val = q.val := by
    show win2_3.index t (1 : Fin 2) * 32 + 1 * q.val = q.val
    rw [e31]; omega
  have hr : ((((cfg2.win 3).blk t).view.emb (ix2 r q)) 0).val = t.val * 5000 + r.val := by
    show win2_3.index t (0 : Fin 2) * 5000 + 1 * r.val = t.val * 5000 + r.val
    rw [e30]; omega
  rw [data_block2 V c t r q _ hr hq, mean_block2 V c t q _ hq, var_block2 V c t q _ hq]

/-- An index of the array is in point `t`'s block iff each coordinate is in the block's range on its axis. -/
theorem mem_block2 (t : Fin cfg2.N) (i : S300000x32.Idx) :
    i ∈ ((cfg2.win 3).blk t).view.set ↔ ∀ a : Fin 2, win2_3.index t a * S5000x32.size a ≤ (i a).val
      ∧ (i a).val < win2_3.index t a * S5000x32.size a + S5000x32.size a := by
  show i ∈ ((View.whole main_v31).slice (win2_3.rect t)).set ↔ _
  rw [View.set_slice_whole, Rect.mem_set_unit]
  exact Iff.rfl

/-- THE ARRAY after the region: row `r` lies in the block of point `r / 5000`, so the sixty blocks cover the array
    and it ends holding the normalised data. -/
theorem region2_value (c : Dev nD) :
    (dat2 V c).arrAt 3 cfg2.N
      = normRelu2 (V c (Pipeline.arrRef spec2 0)) (V c (Pipeline.arrRef spec2 1)) (V c (Pipeline.arrRef spec2 2)) :=
  (dat2 V c).arrAt_eq_of_cover 3
    (normRelu2 (V c (Pipeline.arrRef spec2 0)) (V c (Pipeline.arrRef spec2 1)) (V c (Pipeline.arrRef spec2 2)))
    (fun t _ => flushed2_eq V c t) fun i => by
    have hi0 : (i 0).val < 300000 := (i 0).isLt
    have hi1 : (i 1).val < 32 := (i 1).isLt
    have hN : cfg2.N = 60 := N_2
    have ht : (i 0).val / 5000 < cfg2.N := by rw [hN]; omega
    obtain ⟨-, -, -, -, -, -, e30, e31⟩ := block_rows2 ⟨(i 0).val / 5000, ht⟩
    refine ⟨⟨(i 0).val / 5000, ht⟩, flush2_3 _, ?_⟩
    rw [mem_block2]
    intro a
    match a with
    | ⟨0, _⟩ =>
      show win2_3.index ⟨(i 0).val / 5000, ht⟩ (0 : Fin 2) * 5000 ≤ (i 0).val
        ∧ (i 0).val < win2_3.index ⟨(i 0).val / 5000, ht⟩ (0 : Fin 2) * 5000 + 5000
      rw [e30]
      show (i 0).val / 5000 * 5000 ≤ (i 0).val ∧ (i 0).val < (i 0).val / 5000 * 5000 + 5000
      omega
    | ⟨1, _⟩ =>
      show win2_3.index ⟨(i 0).val / 5000, ht⟩ (1 : Fin 2) * 32 ≤ (i 1).val
        ∧ (i 1).val < win2_3.index ⟨(i 0).val / 5000, ht⟩ (1 : Fin 2) * 32 + 32
      rw [e31]; omega

end Cert.KernelIdeal.Regions

end
-- ==== Proof.StageNorm2b.lean ====
/-
  The second normalization. The kernel program slices the scatter-add's result to the 300000 rows of the layer's output,
  computes that array's column means and variances on the host, reshapes each to one row, and normalizes and rectifies
  the array in a pallas_call region; after the region the result at (r, q) is max ((x (r, q) − mean q) · rsqrt (var q + ε), 0).
  The reference computes the means and variances of its own copy of the array by the same host operations and
  normalizes the whole array with broadcasts: the same expression at (r, q). The two arrays agree by hypothesis, and the
  means and variances are one term of the array.
-/
import proofs.«164309_j70342974374320_2_alg».proof.Proof.Bridge0
import proofs.«164309_j70342974374320_2_alg».proof.Proof.Region2
import proofs.«164309_j70342974374320_2_alg».proof.Proof.RefBn

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

variable (m : KMem) (ρ : Dev Cert.KernelIdeal.nD → PrngReg) (m' : RMem)

open Idealize.ShloMosaic.ValueIdx

namespace Norm2b

/-- Running two lines of host operations one after the other folds the second over what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The reference's normalize-and-rectify term of a whole array `x`, a vector of means and a vector of variances. -/
def refNormRelu (x : FVec Ideal Cert.ReferenceIdeal.S300000x32 .f32) (mean var : FVec Ideal Cert.ReferenceIdeal.S32 .f32) : FVec Ideal Cert.ReferenceIdeal.S300000x32 .f32 :=
  maximumf
    (mulf
      (subf x (broadcastInDim Cert.ReferenceIdeal.S300000x32 ![0, 1] Cert.ReferenceIdeal.Facts₀.bcast_S1x32_S300000x32_0_1
        (broadcastInDim Cert.ReferenceIdeal.S1x32 ![1] Cert.ReferenceIdeal.Facts₀.bcast_S32_S1x32_1 mean)))
      (broadcastInDim Cert.ReferenceIdeal.S300000x32 ![0, 1] Cert.ReferenceIdeal.Facts₀.bcast_S1x32_S300000x32_0_1
        (broadcastInDim Cert.ReferenceIdeal.S1x32 ![1] Cert.ReferenceIdeal.Facts₀.bcast_S32_S1x32_1
          (Host.rsqrt (addf var (broadcastInDim Cert.ReferenceIdeal.S32 ![] Cert.ReferenceIdeal.Facts₀.bcast_S_S32 (constant (F := Ideal) Cert.ReferenceIdeal.S_ .f32 0x38D1B717#32)))))))
    (broadcastInDim Cert.ReferenceIdeal.S300000x32 ![] Cert.ReferenceIdeal.Facts₀.bcast_S_S300000x32 (constant (F := Ideal) Cert.ReferenceIdeal.S_ .f32 0x00000000#32))

/-- It reads, at (r, q), max ((x (r, q) − mean q) · rsqrt (var q + ε), 0). -/
theorem refNormRelu_apply (x : FVec Ideal Cert.ReferenceIdeal.S300000x32 .f32) (mean var : FVec Ideal Cert.ReferenceIdeal.S32 .f32) (r : Fin 300000) (q : Fin 32) :
    refNormRelu x mean var (ix2 r q)
      = max ((x (ix2 r q) - mean (ix1 q)) * Ideal.rsqrt (var (ix1 q) + Ideal.ofBits .f32 0x38D1B717#32))
          (Ideal.ofBits .f32 0x00000000#32) :=
  Cert.ReferenceIdeal.RefBn.bnRelu_apply x mean var r q

/-- The reference's fifth stage, cut after its first 28 operations (the column means and the variances). -/
theorem R5_split (c : Dev Cert.KernelIdeal.nD) :
    R5 m' c = after (List.drop 28 opsS5) (after (List.take 28 opsS5) (R4 m' c)) := by
  show after opsS5 (R4 m' c) = _
  rw [← after_append (List.take 28 opsS5) (List.drop 28 opsS5), List.take_append_drop]

/-- The kernel program's boundary at the second normalization's region, with the stretch that makes the array cut after
    its first seven operations (the scatter-add and the slice of its result). -/
theorem W13_split (c : Dev Cert.KernelIdeal.nD) :
    W13 m ρ c = after hostOps2_4 (after hostOps2_3 (after (List.drop 7 hostOps2_2) (after (List.take 7 hostOps2_2) (W10 m ρ c)))) := by
  show after hostOps2_4 (after hostOps2_3 (after hostOps2_2 (W10 m ρ c))) = _
  rw [← after_append (List.take 7 hostOps2_2) (List.drop 7 hostOps2_2), List.take_append_drop]

set_option maxHeartbeats 4000000 in
/-- The rest of the reference's stage, over whatever its first 28 operations left: the normalize-and-rectify term of the
    array, the means and the variances found there. -/
theorem ref_outer (X : Valuation Cert.ReferenceIdeal.τ Cert.ReferenceIdeal.sig (Elt Ideal)) :
    after (List.drop 28 (opsS5 (F := Ideal))) X (Proc.devRef .tc Cert.ReferenceIdeal.main_v45)
      = refNormRelu (X (Proc.devRef .tc Cert.ReferenceIdeal.main_v31)) (X (Proc.devRef .tc Cert.ReferenceIdeal.main_v34)) (X (Proc.devRef .tc Cert.ReferenceIdeal.main_v35)) := by
  simp only [opsS5, opsVar1, opsWhere, opsRelu, List.cons_append, List.nil_append, List.append_assoc, List.take_succ_cons, List.take_zero, List.drop_succ_cons, List.drop_zero]
  after_results_simp
  rfl

set_option maxHeartbeats 4000000 in
/-- The array itself is not touched by the operations that compute its statistics, in either program. -/
theorem feat_eq (Y : Valuation Cert.KernelIdeal.τ Cert.KernelIdeal.sig (Elt Ideal)) (Z : Valuation Cert.ReferenceIdeal.τ Cert.ReferenceIdeal.sig (Elt Ideal))
    (h : Y (Proc.devRef .tc Cert.KernelIdeal.main_v24) = Z (Proc.devRef .tc Cert.ReferenceIdeal.main_v31)) :
    after hostOps2_4 (after hostOps2_3 (after (List.drop 7 hostOps2_2) Y)) (Proc.devRef .tc Cert.KernelIdeal.main_v24)
      = after (List.take 28 opsS5) Z (Proc.devRef .tc Cert.ReferenceIdeal.main_v31) := by
  simp only [hostOps2_2, hostOps2_3, hostOps2_4, List.drop_succ_cons, List.drop_zero, opsS5, opsVar1, opsWhere, opsRelu, List.cons_append, List.nil_append, List.append_assoc, List.take_succ_cons, List.take_zero, List.drop_succ_cons, List.drop_zero]
  after_results_simp
  exact h

set_option maxHeartbeats 4000000 in
/-- The row of means the region finds is the reference's vector of means: the same column sums over the same count. -/
theorem mean_eq (Y : Valuation Cert.KernelIdeal.τ Cert.KernelIdeal.sig (Elt Ideal)) (Z : Valuation Cert.ReferenceIdeal.τ Cert.ReferenceIdeal.sig (Elt Ideal))
    (h : Y (Proc.devRef .tc Cert.KernelIdeal.main_v24) = Z (Proc.devRef .tc Cert.ReferenceIdeal.main_v31)) (q : Fin 32) :
    after hostOps2_4 (after hostOps2_3 (after (List.drop 7 hostOps2_2) Y)) (Proc.devRef .tc Cert.KernelIdeal.main_v28) (ix2 (0 : Fin 1) q)
      = after (List.take 28 opsS5) Z (Proc.devRef .tc Cert.ReferenceIdeal.main_v34) (ix1 q) := by
  simp only [hostOps2_2, hostOps2_3, hostOps2_4, List.drop_succ_cons, List.drop_zero, opsS5, opsVar1, opsWhere, opsRelu, List.cons_append, List.nil_append, List.append_assoc, List.take_succ_cons, List.take_zero, List.drop_succ_cons, List.drop_zero]
  after_results_simp
  refine (shapeCast_a_1a_apply _ _ (0 : Fin 1) q).trans ?_
  rw [h]

set_option maxHeartbeats 4000000 in
/-- The row of variances the region finds is the reference's vector of variances: the same operations of the array. -/
theorem var_eq (Y : Valuation Cert.KernelIdeal.τ Cert.KernelIdeal.sig (Elt Ideal)) (Z : Valuation Cert.ReferenceIdeal.τ Cert.ReferenceIdeal.sig (Elt Ideal))
    (h : Y (Proc.devRef .tc Cert.KernelIdeal.main_v24) = Z (Proc.devRef .tc Cert.ReferenceIdeal.main_v31)) (q : Fin 32) :
    after hostOps2_4 (after hostOps2_3 (after (List.drop 7 hostOps2_2) Y)) (Proc.devRef .tc Cert.KernelIdeal.main_v30) (ix2 (0 : Fin 1) q)
      = after (List.take 28 opsS5) Z (Proc.devRef .tc Cert.ReferenceIdeal.main_v35) (ix1 q) := by
  simp only [hostOps2_2, hostOps2_3, hostOps2_4, List.drop_succ_cons, List.drop_zero, opsS5, opsVar1, opsWhere, opsRelu, List.cons_append, List.nil_append, List.append_assoc, List.take_succ_cons, List.take_zero, List.drop_succ_cons, List.drop_zero]
  after_results_simp
  refine (shapeCast_a_1a_apply _ _ (0 : Fin 1) q).trans ?_
  rw [h]

/-- The normalized value depends on the three entries it reads only. -/
theorem normRelu_congr {a a' b b' v v' : EReal} (ha : a = a') (hb : b = b') (hv : v = v') :
    max ((a - b) * Ideal.rsqrt (v + Ideal.ofBits .f32 0x38D1B717#32)) (Ideal.ofBits .f32 0x00000000#32)
      = max ((a' - b') * Ideal.rsqrt (v' + Ideal.ofBits .f32 0x38D1B717#32)) (Ideal.ofBits .f32 0x00000000#32) := by
  rw [ha, hb, hv]

end Norm2b

set_option maxHeartbeats 4000000 in
/-- The second normalization: the region's result array and the reference's rectified array agree when the arrays that are
    normalized do. -/
theorem bn2_eq (c : Dev Cert.KernelIdeal.nD)
    (hx : W13 m ρ c (Proc.devRef .tc Cert.KernelIdeal.main_v24) = R4 m' c (Proc.devRef .tc Cert.ReferenceIdeal.main_v31)) :
    W14 m ρ c (Proc.devRef .tc Cert.KernelIdeal.main_v31) = R5 m' c (Proc.devRef .tc Cert.ReferenceIdeal.main_v45) := by
  have hK : W14 m ρ c (Proc.devRef .tc Cert.KernelIdeal.main_v31)
      = Cert.KernelIdeal.Regions.normRelu2 (W13 m ρ c (Proc.devRef .tc Cert.KernelIdeal.main_v24)) (W13 m ρ c (Proc.devRef .tc Cert.KernelIdeal.main_v28)) (W13 m ρ c (Proc.devRef .tc Cert.KernelIdeal.main_v30)) :=
    (W14_arr m ρ c 3).trans (Cert.KernelIdeal.Regions.region2_value (V13 m ρ) c)
  rw [hK, Norm2b.R5_split m' c, Norm2b.ref_outer]
  rw [Norm2b.W13_split m ρ c] at hx ⊢
  generalize after (List.take 7 hostOps2_2) (W10 m ρ c) = Y at hx ⊢
  generalize R4 m' c = Z at hx ⊢
  have hY : Y (Proc.devRef .tc Cert.KernelIdeal.main_v24) = Z (Proc.devRef .tc Cert.ReferenceIdeal.main_v31) := by
    refine Eq.trans (Eq.symm ?_) hx
    simp only [hostOps2_2, hostOps2_3, hostOps2_4, List.drop_succ_cons, List.drop_zero]
    after_results_simp
  refine funext fun (i : (⟨2, ![300000, 32]⟩ : Shape).Idx) => ?_
  obtain ⟨r, q, rfl⟩ : ∃ (r : Fin 300000) (q : Fin 32), i = ix2 r q := ⟨i 0, i 1, eq_ix2 i⟩
  refine Eq.trans ?_ (Norm2b.refNormRelu_apply _ _ _ r q).symm
  exact Norm2b.normRelu_congr (congrFun (Norm2b.feat_eq Y Z hY) (ix2 r q)) (Norm2b.mean_eq Y Z hY q) (Norm2b.var_eq Y Z hY q)

end Cert.Bridge

end
-- ==== Proof.StageGather2.lean ====
/-
  The second gather. Both programs mask the input-side index table (an entry is valid when it is not negative), clamp the
  invalid entries to row 0, wrap negative entries by the row count, and gather those rows of the normalized features:
  one and the same chain of host operations of the index table and of the normalized array. So the two masks are one
  term of the index argument, and the two gathered arrays one term of it and of the normalized arrays, which agree by
  hypothesis.
-/
import proofs.«164309_j70342974374320_2_alg».proof.Proof.Bridge0

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

variable (m : KMem) (ρ : Dev Cert.KernelIdeal.nD → PrngReg) (m' : RMem)

set_option maxHeartbeats 4000000 in
/-- The valid-pair mask of the second layer: both programs compare the input-side index table with zero. -/
theorem valid2_eq (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    W17 m ρ c (Proc.devRef .tc Cert.KernelIdeal.main_v33) = R6 m' c (Proc.devRef .tc Cert.ReferenceIdeal.main_v47) := by
  have hK2 : W17 m ρ c (Proc.devRef .tc Cert.KernelIdeal.main_v33) = W16 m ρ c (Proc.devRef .tc Cert.KernelIdeal.main_v33) := by
    kept_across hostOps3_2
  have hK1 : W16 m ρ c (Proc.devRef .tc Cert.KernelIdeal.main_v33) = W15 m ρ c (Proc.devRef .tc Cert.KernelIdeal.main_v33) := by
    kept_across hostOps3_1
  rw [hK2, hK1]
  dsimp only [W15, hostOps3, R6]
  simp only [opsS6, opsWhere0, List.cons_append, List.nil_append, List.append_assoc]
  after_results_simp
  simp only [Cert.KernelIdeal.KChain.arg_at14 m ρ c _ kA3, Cert.ReferenceIdeal.RChain.arg_at5 m' c _ rA3]
  rw [h3]

set_option maxHeartbeats 4000000 in
/-- The gathered rows of the second layer: the same clamped and wrapped row gather of normalized arrays that agree. -/
theorem gath2_eq (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hx : W14 m ρ c (Proc.devRef .tc Cert.KernelIdeal.main_v31) = R5 m' c (Proc.devRef .tc Cert.ReferenceIdeal.main_v45)) :
    W17 m ρ c (Proc.devRef .tc Cert.KernelIdeal.main_v41) = R6 m' c (Proc.devRef .tc Cert.ReferenceIdeal.main_v55) := by
  dsimp only [W17, W16, W15, hostOps3_2, hostOps3_1, hostOps3, R6]
  simp only [opsS6, opsWhere0, List.cons_append, List.nil_append, List.append_assoc]
  after_results_simp
  simp only [Cert.KernelIdeal.KChain.arg_at14 m ρ c _ kA3, Cert.ReferenceIdeal.RChain.arg_at5 m' c _ rA3]
  rw [h3, hx]
  rfl

end Cert.Bridge

end
-- ==== Proof.Region3.lean ====
/-
  The second matrix-product region as one function of the arrays it finds. The region runs its body on a grid of
  27 × 25 points. At the point (k, q) the body reads the block of the left array with first coordinate k and rows
  6000 q … 6000 q + 5999 (all 32 columns) and the k-th 32 × 32 matrix of the right array, multiplies the two, and the
  product is written back as the block of the result at the same place as the left block. The 675 blocks tile the
  result, so after the region the result at (k, p, d) is the sum over c of left (k, p, c) times right (k, c, d),
  whatever the region found in the buffers.
-/
import proofs.«164309_j70342974374320_2_alg».proof.Proof.FrameKernelIdeal
import proofs.«164309_j70342974374320_2_alg».proof.Proof.MmPayload
import Idealize.ShloMosaic.Lib.Pipeline.Value
import Idealize.ShloMosaic.Lib.ValueIdx

noncomputable section

open scoped BigOperators

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem zero_offsets : (![0, 0, 0] : Fin 3 → Nat) = fun _ => 0 := funext fun a => by fin_cases a <;> rfl

/-- The product of the two stacks, matrix by matrix: at (k, p, d) the sum over c of left (k, p, c) · right (k, c, d). -/
def stackProduct (a0 : S27x150000x32.Idx → EReal) (a1 : S27x32x32.Idx → EReal) : S27x150000x32.Idx → EReal :=
  fun i => ∑ k : Fin 32, a0 (ix3 (i 0 : Fin 27) (i 1 : Fin 150000) k) * a1 (ix3 (i 0 : Fin 27) k (i 2 : Fin 32))

/-- The stack product at the index (k, p, d), the sum written out. -/
theorem stackProduct_apply (a0 : S27x150000x32.Idx → EReal) (a1 : S27x32x32.Idx → EReal)
    (k : Fin 27) (p : Fin 150000) (d : Fin 32) :
    stackProduct a0 a1 (ix3 k p d) = ∑ c : Fin 32, a0 (ix3 k p c) * a1 (ix3 k c d) := rfl

/-- The block indices of the three windows at the grid's point number t: the point is (t / 25, t % 25); the left
    array's and the result's block is (t / 25, t % 25, 0), the right array's (t / 25, 0, 0). Decided over the grid. -/
theorem block_index : ∀ t : Fin cfg3.N,
    win3_0.index t (0 : Fin 3) = t.val / 25 ∧ win3_0.index t (1 : Fin 3) = t.val % 25 ∧ win3_0.index t (2 : Fin 3) = 0
    ∧ win3_1.index t (0 : Fin 3) = t.val / 25 ∧ win3_1.index t (1 : Fin 3) = 0 ∧ win3_1.index t (2 : Fin 3) = 0
    ∧ win3_2.index t (0 : Fin 3) = t.val / 25 ∧ win3_2.index t (1 : Fin 3) = t.val % 25 ∧ win3_2.index t (2 : Fin 3) = 0 :=
  (by decide +kernel : ∀ t : Fin grid3.N, _)

/-- The left array's block at point t, at (u, p, k), is the array at (t / 25, 6000 (t % 25) + p, k). -/
theorem left_block_apply (c : Dev nD) (t : Fin cfg3.N) (u : Fin 1) (p : Fin 6000) (k : Fin 32) (i : S27x150000x32.Idx)
    (h0 : (i 0).val = t.val / 25) (h1 : (i 1).val = t.val % 25 * 6000 + p.val) (h2 : (i 2).val = k.val) :
    iblk3 V c 0 t (ix3 u p k) = V c (Pipeline.arrRef spec3 0) i := by
  obtain ⟨e0, e1, e2, -⟩ := block_index t
  have hu : u.val = 0 := by omega
  show V c (Pipeline.arrRef spec3 0) (((cfg3.win 0).blk t).view.emb (ix3 u p k)) = V c (Pipeline.arrRef spec3 0) i
  refine congrArg (V c (Pipeline.arrRef spec3 0) : S27x150000x32.Idx → EReal) (funext fun a => Fin.ext ?_)
  match a with
  | ⟨0, _⟩ => show win3_0.index t (0 : Fin 3) * 1 + 1 * u.val = (i 0).val; omega
  | ⟨1, _⟩ => show win3_0.index t (1 : Fin 3) * 6000 + 1 * p.val = (i 1).val; omega
  | ⟨2, _⟩ => show win3_0.index t (2 : Fin 3) * 32 + 1 * k.val = (i 2).val; omega

/-- The right array's block at point t, at (u, k, d), is the array at (t / 25, k, d). -/
theorem right_block_apply (c : Dev nD) (t : Fin cfg3.N) (u : Fin 1) (k : Fin 32) (d : Fin 32) (i : S27x32x32.Idx)
    (h0 : (i 0).val = t.val / 25) (h1 : (i 1).val = k.val) (h2 : (i 2).val = d.val) :
    iblk3 V c 1 t (ix3 u k d) = V c (Pipeline.arrRef spec3 1) i := by
  obtain ⟨-, -, -, e0, e1, e2, -⟩ := block_index t
  have hu : u.val = 0 := by omega
  show V c (Pipeline.arrRef spec3 1) (((cfg3.win 1).blk t).view.emb (ix3 u k d)) = V c (Pipeline.arrRef spec3 1) i
  refine congrArg (V c (Pipeline.arrRef spec3 1) : S27x32x32.Idx → EReal) (funext fun a => Fin.ext ?_)
  match a with
  | ⟨0, _⟩ => show win3_1.index t (0 : Fin 3) * 1 + 1 * u.val = (i 0).val; omega
  | ⟨1, _⟩ => show win3_1.index t (1 : Fin 3) * 32 + 1 * k.val = (i 1).val; omega
  | ⟨2, _⟩ => show win3_1.index t (2 : Fin 3) * 32 + 1 * d.val = (i 2).val; omega

/-- Where the result's block at point t puts its entry (u, p, d): at (t / 25, 6000 (t % 25) + p, d). -/
theorem result_block_emb (t : Fin cfg3.N) (u : Fin 1) (p : Fin 6000) (d : Fin 32) :
    ((((cfg3.win 2).blk t).view.emb (ix3 u p d)) (0 : Fin 3)).val = t.val / 25
    ∧ ((((cfg3.win 2).blk t).view.emb (ix3 u p d)) (1 : Fin 3)).val = t.val % 25 * 6000 + p.val
    ∧ ((((cfg3.win 2).blk t).view.emb (ix3 u p d)) (2 : Fin 3)).val = d.val := by
  obtain ⟨-, -, -, -, -, -, e0, e1, e2⟩ := block_index t
  have hu : u.val = 0 := by omega
  refine ⟨?_, ?_, ?_⟩
  · show win3_2.index t (0 : Fin 3) * 1 + 1 * u.val = _; omega
  · show win3_2.index t (1 : Fin 3) * 6000 + 1 * p.val = _; omega
  · show win3_2.index t (2 : Fin 3) * 32 + 1 * d.val = _; omega

/-- What point t writes back is block t of the stack product of the two arrays as the region finds them. -/
theorem flushed_eq (c : Dev nD) (t : Fin cfg3.N) :
    (dat3 (F := Ideal) V c).flushed 2 t
      = ((cfg3.win 2).blk t).view.read (Elt Ideal)
          (stackProduct (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S1x6000x32) zero_offsets, View.ld_unit_zero (S := S1x32x32) zero_offsets]
  refine funext fun (j : S1x6000x32.Idx) => ?_
  obtain ⟨u, p, d, rfl⟩ : ∃ (u : Fin 1) (p : Fin 6000) (d : Fin 32), j = ix3 u p d := ⟨j 0, j 1, j 2, eq_ix3 j⟩
  obtain rfl : u = 0 := Subsingleton.elim u 0
  show k3_pay1 (iblk3 V c 0 t) (iblk3 V c 1 t) (ix3 (0 : Fin 1) p d)
    = stackProduct (V c (Pipeline.arrRef spec3 0)) (V c (Pipeline.arrRef spec3 1))
        (((cfg3.win 2).blk t).view.emb (ix3 (0 : Fin 1) p d))
  refine (MmPayload.k3_pay1_apply _ _ p d).trans ?_
  obtain ⟨r0, r1, r2⟩ := result_block_emb t (0 : Fin 1) p d
  unfold stackProduct
  refine Finset.sum_congr rfl fun k _ => ?_
  exact congrArg₂ (· * ·) (left_block_apply V c t 0 p k _ r0 r1 rfl) (right_block_apply V c t 0 k d _ r0 rfl r2)

/-- An index of the result is in point t's block iff each coordinate is in the block's range on its axis. -/
theorem mem_block (t : Fin cfg3.N) (i : S27x150000x32.Idx) :
    i ∈ ((cfg3.win 2).blk t).view.set ↔ ∀ a : Fin 3, win3_2.index t a * S1x6000x32.size a ≤ (i a).val
      ∧ (i a).val < win3_2.index t a * S1x6000x32.size a + S1x6000x32.size a := by
  show i ∈ ((View.whole main_v42).slice (win3_2.rect t)).set ↔ _
  rw [View.set_slice_whole, Rect.mem_set_unit]
  exact Iff.rfl

/-- Every index (k, p, d) of the result is in the block of the point number 25 k + p / 6000. -/
theorem cover (i : S27x150000x32.Idx) :
    ∃ t : Fin cfg3.N, (cfg3.win 2).flush t = true ∧ i ∈ ((cfg3.win 2).blk t).view.set := by
  have h0 : (i 0).val < 27 := (i 0).isLt
  have h1 : (i 1).val < 150000 := (i 1).isLt
  have h2 : (i 2).val < 32 := (i 2).isLt
  have hN : cfg3.N = 675 := N_3
  obtain ⟨t, ht⟩ : ∃ t : Fin cfg3.N, t.val = (i 0).val * 25 + (i 1).val / 6000 :=
    ⟨⟨(i 0).val * 25 + (i 1).val / 6000, by rw [hN]; omega⟩, rfl⟩
  obtain ⟨-, -, -, -, -, -, e0, e1, e2⟩ := block_index t
  refine ⟨t, flush3_2 t, ?_⟩
  rw [mem_block]
  intro a
  match a with
  | ⟨0, _⟩ =>
    show win3_2.index t (0 : Fin 3) * 1 ≤ (i 0).val ∧ (i 0).val < win3_2.index t (0 : Fin 3) * 1 + 1
    omega
  | ⟨1, _⟩ =>
    show win3_2.index t (1 : Fin 3) * 6000 ≤ (i 1).val ∧ (i 1).val < win3_2.index t (1 : Fin 3) * 6000 + 6000
    omega
  | ⟨2, _⟩ =>
    show win3_2.index t (2 : Fin 3) * 32 ≤ (i 2).val ∧ (i 2).val < win3_2.index t (2 : Fin 3) * 32 + 32
    omega

/-- After the region the result array is the stack product of the two arrays the region found, whatever it found. -/
theorem region3_value (c : Dev nD) :
    (dat3 (F := Ideal) V c).arrAt 2 cfg3.N
      = stackProduct (V c (Pipeline.arrRef spec3 0)) (V c (Pipeline.arrRef spec3 1)) :=
  (dat3 V c).arrAt_eq_of_cover 2 _ (fun t _ => flushed_eq V c t) cover

end Cert.KernelIdeal.Region3

end
-- ==== Proof.StageMm2.lean ====
/-
  The second contraction. The kernel program multiplies the gathered rows by the weights in a pallas_call region, block by
  block; after the region the result array is the product of the two stacks, matrix by matrix, of what the region found.
  The reference does it by one host dot_general with one batch axis. Read at an index (k, p, d) both are the sum over c of
  gathered (k, p, c) times weight (k, c, d); the gathered arrays agree by hypothesis and the weights are the same argument.
-/
import proofs.«164309_j70342974374320_2_alg».proof.Proof.Bridge0
import proofs.«164309_j70342974374320_2_alg».proof.Proof.Region3
import proofs.«164309_j70342974374320_2_alg».proof.Proof.RefMm

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

variable (m : KMem) (ρ : Dev Cert.KernelIdeal.nD → PrngReg) (m' : RMem)

set_option maxHeartbeats 4000000 in
/-- The second contraction: the region's result and the host dot_general's are the same sums of products. -/
theorem mm2_eq (c : Dev Cert.KernelIdeal.nD)
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (hg : W17 m ρ c (Proc.devRef .tc Cert.KernelIdeal.main_v41) = R6 m' c (Proc.devRef .tc Cert.ReferenceIdeal.main_v55)) :
    W18 m ρ c (Proc.devRef .tc Cert.KernelIdeal.main_v42) = R7 m' c (Proc.devRef .tc Cert.ReferenceIdeal.main_v56) := by
  have hK : W18 m ρ c (Proc.devRef .tc Cert.KernelIdeal.main_v42)
      = Cert.KernelIdeal.Region3.stackProduct (W17 m ρ c (Proc.devRef .tc Cert.KernelIdeal.main_v41))
          (W17 m ρ c (Proc.devRef .tc Cert.KernelIdeal.main_arg8)) :=
    (W18_arr m ρ c 2).trans (Cert.KernelIdeal.Region3.region3_value (V17 m ρ) c)
  have hR : R7 m' c (Proc.devRef .tc Cert.ReferenceIdeal.main_v56)
      = Host.dotGeneral (F := Ideal) (φ₁ := .f32) (φ₂ := .f32) Cert.ReferenceIdeal.dot_S27x150000x32_S27x32x32_S27x150000x32_2_1_1_2_0_0 none
          (R6 m' c (Proc.devRef .tc Cert.ReferenceIdeal.main_v55)) (R6 m' c (Proc.devRef .tc Cert.ReferenceIdeal.main_arg8)) := by
    dsimp only [R7]
    simp only [opsS7]
    after_results_simp
  rw [hK, hR, hg, Cert.KernelIdeal.KChain.arg_at17 m ρ c _ kA8, Cert.ReferenceIdeal.RChain.arg_at6 m' c _ rA8, h8]
  refine funext fun (i : (⟨3, ![27, 150000, 32]⟩ : Shape).Idx) => ?_
  obtain ⟨k, p, d, rfl⟩ : ∃ (k : Fin 27) (p : Fin 150000) (d : Fin 32), i = ValueIdx.ix3 k p d :=
    ⟨i 0, i 1, i 2, ValueIdx.eq_ix3 i⟩
  exact (Cert.KernelIdeal.Region3.stackProduct_apply _ _ k p d).trans
    (Cert.ReferenceIdeal.RefMm.dotGeneral_apply _ _ k p d).symm

end Cert.Bridge

end
-- ==== Proof.StageOut.lean ====
/-
  The block's output. Both programs take the second contraction's products and the output-side index table (invalid
  entries sent to the extra row), flatten both, add the products at the indexed rows of a zero array of 300001 rows, keep
  the first 300000 rows, and add the input features back. The kernel program does it in the stretches after its fourth
  region, the reference in its eighth stage; given that the validity mask and the products agree, the two results are one
  term of them, of the output-side index argument and of the features.
-/
import proofs.«164309_j70342974374320_2_alg».proof.Proof.Bridge0

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

variable (m : KMem) (ρ : Dev Cert.KernelIdeal.nD → PrngReg) (m' : RMem)

set_option maxHeartbeats 4000000 in
/-- The second scatter-add, its slice and the residual sum: one chain of host operations on both sides, over the validity
    mask, the output-side index argument, the second contraction's products and the features. -/
theorem out_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hv : W17 m ρ c (Proc.devRef .tc Cert.KernelIdeal.main_v33) = R6 m' c (Proc.devRef .tc Cert.ReferenceIdeal.main_v47))
    (hc : W18 m ρ c (Proc.devRef .tc Cert.KernelIdeal.main_v42) = R7 m' c (Proc.devRef .tc Cert.ReferenceIdeal.main_v56)) :
    W33 m ρ c (Proc.devRef .tc Cert.KernelIdeal.main_v50) = R10 m' c (Proc.devRef .tc Cert.ReferenceIdeal.main_v64) := by
  -- the pooling stretches and stages after the sum write other buffers
  have k33 : W33 m ρ c (Proc.devRef .tc Cert.KernelIdeal.main_v50) = W32 m ρ c (Proc.devRef .tc Cert.KernelIdeal.main_v50) := by kept_across hostOps4_14
  have k32 : W32 m ρ c (Proc.devRef .tc Cert.KernelIdeal.main_v50) = W31 m ρ c (Proc.devRef .tc Cert.KernelIdeal.main_v50) := by kept_across hostOps4_13
  have k31 : W31 m ρ c (Proc.devRef .tc Cert.KernelIdeal.main_v50) = W30 m ρ c (Proc.devRef .tc Cert.KernelIdeal.main_v50) := by kept_across hostOps4_12
  have k30 : W30 m ρ c (Proc.devRef .tc Cert.KernelIdeal.main_v50) = W29 m ρ c (Proc.devRef .tc Cert.KernelIdeal.main_v50) := by kept_across hostOps4_11
  have k29 : W29 m ρ c (Proc.devRef .tc Cert.KernelIdeal.main_v50) = W28 m ρ c (Proc.devRef .tc Cert.KernelIdeal.main_v50) := by kept_across hostOps4_10
  have k28 : W28 m ρ c (Proc.devRef .tc Cert.KernelIdeal.main_v50) = W27 m ρ c (Proc.devRef .tc Cert.KernelIdeal.main_v50) := by kept_across hostOps4_9
  have k27 : W27 m ρ c (Proc.devRef .tc Cert.KernelIdeal.main_v50) = W26 m ρ c (Proc.devRef .tc Cert.KernelIdeal.main_v50) := by kept_across hostOps4_8
  have k26 : W26 m ρ c (Proc.devRef .tc Cert.KernelIdeal.main_v50) = W25 m ρ c (Proc.devRef .tc Cert.KernelIdeal.main_v50) := by kept_across hostOps4_7
  have k25 : W25 m ρ c (Proc.devRef .tc Cert.KernelIdeal.main_v50) = W24 m ρ c (Proc.devRef .tc Cert.KernelIdeal.main_v50) := by kept_across hostOps4_6
  have k24 : W24 m ρ c (Proc.devRef .tc Cert.KernelIdeal.main_v50) = W23 m ρ c (Proc.devRef .tc Cert.KernelIdeal.main_v50) := by kept_across hostOps4_5
  have k23 : W23 m ρ c (Proc.devRef .tc Cert.KernelIdeal.main_v50) = W22 m ρ c (Proc.devRef .tc Cert.KernelIdeal.main_v50) := by kept_across hostOps4_4
  have k22 : W22 m ρ c (Proc.devRef .tc Cert.KernelIdeal.main_v50) = W21 m ρ c (Proc.devRef .tc Cert.KernelIdeal.main_v50) := by kept_across hostOps4_3
  rw [k33, k32, k31, k30, k29, k28, k27, k26, k25, k24, k23, k22]
  have r10 : R10 m' c (Proc.devRef .tc Cert.ReferenceIdeal.main_v64) = R9 m' c (Proc.devRef .tc Cert.ReferenceIdeal.main_v64) := by kept_stage opsS10
  have r9 : R9 m' c (Proc.devRef .tc Cert.ReferenceIdeal.main_v64) = R8 m' c (Proc.devRef .tc Cert.ReferenceIdeal.main_v64) := by kept_stage opsS9
  rw [r10, r9]
  -- what the two chains read at the boundaries they stop at
  have hm : W18 m ρ c (Proc.devRef .tc Cert.KernelIdeal.main_v33) = W17 m ρ c (Proc.devRef .tc Cert.KernelIdeal.main_v33) := W18_of_ne m ρ c _ (by decide)
  have ha4 := Cert.KernelIdeal.KChain.arg_at18 m ρ c _ kA4
  have ha0 := Cert.KernelIdeal.KChain.arg_at18 m ρ c _ kA0
  have e1 : R7 m' c (Proc.devRef .tc Cert.ReferenceIdeal.main_v47) = R6 m' c (Proc.devRef .tc Cert.ReferenceIdeal.main_v47) := by kept_stage opsS7
  have e4 := Cert.ReferenceIdeal.RChain.arg_at7 m' c _ rA4
  have e0 := Cert.ReferenceIdeal.RChain.arg_at7 m' c _ rA0
  -- the reference's contents after its seventh stage, as one valuation (a single operation: unfolding would read through it)
  dsimp only [R8]
  generalize R7 m' c = VR at hc e1 e4 e0 ⊢
  dsimp only [W21, W20, W19, hostOps4_2, hostOps4_1, hostOps4]
  simp only [opsS8, opsWhere0, List.cons_append, List.nil_append, List.append_assoc]
  after_results_simp
  simp only [hm, ha4, ha0, e1, e4, e0]
  rw [hv, hc, h4, h0]
  rfl

end Cert.Bridge

end
-- ==== Proof.StageXyz.lean ====
/-
  The pooled coordinates. After the second contraction both programs apply one and the same chain of host operations to the
  coordinate array and the two down-sampling index arguments (mask the valid pairs, gather, scatter-add the rows and the
  counts, divide by the count floored at one): the kernel program's last stretches read back to the region boundary, the
  reference's ninth stage read back to its entry, are one term of the arguments.
-/
import proofs.«164309_j70342974374320_2_alg».proof.Proof.Bridge0

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

variable (m : KMem) (ρ : Dev Cert.KernelIdeal.nD → PrngReg) (m' : RMem)

set_option maxHeartbeats 4000000 in
/-- The pooled coordinates: both programs apply one chain of host operations to the coordinate array and the two index
    arguments. -/
theorem xyz_eq (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    W33 m ρ c (Proc.devRef .tc Cert.KernelIdeal.main_v77) = R10 m' c (Proc.devRef .tc Cert.ReferenceIdeal.main_v91) := by
  have hR : R10 m' c (Proc.devRef .tc Cert.ReferenceIdeal.main_v91) = R9 m' c (Proc.devRef .tc Cert.ReferenceIdeal.main_v91) := by
    kept_stage opsS10
  rw [hR]
  dsimp only [W33, W32, W31, W30, W29, W28, W27, W26, W25, W24, W23, W22, W21, W20, W19,
    hostOps4_14, hostOps4_13, hostOps4_12, hostOps4_11, hostOps4_10, hostOps4_9, hostOps4_8, hostOps4_7, hostOps4_6, hostOps4_5,
    hostOps4_4, hostOps4_3, hostOps4_2, hostOps4_1, hostOps4, R9]
  simp only [opsS9, opsS9a, opsS9b, opsWhere2, opsWhere3, List.cons_append, List.nil_append, List.append_assoc]
  after_results_simp
  simp only [Cert.KernelIdeal.KChain.arg_at18 m ρ c _ kA1, Cert.KernelIdeal.KChain.arg_at18 m ρ c _ kA5,
    Cert.KernelIdeal.KChain.arg_at18 m ρ c _ kA6, Cert.ReferenceIdeal.RChain.arg_at8 m' c _ rA1,
    Cert.ReferenceIdeal.RChain.arg_at8 m' c _ rA5, Cert.ReferenceIdeal.RChain.arg_at8 m' c _ rA6]
  rw [h1, h5, h6]
  rfl

end Cert.Bridge

end
-- ==== Proof.StageBatch.lean ====
/-
  The pooled batch indices. After the second contraction both programs apply one and the same chain of host operations to
  the batch-index argument and the two down-sampling index arguments: the indices as floats, gathered at the valid pairs'
  positions (zero elsewhere), added at their cluster's entry of a zero vector with one extra entry, and divided by the
  clusters' counts floored at one. The kernel program's last stretches read back to the region boundary, the reference's
  tenth stage read back to its entry, are one term of the three arguments.
-/
import proofs.«164309_j70342974374320_2_alg».proof.Proof.Bridge0

set_option maxRecDepth 16384

noncomputable section

namespace Cert.Bridge

open Idealize.ShloMosaic Idealize.ShloMosaic.TcCoe Idealize.ShloMosaic.StableHlo Idealize.SL.Sem
open Cert.KernelIdeal.GenP (W0 W1 W2 W3 W4 W5 W6 W7 W8 W9 W10 W11 W12 W13 W14 W15 W16 W17 W18 W19 W20 W21 W22 W23 W24 W25 W26 W27 W28 W29 W30 W31 W32 W33 hostOps0 hostOps0_1 hostOps0_2 hostOps1 hostOps1_1 hostOps1_2 hostOps2 hostOps2_1 hostOps2_2 hostOps2_3 hostOps2_4 hostOps3 hostOps3_1 hostOps3_2 hostOps4 hostOps4_1 hostOps4_2 hostOps4_3 hostOps4_4 hostOps4_5 hostOps4_6 hostOps4_7 hostOps4_8 hostOps4_9 hostOps4_10 hostOps4_11 hostOps4_12 hostOps4_13 hostOps4_14 W4_arr W8_arr W14_arr W18_arr W4_of_ne W8_of_ne W14_of_ne W18_of_ne V3 V7 V13 V17)
open Cert.ReferenceIdeal.RChain (R0 R1 R2 R3 R4 R5 R6 R7 R8 R9 R10)
open Cert.ReferenceIdeal.RefRun (opsS1 opsS2 opsS3 opsS4 opsS5 opsS6 opsS7 opsS8 opsS9 opsS9a opsS9b opsS10 opsWhere opsVar opsRelu opsWhere0 opsVar1 opsWhere2 opsWhere3 opsWhere4)

variable (m : KMem) (ρ : Dev Cert.KernelIdeal.nD → PrngReg) (m' : RMem)

set_option maxHeartbeats 4000000 in
/-- The pooled batch indices: both programs apply one chain of host operations to the batch indices and the two index
    arguments. -/
theorem batch_eq (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    W33 m ρ c (Proc.devRef .tc Cert.KernelIdeal.main_v102) = R10 m' c (Proc.devRef .tc Cert.ReferenceIdeal.main_v116) := by
  dsimp only [W33, W32, W31, W30, W29, W28, W27, W26, W25, W24, W23, W22, W21, W20, W19,
    hostOps4_14, hostOps4_13, hostOps4_12, hostOps4_11, hostOps4_10, hostOps4_9, hostOps4_8, hostOps4_7, hostOps4_6, hostOps4_5,
    hostOps4_4, hostOps4_3, hostOps4_2, hostOps4_1, hostOps4, R10]
  simp only [opsS10, opsWhere2, opsWhere4, List.cons_append, List.nil_append, List.append_assoc]
  after_results_simp
  simp only [Cert.KernelIdeal.KChain.arg_at18 m ρ c _ kA2, Cert.KernelIdeal.KChain.arg_at18 m ρ c _ kA5,
    Cert.KernelIdeal.KChain.arg_at18 m ρ c _ kA6, Cert.ReferenceIdeal.RChain.arg_at9 m' c _ rA2,
    Cert.ReferenceIdeal.RChain.arg_at9 m' c _ rA5, Cert.ReferenceIdeal.RChain.arg_at9 m' c _ rA6]
  rw [h2, h5, h6]
  rfl

end Cert.Bridge

end
-- ==== Proof.lean ====
/-
  The certificate's claim: a sparse-convolution stage — normalize and rectify the features, gather the neighbour rows,
  contract them with the offsets' weights, scatter-add the contributions; once more on the result; add the input back; and
  pool the coordinates and the batch indices over the down-sampling pairs — run with the normalization and the contraction
  as tiled kernels, against the same stage written with whole-array operations.

  At the ideal instance the two programs are one composition. The normalization kernel's block of rows is the whole-array
  formula max((x − mean)·rsqrt(var + ε), 0) restricted to the block, and its blocks tile the array; the contraction kernel's
  block is, entry by entry, the 32-term sum of products that the reference's batched dot product is, and its blocks tile the
  stack; every other step is the same host operation in both programs. So the comparison walks the two programs side by
  side: each boundary of the kernel program holds, in the buffer that matters, what the matching stage of the reference
  leaves, from the first normalization to the three results. No law of the extended reals beyond the reordering-free
  equality of the same sums is used, and the finiteness precondition is never opened.
-/
import proofs.«164309_j70342974374320_2_alg».proof.Proof.Claims
import proofs.«164309_j70342974374320_2_alg».proof.Proof.StageNorm1
import proofs.«164309_j70342974374320_2_alg».proof.Proof.StageGather1
import proofs.«164309_j70342974374320_2_alg».proof.Proof.StageMm1
import proofs.«164309_j70342974374320_2_alg».proof.Proof.StageScatter1
import proofs.«164309_j70342974374320_2_alg».proof.Proof.StageNorm2b
import proofs.«164309_j70342974374320_2_alg».proof.Proof.StageGather2
import proofs.«164309_j70342974374320_2_alg».proof.Proof.StageMm2
import proofs.«164309_j70342974374320_2_alg».proof.Proof.StageOut
import proofs.«164309_j70342974374320_2_alg».proof.Proof.StageXyz
import proofs.«164309_j70342974374320_2_alg».proof.Proof.StageBatch
import proofs.«164309_j70342974374320_2_alg».proof.Proof.Gen.Kernel
import proofs.«164309_j70342974374320_2_alg».proof.Proof.Gen.KernelIdeal
import proofs.«164309_j70342974374320_2_alg».proof.Proof.Gen.ReferenceIdeal
import proofs.«164309_j70342974374320_2_alg».proof.Proof.Gen.Pre_finite_inputs

noncomputable section

namespace Cert.Proof

open Idealize.ShloMosaic Idealize.ShloMosaic.TcCoe Idealize.SL.Sem
open Cert.Bridge Cert.Proof.Claims
open Cert.KernelIdeal.GenP (W33)
open Cert.ReferenceIdeal.RChain (R10)

/-- The main result, boundary by boundary: the first normalization, the mask and the gather, the contraction, the
    scatter-add; the same again on its result; then the second scatter-add's slice plus the input. -/
theorem out_chain (m : KMem) (ρ : Dev Cert.KernelIdeal.nD → PrngReg) (m' : RMem) (c : Dev Cert.KernelIdeal.nD)
    (h : AgreeAt m m' c) :
    W33 m ρ c (Proc.devRef .tc Cert.KernelIdeal.main_v50) = R10 m' c (Proc.devRef .tc Cert.ReferenceIdeal.main_v64) := by
  obtain ⟨h0, h1, h2, h3, h4, h5, h6, h7, h8⟩ := h
  have e1 := bn1_eq m ρ m' c h0
  have ev1 := valid1_eq m ρ m' c h3
  have e2 := gath1_eq m ρ m' c h3 e1
  have e3 := mm1_eq m ρ m' c h7 e2
  have e4 := scat1_eq m ρ m' c h4 ev1 e3
  have e5 := bn2_eq m ρ m' c e4
  have ev2 := valid2_eq m ρ m' c h3
  have e6 := gath2_eq m ρ m' c h3 e5
  have e7 := mm2_eq m ρ m' c h8 e6
  exact out_eq m ρ m' c h0 h4 ev2 e7

theorem claim : Cert.Claim :=
  ⟨Cert.Kernel.Gen.facts, Cert.KernelIdeal.Gen.facts, Cert.ReferenceIdeal.Gen.facts, Cert.Pre_finite_inputs.Gen.facts,
    frame_p, frame_pi, frame_ri, preserves,
    algebraic_of out_chain
      (fun m ρ m' c h => xyz_eq m ρ m' c h.2.1 h.2.2.2.2.2.1 h.2.2.2.2.2.2.1)
      (fun m ρ m' c h => batch_eq m ρ m' c h.2.2.1 h.2.2.2.2.2.1 h.2.2.2.2.2.2.1)⟩

end Cert.Proof

end
